-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8192x256 .f32) (main_arg1 : FVec F S8192x8192 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S1x256 : Shape := ⟨2, ![1, 256]⟩
abbrev S8192x1 : Shape := ⟨2, ![8192, 1]⟩
abbrev S256x4096 : Shape := ⟨2, ![256, 4096]⟩
abbrev S4096x1 : Shape := ⟨2, ![4096, 1]⟩
abbrev S1x4096 : Shape := ⟨2, ![1, 4096]⟩
abbrev S4096 : Shape := ⟨1, ![4096]⟩
abbrev S2048x256 : Shape := ⟨2, ![2048, 256]⟩
abbrev S2048x1 : Shape := ⟨2, ![2048, 1]⟩
abbrev S512x1 : Shape := ⟨2, ![512, 1]⟩
abbrev S512x256 : Shape := ⟨2, ![512, 256]⟩
abbrev S256x1 : Shape := ⟨2, ![256, 1]⟩

abbrev nBuf : Space → Nat
  | .hbm => 8
  | .vmem => 22
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S8192x1, .f32⟩
  | .hbm, ⟨6, _⟩ => ⟨S8192x256, .f32⟩
  | .hbm, ⟨7, _⟩ => ⟨S8192x256, .f32⟩
  | .local _ .vmem, ⟨0, _⟩ => ⟨S256x4096, .f32⟩
  | .local _ .vmem, ⟨1, _⟩ => ⟨S256x4096, .f32⟩
  | .local _ .vmem, ⟨2, _⟩ => ⟨S4096x1, .f32⟩
  | .local _ .vmem, ⟨3, _⟩ => ⟨S4096x1, .f32⟩
  | .local _ .vmem, ⟨4, _⟩ => ⟨S1x4096, .f32⟩
  | .local _ .vmem, ⟨5, _⟩ => ⟨S2048x256, .f32⟩
  | .local _ .vmem, ⟨6, _⟩ => ⟨S2048x256, .f32⟩
  | .local _ .vmem, ⟨7, _⟩ => ⟨S256x256, .f32⟩
  | .local _ .vmem, ⟨8, _⟩ => ⟨S2048x1, .f32⟩
  | .local _ .vmem, ⟨9, _⟩ => ⟨S2048x1, .f32⟩
  | .local _ .vmem, ⟨10, _⟩ => ⟨S2048x256, .f32⟩
  | .local _ .vmem, ⟨11, _⟩ => ⟨S2048x256, .f32⟩
  | .local _ .vmem, ⟨12, _⟩ => ⟨S8192x256, .f32⟩
  | .local _ .vmem, ⟨13, _⟩ => ⟨S8192x256, .f32⟩
  | .local _ .vmem, ⟨14, _⟩ => ⟨S8192x256, .f32⟩
  | .local _ .vmem, ⟨15, _⟩ => ⟨S8192x256, .f32⟩
  | .local _ .vmem, ⟨16, _⟩ => ⟨S8192x256, .f32⟩
  | .local _ .vmem, ⟨17, _⟩ => ⟨S512x1, .f32⟩
  | .local _ .vmem, ⟨18, _⟩ => ⟨S512x1, .f32⟩
  | .local _ .vmem, ⟨19, _⟩ => ⟨S1x256, .f32⟩
  | .local _ .vmem, ⟨20, _⟩ => ⟨S512x256, .f32⟩
  | .local _ .vmem, ⟨21, _⟩ => ⟨S512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v11 : BitVec 1 := Scalar.cmpi .eq arg1 c31_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc2_transform_1 (i : grid2.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8192x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S256_S1x256 : S256.ShapeCasts S1x256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S256x4096_S256x4096_0_0 : ∀ a, (![0, 0] : Fin 2 → Nat) a + S256x4096.size a ≤ S256x4096.size a
  h_S256x4096 : 0 < S256x4096.numel
  reduces_S256x4096_S4096 : S256x4096.Reduces [0] S4096
  shapeCasts_S4096_S1x4096 : S4096.ShapeCasts S1x4096
  shapeCasts_S1x4096_S4096x1 : S1x4096.ShapeCasts S4096x1
  inb_S4096x1_S4096x1_0_0 : ∀ a, (![0, 0] : Fin 2 → Nat) a + S4096x1.size a ≤ S4096x1.size a
  h_S4096x1 : 0 < S4096x1.numel
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  inb_S8192x256_S2048x256_0_0 : ∀ a, (![0, 0] : Fin 2 → Nat) a + S2048x256.size a ≤ S8192x256.size a
  shapeCasts_S2048x256_S2048x256 : S2048x256.ShapeCasts S2048x256
  inb_S8192x256_S2048x256_2048_0 : ∀ a, (![2048, 0] : Fin 2 → Nat) a + S2048x256.size a ≤ S8192x256.size a
  inb_S8192x256_S2048x256_4096_0 : ∀ a, (![4096, 0] : Fin 2 → Nat) a + S2048x256.size a ≤ S8192x256.size a
  inb_S8192x256_S2048x256_6144_0 : ∀ a, (![6144, 0] : Fin 2 → Nat) a + S2048x256.size a ≤ S8192x256.size a
  inb_S512x1_S256x1_0_0 : ∀ a, (![0, 0] : Fin 2 → Nat) a + S256x1.size a ≤ S512x1.size a
  h_S256x1 : 0 < S256x1.numel
  shapeCasts_S256x1_S256x1 : S256x1.ShapeCasts S256x1
  broadcasts_S256x1_S256x256 : S256x1.Broadcasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S512x256_S256x256_0_0 : ∀ a, (![0, 0] : Fin 2 → Nat) a + S256x256.size a ≤ S512x256.size a
  inb_S512x1_S256x1_256_0 : ∀ a, (![256, 0] : Fin 2 → Nat) a + S256x1.size a ≤ S512x1.size a
  inb_S512x256_S256x256_256_0 : ∀ a, (![256, 0] : Fin 2 → Nat) a + S256x256.size a ≤ S512x256.size a
  dot_S2048x256_S256x256_S2048x256_1_0_0_1_n_n_wf : DotDims.WF S2048x256 S256x256 S2048x256 [1] [0] [0] [1] [] []
  dot_S2048x256_S2048x256_S256x256_0_0_1_1_n_n_wf : DotDims.WF S2048x256 S2048x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x8192.size a
  hwx0_0 : ∀ i : grid0.Coords, EltTy.bits .f32 = 32 ∨ (Rect.block (s := S8192x8192) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S8192x1.size a
  hwx0_1 : ∀ i : grid0.Coords, EltTy.bits .f32 = 32 ∨ (Rect.block (s := S8192x1) S4096x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .f32 = 32 ∨ (Rect.block (s := S8192x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x256.size a
  hwx1_3 : ∀ i : grid1.Coords, EltTy.bits .f32 = 32 ∨ (Rect.block (s := S8192x256) S2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x256.size a ≤ S8192x8192.size a
  hwx2_0 : ∀ i : grid2.Coords, EltTy.bits .f32 = 32 ∨ (Rect.block (s := S8192x8192) S8192x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x8192.size a
  hwx2_1 : ∀ i : grid2.Coords, EltTy.bits .f32 = 32 ∨ (Rect.block (s := S8192x8192) S8192x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8192x256.size a ≤ S8192x256.size a
  hwx2_2 : ∀ i : grid2.Coords, EltTy.bits .f32 = 32 ∨ (Rect.block (s := S8192x256) S8192x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S8192x1.size a
  hwx2_3 : ∀ i : grid2.Coords, EltTy.bits .f32 = 32 ∨ (Rect.block (s := S8192x1) S512x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x256.size a ≤ S8192x256.size a
  hwx2_5 : ∀ i : grid2.Coords, EltTy.bits .f32 = 32 ∨ (Rect.block (s := S8192x256) S512x256.size (cc2_transform_5 i) (hinb2_5 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S2048x256_S256x256_0_0_1_1_n_n : DotDims S2048x256 S2048x256 S256x256 where
  lhsContracting := [0]
  rhsContracting := [0]
  lhsNonContracting := [1]
  rhsNonContracting := [1]
  lhsBatch := []
  rhsBatch := []
  wf := dot_S2048x256_S2048x256_S256x256_0_0_1_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S4096x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S8192x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S8192x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v1) S8192x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v0) S512x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v0) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v1) S512x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S0 : Shape := ⟨1, ![0]⟩
abbrev S_ : Shape := ⟨0, ![]⟩
abbrev S8192 : Shape := ⟨1, ![8192]⟩
abbrev S1x256 : Shape := ⟨2, ![1, 256]⟩
abbrev S1 : Shape := ⟨1, ![1]⟩
abbrev S8192x1 : Shape := ⟨2, ![8192, 1]⟩
abbrev S512x256 : Shape := ⟨2, ![512, 256]⟩
abbrev S512x1 : Shape := ⟨2, ![512, 1]⟩
abbrev S256x1 : Shape := ⟨2, ![256, 1]⟩

abbrev nBuf : Space → Nat
  | .hbm => 38
  | .vmem => 17
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S0, .i32⟩
  | .hbm, ⟨5, _⟩ => ⟨S0, .i32⟩
  | .hbm, ⟨6, _⟩ => ⟨S0, .i32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .i1⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192x256, .f32⟩
  | .hbm, ⟨19, _⟩ => ⟨S8192x256, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S1x256, .f32⟩
  | .hbm, ⟨28, _⟩ => ⟨S_, .i32⟩
  | .hbm, ⟨29, _⟩ => ⟨S1, .i32⟩
  | .hbm, ⟨30, _⟩ => ⟨S1x256, .f32⟩
  | .hbm, ⟨31, _⟩ => ⟨S_, .f32⟩
  | .hbm, ⟨32, _⟩ => ⟨S8192x1, .f32⟩
  | .hbm, ⟨33, _⟩ => ⟨S_, .i32⟩
  | .hbm, ⟨34, _⟩ => ⟨S1, .i32⟩
  | .hbm, ⟨35, _⟩ => ⟨S8192x1, .f32⟩
  | .hbm, ⟨36, _⟩ => ⟨S8192x256, .f32⟩
  | .hbm, ⟨37, _⟩ => ⟨S8192x256, .f32⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S512x1, .f32⟩
  | .local _ .vmem, ⟨4, _⟩ => ⟨S512x1, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S256x1, .f32⟩
  | .local _ .vmem, ⟨12, _⟩ => ⟨S256x1, .f32⟩
  | .local _ .vmem, ⟨13, _⟩ => ⟨S1x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_c_0 : Ref sig .tc := ⟨.hbm, 5, rfl⟩
abbrev main_call0_c_1 : Ref sig .tc := ⟨.hbm, 6, rfl⟩
abbrev main_call0_cst : Ref sig .tc := ⟨.hbm, 7, rfl⟩
abbrev main_call0_v0 : Ref sig .tc := ⟨.hbm, 8, rfl⟩
abbrev main_call0_cst_2 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_cst_3 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_v4 : Ref sig .tc := ⟨.hbm, 16, rfl⟩
abbrev main_call0_cst_4 : Ref sig .tc := ⟨.hbm, 17, rfl⟩
abbrev main_call0_v5 : Ref sig .tc := ⟨.hbm, 18, rfl⟩
abbrev main_call0_v6 : Ref sig .tc := ⟨.hbm, 19, rfl⟩
abbrev main_call0_cst_5 : Ref sig .tc := ⟨.hbm, 20, rfl⟩
abbrev main_call0_v7 : Ref sig .tc := ⟨.hbm, 21, rfl⟩
abbrev main_call0_v8 : Ref sig .tc := ⟨.hbm, 22, rfl⟩
abbrev main_call0_cst_6 : Ref sig .tc := ⟨.hbm, 23, rfl⟩
abbrev main_call0_v9 : Ref sig .tc := ⟨.hbm, 24, rfl⟩
abbrev main_call0_v10 : Ref sig .tc := ⟨.hbm, 25, rfl⟩
abbrev main_call0_cst_7 : Ref sig .tc := ⟨.hbm, 26, rfl⟩
abbrev main_call0_v11 : Ref sig .tc := ⟨.hbm, 27, rfl⟩
abbrev main_call0_c_8 : Ref sig .tc := ⟨.hbm, 28, rfl⟩
abbrev main_call0_v12 : Ref sig .tc := ⟨.hbm, 29, rfl⟩
abbrev main_call0_v13 : Ref sig .tc := ⟨.hbm, 30, rfl⟩
abbrev main_call0_cst_9 : Ref sig .tc := ⟨.hbm, 31, rfl⟩
abbrev main_call0_v14 : Ref sig .tc := ⟨.hbm, 32, rfl⟩
abbrev main_call0_c_10 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_v0 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  hz_S0 : S0.numel = 0
  reducesTo_S8192x8192_S8192_d0 : S8192x8192.ReducesTo [0] S8192
  h_S_ : 0 < S_.numel
  bcast_S_S8192 : S_.BroadcastsInDim S8192 (![] : Fin 0 → Fin S8192.rank)
  bcast_S_S8192x256 : S_.BroadcastsInDim S8192x256 (![] : Fin 0 → Fin S8192x256.rank)
  bcast_S_S8192x8192 : S_.BroadcastsInDim S8192x8192 (![] : Fin 0 → Fin S8192x8192.rank)
  bcast_S_S256x256 : S_.BroadcastsInDim S256x256 (![] : Fin 0 → Fin S256x256.rank)
  bcast_S_S1x256 : S_.BroadcastsInDim S1x256 (![] : Fin 0 → Fin S1x256.rank)
  bcast_S_S1 : S_.BroadcastsInDim S1 (![] : Fin 0 → Fin S1.rank)
  bcast_S_S8192x1 : S_.BroadcastsInDim S8192x1 (![] : Fin 0 → Fin S8192x1.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x256 : S256x1.Broadcasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  scatter_S8192x256_S0_S8192x256_01_n_n_0_wf : ScatterDims.WF S8192x256 S0 S8192x256 [0, 1] [] [] 0
  scatter_S8192x8192_S0_S8192x8192_01_n_n_0_wf : ScatterDims.WF S8192x8192 S0 S8192x8192 [0, 1] [] [] 0
  scatter_S256x256_S0_S256x256_01_n_n_0_wf : ScatterDims.WF S256x256 S0 S256x256 [0, 1] [] [] 0
  scatter_S1x256_S1_S256_0_0_0_0_wf : ScatterDims.WF S1x256 S1 S256 [0] [0] [0] 0
  scatter_S8192x1_S1_S8192_0_1_1_0_wf : ScatterDims.WF S8192x1 S1 S8192 [0] [1] [1] 0
  dot_S512x256_S256x256_S512x256_1_0_0_1_n_n_wf : DotDims.WF S512x256 S256x256 S512x256 [1] [0] [0] [1] [] []
  dot_S512x256_S512x256_S256x256_0_0_1_1_n_n_wf : DotDims.WF S512x256 S512x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x256.size a
  hwx0_3 : ∀ i : grid0.Coords, EltTy.bits .f32 = 32 ∨ (Rect.block (s := S8192x256) S512x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x8192.size a
  hwx1_0 : ∀ i : grid1.Coords, EltTy.bits .f32 = 32 ∨ (Rect.block (s := S8192x8192) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S8192x256.size a
  hwx1_1 : ∀ i : grid1.Coords, EltTy.bits .f32 = 32 ∨ (Rect.block (s := S8192x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S8192x1.size a
  hwx1_2 : ∀ i : grid1.Coords, EltTy.bits .f32 = 32 ∨ (Rect.block (s := S8192x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S8192x256.size a
  hwx1_4 : ∀ i : grid1.Coords, EltTy.bits .f32 = 32 ∨ (Rect.block (s := S8192x256) S256x256.size (cc1_transform_4 i) (hinb1_4 i)).WholeWords (EltTy.packing .f32)

variable [Facts₀]

def scatter_S8192x256_S0_S8192x256_01_n_n_0 : ScatterDims S8192x256 S0 S8192x256 where
  updateWindowDims := [0, 1]
  insertedWindowDims := []
  scatterDimsToOperandDims := []
  indexVectorDim := 0
  wf := scatter_S8192x256_S0_S8192x256_01_n_n_0_wf
def scatter_S8192x8192_S0_S8192x8192_01_n_n_0 : ScatterDims S8192x8192 S0 S8192x8192 where
  updateWindowDims := [0, 1]
  insertedWindowDims := []
  scatterDimsToOperandDims := []
  indexVectorDim := 0
  wf := scatter_S8192x8192_S0_S8192x8192_01_n_n_0_wf
def scatter_S256x256_S0_S256x256_01_n_n_0 : ScatterDims S256x256 S0 S256x256 where
  updateWindowDims := [0, 1]
  insertedWindowDims := []
  scatterDimsToOperandDims := []
  indexVectorDim := 0
  wf := scatter_S256x256_S0_S256x256_01_n_n_0_wf
def scatter_S1x256_S1_S256_0_0_0_0 : ScatterDims S1x256 S1 S256 where
  updateWindowDims := [0]
  insertedWindowDims := [0]
  scatterDimsToOperandDims := [0]
  indexVectorDim := 0
  wf := scatter_S1x256_S1_S256_0_0_0_0_wf
def scatter_S8192x1_S1_S8192_0_1_1_0 : ScatterDims S8192x1 S1 S8192 where
  updateWindowDims := [0]
  insertedWindowDims := [1]
  scatterDimsToOperandDims := [1]
  indexVectorDim := 0
  wf := scatter_S8192x1_S1_S8192_0_1_1_0_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S512x256_S256x256_0_0_1_1_n_n : DotDims S512x256 S512x256 S256x256 where
  lhsContracting := [0]
  rhsContracting := [0]
  lhsNonContracting := [1]
  rhsNonContracting := [1]
  lhsBatch := []
  rhsBatch := []
  wf := dot_S512x256_S512x256_S256x256_0_0_1_1_n_n_wf

abbrev win0_0 : Pipeline.Window sig grid0 :=
  Pipeline.Window.ofSpec (Memref.whole main_call0_v6) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v10) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v16) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v17) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v8) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v17) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v16) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v13) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S256x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== Proof.KerBDinvRuns.lean ====
/-
  The first of the kernel's three regions: dinv[i] = rsqrt(sum_j graph[j, i]) where that column sum is positive,
  0 elsewhere. The grid is 2 column slabs of 4096 columns by 32 row slabs of 256 rows. A scratch row of 4096 sums
  is carried along the row slabs of one column slab: reset to zero at the first row slab, increased by the row
  slab's column sums at every one, and at the last turned into the 4096 x 1 column of the output. So the body has
  three ways to run, by the row slab's position: first, middle, last. Here: the two conditions in closed form over
  the grid, where the output window is idle, the buffers the body is called with, the region's invariant split
  into the scratch row and the rest, and the body's run in each of the three cases, the stores each leaves found
  by running it.
-/
import proofs.«168457_g2000706009674355_pallasbulk_102_19_alg».proof.Proof.Gen.Kernel.Launch
import proofs.«168457_g2000706009674355_pallasbulk_102_19_alg».proof.Proof.Gen.Kernel.Skeleton
import proofs.«168457_g2000706009674355_pallasbulk_102_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- The row slab is the first of its column slab. -/
abbrev isFirstRow (i : grid0.Coords) : Prop :=
  (Scalar.cmpi .ne (Scalar.extui (Scalar.cmpi .eq (BitVec.ofNat 32 (i 1).val) 0#32)) 0#32) = 1#1
theorem isFirstRow_iff : ∀ t : Fin cfg0.N, isFirstRow (grid0.coords t) ↔ t.val % 32 = 0 :=
  (by decide +kernel : ∀ t : Fin grid0.N, isFirstRow (grid0.coords t) ↔ t.val % 32 = 0)

/-- The row slab is the last of its column slab. -/
abbrev isLastRow (i : grid0.Coords) : Prop := k0_cond2 i = 1#1
theorem isLastRow_iff : ∀ t : Fin cfg0.N, isLastRow (grid0.coords t) ↔ t.val % 32 = 31 :=
  (by decide +kernel : ∀ t : Fin grid0.N, isLastRow (grid0.coords t) ↔ t.val % 32 = 31)

/-! ## Where the windows are idle -/

/-- The graph's window is an input: never idle. -/
theorem live0_0 : ∀ t : Fin cfg0.N, cfg0.idle 0 (grid0.coords t) = false := by decide +kernel
/-- Before the last row slab the body stores nothing into the output column: the window is idle there, -/
theorem idle0_1 : ∀ t : Fin cfg0.N, ¬isLastRow (grid0.coords t) → cfg0.idle 1 (grid0.coords t) = true := by decide +kernel
/-- and its block is not written back there. -/
theorem noFlush0_1 : ∀ t : Fin cfg0.N, ¬isLastRow (grid0.coords t) → (cfg0.win 1).flush t = false := by decide +kernel
/-- At the last row slab it is live. -/
theorem live0_1 : ∀ t : Fin cfg0.N, isLastRow (grid0.coords t) → cfg0.idle 1 (grid0.coords t) = false := by decide +kernel

/-! ## The buffers the body is called with -/

abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .f32 := win0_1.stage (cfg0.slots t 1)
abbrev hs0_1 (t : Fin cfg0.N) : (ms0_1 t).IsWhole := hstage0_1 ((cfg0.slots t 1).cast nbuf0_1)
/-- The scratch row of column sums. -/
abbrev accM : Memref sig .tc .vmem S1x4096 .f32 := Memref.whole cc0_scratch0
abbrev accV : View sig .tc .vmem S1x4096 .f32 := accM.view
/-- One staging buffer of the output column, through which its contents are stated (the choice does not matter). -/
abbrev colV : View sig .tc .vmem S4096x1 .f32 := (Memref.whole cc0_stg1_0 : Memref sig .tc .vmem S4096x1 .f32).view

/-! ## The region's invariant, split -/

/-- The scoped buffers this region's pipeline does not stage, the scratch row apart: the other two regions'
    staging buffers, each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

/-- Between row slabs the region holds the scratch row, those other buffers and the generator register. -/
theorem PhiA0_eq (c : Dev nD) :
    (Pipeline.ΦA spec0 c : sProp 𝕄)
      = iprop(iprop((∃ d, owns (c : Thread nD τ) accM fullShare d) ∗ otherScoped c) ∗ (∃ r, prngReg c r)) := by
  unfold Pipeline.ΦA otherScoped; rw [scopedRest0_eq]; simp only [accM, owns_whole]; try rfl

/-! ## The body's run, case by case -/

set_option maxHeartbeats 1000000 in
/-- FIRST row slab: the scratch row, found at anything, is zeroed and then increased by this slab's column sums;
    the output column's buffer is handed back untouched. The stores the scratch row ends with are what the run finds. -/
noncomputable def runFirst (c : Dev nD) (i : grid0.Coords) (arg2 : Memref sig .tc .vmem S256x4096 .f32) (harg2 : arg2.IsWhole)
    (arg3 : Memref sig .tc .vmem S4096x1 .f32) (harg3 : arg3.IsWhole) (arg4 : Memref sig .tc .vmem S1x4096 .f32) (harg4 : arg4.IsWhole)
    (hc0 : isFirstRow i) (hc1 : ¬isLastRow i) (x0 : Vec F S256x4096 .f32) :
    { LS0 : List (View.Piece (Elt F) S1x4096 .f32) //
      ∀ (xi1 : Vec F S4096x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f LS0)) -∗ K ⟨⟩))
          ⊢ wp frame (wpE (defs₀ (F := F)) Variants.none c none) E (cc0__dinv_kernel i arg2 harg2 arg3 harg3 arg4 harg4) K } := by
  refine ⟨?_, fun xi1 E K => ?run⟩
  case run =>
    simp only [cc0__dinv_kernel_eq_skeleton]; unfold cc0__dinv_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- MIDDLE row slab: the scratch row, at what the slab before left (`xs0`), is increased by this slab's column sums;
    the output column's buffer is handed back untouched. -/
noncomputable def runMid (c : Dev nD) (i : grid0.Coords) (arg2 : Memref sig .tc .vmem S256x4096 .f32) (harg2 : arg2.IsWhole)
    (arg3 : Memref sig .tc .vmem S4096x1 .f32) (harg3 : arg3.IsWhole) (arg4 : Memref sig .tc .vmem S1x4096 .f32) (harg4 : arg4.IsWhole)
    (hc0 : ¬isFirstRow i) (hc1 : ¬isLastRow i) (x0 : Vec F S256x4096 .f32) (xs0 : Vec F S1x4096 .f32) :
    { LS0 : List (View.Piece (Elt F) S1x4096 .f32) //
      ∀ (xi1 : Vec F S4096x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f LS0)) -∗ K ⟨⟩))
          ⊢ wp frame (wpE (defs₀ (F := F)) Variants.none c none) E (cc0__dinv_kernel i arg2 harg2 arg3 harg3 arg4 harg4) K } := by
  refine ⟨?_, fun xi1 E K => ?run⟩
  case run =>
    simp only [cc0__dinv_kernel_eq_skeleton]; unfold cc0__dinv_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- LAST row slab: the scratch row, at what the slab before left, is increased by this slab's column sums, and the
    output column's buffer (found at anything) is stored whole from it. -/
noncomputable def runLast (c : Dev nD) (i : grid0.Coords) (arg2 : Memref sig .tc .vmem S256x4096 .f32) (harg2 : arg2.IsWhole)
    (arg3 : Memref sig .tc .vmem S4096x1 .f32) (harg3 : arg3.IsWhole) (arg4 : Memref sig .tc .vmem S1x4096 .f32) (harg4 : arg4.IsWhole)
    (hc0 : ¬isFirstRow i) (hc1 : isLastRow i) (x0 : Vec F S256x4096 .f32) (xs0 : Vec F S1x4096 .f32) :
    Σ' (L1 : List (View.Piece (Elt F) S4096x1 .f32)), { LS0 : List (View.Piece (Elt F) S1x4096 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f LS0)) -∗ K ⟨⟩))
          ⊢ wp frame (wpE (defs₀ (F := F)) Variants.none c none) E (cc0__dinv_kernel i arg2 harg2 arg3 harg3 arg4 harg4) K } := by
  refine ⟨?_, ?_, fun E K => ?run⟩
  case run =>
    simp only [cc0__dinv_kernel_eq_skeleton]; unfold cc0__dinv_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.KerBDinv.lean ====
/-
  The first region, continued: what the scratch row of column sums and the output column hold after each grid
  point — a recursion along the 64 points, the case chosen by the row slab's position in its column slab —, the
  region's invariant (the scratch row at those contents), its proof data at ANY contents `V` the region may find
  in the arrays when it is entered, and the body obligation, case by case.
-/
import proofs.«168457_g2000706009674355_pallasbulk_102_19_alg».proof.Proof.KerBDinvRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The block of window `w`'s array that grid point `t` works on, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The graph's 256 x 4096 block is in its staging buffer at every point. -/
theorem found0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Region

/-! ## What each case leaves -/

section Cases

variable (c : Dev nD) (i : grid0.Coords) (arg2 : Memref sig .tc .vmem S256x4096 .f32) (harg2 : arg2.IsWhole)
  (arg3 : Memref sig .tc .vmem S4096x1 .f32) (harg3 : arg3.IsWhole) (arg4 : Memref sig .tc .vmem S1x4096 .f32) (harg4 : arg4.IsWhole)

/-- The stores each case leaves in the scratch row cover it, -/
theorem accFirst_cover (hc0 : isFirstRow i) (hc1 : ¬isLastRow i) (x0 : Vec F S256x4096 .f32) (y : S1x4096.Idx) :
    ∃ pc ∈ (runFirst c i arg2 harg2 arg3 harg3 arg4 harg4 hc0 hc1 x0).1, y ∈ pc.1.set :=
  View.cover_of_tiledL (runFirst c i arg2 harg2 arg3 harg3 arg4 harg4 hc0 hc1 x0).1 S1x4096.size (by sl_kernel_rfl) y
theorem accMid_cover (hc0 : ¬isFirstRow i) (hc1 : ¬isLastRow i) (x0 : Vec F S256x4096 .f32) (xs0 : Vec F S1x4096 .f32) (y : S1x4096.Idx) :
    ∃ pc ∈ (runMid c i arg2 harg2 arg3 harg3 arg4 harg4 hc0 hc1 x0 xs0).1, y ∈ pc.1.set :=
  View.cover_of_tiledL (runMid c i arg2 harg2 arg3 harg3 arg4 harg4 hc0 hc1 x0 xs0).1 S1x4096.size (by sl_kernel_rfl) y
theorem accLast_cover (hc0 : ¬isFirstRow i) (hc1 : isLastRow i) (x0 : Vec F S256x4096 .f32) (xs0 : Vec F S1x4096 .f32) (y : S1x4096.Idx) :
    ∃ pc ∈ (runLast c i arg2 harg2 arg3 harg3 arg4 harg4 hc0 hc1 x0 xs0).2.1, y ∈ pc.1.set :=
  View.cover_of_tiledL (runLast c i arg2 harg2 arg3 harg3 arg4 harg4 hc0 hc1 x0 xs0).2.1 S1x4096.size (by sl_kernel_rfl) y
/-- and the last case's store covers the output column. -/
theorem colLast_cover (hc0 : ¬isFirstRow i) (hc1 : isLastRow i) (x0 : Vec F S256x4096 .f32) (xs0 : Vec F S1x4096 .f32) (y : S4096x1.Idx) :
    ∃ pc ∈ (runLast c i arg2 harg2 arg3 harg3 arg4 harg4 hc0 hc1 x0 xs0).1, y ∈ pc.1.set :=
  View.cover_of_tiledL (runLast c i arg2 harg2 arg3 harg3 arg4 harg4 hc0 hc1 x0 xs0).1 S4096x1.size (by sl_kernel_rfl) y

/-- What each case leaves in the scratch row: its stores read back. -/
def accFirst (hc0 : isFirstRow i) (hc1 : ¬isLastRow i) (x0 : Vec F S256x4096 .f32) : Vec F S1x4096 .f32 :=
  accV.read (Elt F) (accV.writes (Elt F) accV.junk (runFirst c i arg2 harg2 arg3 harg3 arg4 harg4 hc0 hc1 x0).1)
def accMid (hc0 : ¬isFirstRow i) (hc1 : ¬isLastRow i) (x0 : Vec F S256x4096 .f32) (xs0 : Vec F S1x4096 .f32) : Vec F S1x4096 .f32 :=
  accV.read (Elt F) (accV.writes (Elt F) accV.junk (runMid c i arg2 harg2 arg3 harg3 arg4 harg4 hc0 hc1 x0 xs0).1)
def accLast (hc0 : ¬isFirstRow i) (hc1 : isLastRow i) (x0 : Vec F S256x4096 .f32) (xs0 : Vec F S1x4096 .f32) : Vec F S1x4096 .f32 :=
  accV.read (Elt F) (accV.writes (Elt F) accV.junk (runLast c i arg2 harg2 arg3 harg3 arg4 harg4 hc0 hc1 x0 xs0).2.1)
/-- What the last case leaves in the output column's staging buffer. -/
def colLast (hc0 : ¬isFirstRow i) (hc1 : isLastRow i) (x0 : Vec F S256x4096 .f32) (xs0 : Vec F S1x4096 .f32) : Vec F S4096x1 .f32 :=
  colV.read (Elt F) (colV.writes (Elt F) colV.junk (runLast c i arg2 harg2 arg3 harg3 arg4 harg4 hc0 hc1 x0 xs0).1)

end Cases

section Region2

variable (V : (c : Dev nD) → (b : Ref sig .tc) → Buf (Elt F) ((c : Thread nD τ).loc b))

/-- THE ACCUMULATION: the scratch row after the body at position `n`. -/
def accAt (c : Dev nD) : (n : ℕ) → n < cfg0.N → Vec F S1x4096 .f32
  | 0, hn => accFirst c (grid0.coords ⟨0, hn⟩) (ms0_0 ⟨0, hn⟩) (hs0_0 ⟨0, hn⟩) (ms0_1 ⟨0, hn⟩) (hs0_1 ⟨0, hn⟩) accM (Memref.isWhole_whole _) ((isFirstRow_iff ⟨0, hn⟩).mpr (Nat.zero_mod _)) (fun h => by have h' := (isLastRow_iff ⟨0, hn⟩).mp h; (try dsimp only at h'); omega) (iblk0 V c 0 ⟨0, hn⟩)
  | n + 1, hn =>
    if h0 : (n + 1) % 32 = 0 then
      accFirst c (grid0.coords ⟨n + 1, hn⟩) (ms0_0 ⟨n + 1, hn⟩) (hs0_0 ⟨n + 1, hn⟩) (ms0_1 ⟨n + 1, hn⟩) (hs0_1 ⟨n + 1, hn⟩) accM (Memref.isWhole_whole _) ((isFirstRow_iff ⟨n + 1, hn⟩).mpr h0) (fun h => by have h' := (isLastRow_iff ⟨n + 1, hn⟩).mp h; (try dsimp only at h'); omega) (iblk0 V c 0 ⟨n + 1, hn⟩)
    else
      if h1 : (n + 1) % 32 = 31 then
        accLast c (grid0.coords ⟨n + 1, hn⟩) (ms0_0 ⟨n + 1, hn⟩) (hs0_0 ⟨n + 1, hn⟩) (ms0_1 ⟨n + 1, hn⟩) (hs0_1 ⟨n + 1, hn⟩) accM (Memref.isWhole_whole _) (fun h => h0 ((isFirstRow_iff ⟨n + 1, hn⟩).mp h)) ((isLastRow_iff ⟨n + 1, hn⟩).mpr h1) (iblk0 V c 0 ⟨n + 1, hn⟩) (accAt c n (Nat.lt_of_succ_lt hn))
      else
        accMid c (grid0.coords ⟨n + 1, hn⟩) (ms0_0 ⟨n + 1, hn⟩) (hs0_0 ⟨n + 1, hn⟩) (ms0_1 ⟨n + 1, hn⟩) (hs0_1 ⟨n + 1, hn⟩) accM (Memref.isWhole_whole _) (fun h => h0 ((isFirstRow_iff ⟨n + 1, hn⟩).mp h)) (fun h => h1 ((isLastRow_iff ⟨n + 1, hn⟩).mp h)) (iblk0 V c 0 ⟨n + 1, hn⟩) (accAt c n (Nat.lt_of_succ_lt hn))

theorem accAt_first (c : Dev nD) (t : Fin cfg0.N) (h0 : t.val % 32 = 0) (h1 : ¬t.val % 32 = 31) :
    accAt V c t.val t.isLt = accFirst c (grid0.coords t) (ms0_0 t) (hs0_0 t) (ms0_1 t) (hs0_1 t) accM (Memref.isWhole_whole _) ((isFirstRow_iff t).mpr h0) (fun h => h1 ((isLastRow_iff t).mp h)) (iblk0 V c 0 t) := by
  obtain ⟨n, hn⟩ := t
  cases n with
  | zero => exact rfl
  | succ n => exact (dif_pos h0).trans rfl

theorem accAt_mid (c : Dev nD) (t : Fin cfg0.N) (h0 : ¬t.val % 32 = 0) (h1 : ¬t.val % 32 = 31) :
    accAt V c t.val t.isLt = accMid c (grid0.coords t) (ms0_0 t) (hs0_0 t) (ms0_1 t) (hs0_1 t) accM (Memref.isWhole_whole _) (fun h => h0 ((isFirstRow_iff t).mp h)) (fun h => h1 ((isLastRow_iff t).mp h)) (iblk0 V c 0 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 32 = 0) (h1 : t.val % 32 = 31) :
    accAt V c t.val t.isLt = accLast c (grid0.coords t) (ms0_0 t) (hs0_0 t) (ms0_1 t) (hs0_1 t) accM (Memref.isWhole_whole _) (fun h => h0 ((isFirstRow_iff t).mp h)) ((isLastRow_iff t).mpr h1) (iblk0 V c 0 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output column's staging buffer after the body at point `t`: at a last row slab what that case stores, from
    this slab's block and the scratch row the slab before left; elsewhere a placeholder nothing consults (the window
    is idle there and not written back). -/
def colAt (c : Dev nD) (t : Fin cfg0.N) : Vec F S4096x1 .f32 :=
  if h1 : t.val % 32 = 31 then
    colLast c (grid0.coords t) (ms0_0 t) (hs0_0 t) (ms0_1 t) (hs0_1 t) accM (Memref.isWhole_whole _) (fun h => by have h' := (isFirstRow_iff t).mp h; omega) ((isLastRow_iff t).mpr h1) (iblk0 V c 0 t)
      (accAt V c (t.val - 1) (Nat.lt_of_le_of_lt (Nat.sub_le _ _) t.isLt))
  else colV.read (Elt F) colV.junk

theorem colAt_last (c : Dev nD) (t : Fin cfg0.N) (h0 : ¬t.val % 32 = 0) (h1 : t.val % 32 = 31) :
    colAt V c t = colLast c (grid0.coords t) (ms0_0 t) (hs0_0 t) (ms0_1 t) (hs0_1 t) accM (Memref.isWhole_whole _) (fun h => h0 ((isFirstRow_iff t).mp h)) ((isLastRow_iff t).mpr h1) (iblk0 V c 0 t)
      (accAt V c (t.val - 1) (Nat.lt_of_le_of_lt (Nat.sub_le _ _) t.isLt)) := by
  unfold colAt; exact (dif_pos h1).trans rfl

/-- The region's invariant before position `n`: before the first point the scratch row at anything; afterwards at
    what the point before left in it; beside it the other scoped buffers and the generator register. -/
def PhiS0 (c : Dev nD) : (n : ℕ) → n ≤ cfg0.N → sProp 𝕄
  | 0, _ => Pipeline.ΦA spec0 c
  | n + 1, hn => iprop(iprop(owns (c : Thread nD τ) accM fullShare (accAt V c n hn) ∗ otherScoped c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) accM fullShare (accAt V c n hn) ∗ otherScoped c) ∗ (∃ r, prngReg c r)) := rfl

theorem PhiS0_pos (c : Dev nD) (n : ℕ) (h : n ≤ cfg0.N) (hz : n ≠ 0) :
    PhiS0 V c n h = iprop(iprop(owns (c : Thread nD τ) accM fullShare (accAt V c (n - 1) (by omega)) ∗ otherScoped c) ∗ (∃ r, prngReg c r)) := by
  cases n with
  | zero => exact absurd rfl hz
  | succ n => rfl

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => colAt V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = colAt V c t := by dsimp only [dat0]

theorem before0_0 (c : Dev nD) (t : Fin cfg0.N) (d) : (dat0 V c).before 0 t d = iblk0 V c 0 t :=
  found0_0 V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which case the point is in; the invariant hands the body the scratch
    row (at anything before the first point, else at what the point before left) and takes it back at this point's
    contents; an idle output column goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [live0_0 t], after0_0]
  by_cases h0 : t.val % 32 = 0
  · have h1 : ¬t.val % 32 = 31 := by omega
    have hc0 : isFirstRow (grid0.coords t) := (isFirstRow_iff t).mpr h0
    have hc1 : ¬isLastRow (grid0.coords t) := fun h => h1 ((isLastRow_iff t).mp h)
    rw [Dat.leavesExact_idle (dat0 V c) 1 t (idle0_1 t hc1) (noFlush0_1 t hc1)]
    rw [accAt_first V c t h0 h1]
    unfold accFirst; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩⟩
      iapply ((runFirst c (grid0.coords t) _ _ _ _ _ _ hc0 hc1 (iblk0 V c 0 t)).2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accFirst_cover c _ _ _ _ _ _ _ _ _ _)
          iexact Hoth
        iexact Hg
      isplitl [Ho]; · iexact Ho
      isplitl [H0]; · iexact H0
      iexists _; iexact H1
    · rw [PhiS0_castSucc V c t, PhiS0_pos V c _ _ hz]
      iintro ⟨⟨⟨HS0, Hoth⟩, Hg⟩, Ho, ⟨%d0, H0⟩, ⟨%d1, H1⟩⟩
      iapply ((runFirst c (grid0.coords t) _ _ _ _ _ _ hc0 hc1 (iblk0 V c 0 t)).2 _ Set.univ _)
      isplitl [H0]; · iexact H0
      isplitl [H1]; · iexact H1
      isplitl [HS0]; · iexists _; iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accFirst_cover c _ _ _ _ _ _ _ _ _ _)
          iexact Hoth
        iexact Hg
      isplitl [Ho]; · iexact Ho
      isplitl [H0]; · iexact H0
      iexists _; iexact H1
  · have hz : t.val ≠ 0 := fun e => h0 (by rw [e])
    have hc0 : ¬isFirstRow (grid0.coords t) := fun h => h0 ((isFirstRow_iff t).mp h)
    by_cases h1 : t.val % 32 = 31
    · have hc1 : isLastRow (grid0.coords t) := (isLastRow_iff t).mpr h1
      rw [show (dat0 V c).leavesExact 1 t = owns (c : Thread nD τ) (ms0_1 t) fullShare ((dat0 V c).after 1 t) from by
        unfold Dat.leavesExact; rw [live0_1 t hc1], after0_1]
      rw [accAt_last V c t h0 h1, colAt_last V c t h0 h1]
      unfold accLast colLast; (try dsimp only)
      rw [PhiS0_castSucc V c t, PhiS0_pos V c _ _ hz]
      iintro ⟨⟨⟨HS0, Hoth⟩, Hg⟩, Ho, ⟨%d0, H0⟩, ⟨%d1, H1⟩⟩
      iapply ((runLast c (grid0.coords t) _ _ _ _ _ _ hc0 hc1 (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accLast_cover c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (colLast_cover c _ _ _ _ _ _ _ _ _ _ _)
    · have hc1 : ¬isLastRow (grid0.coords t) := fun h => h1 ((isLastRow_iff t).mp h)
      rw [Dat.leavesExact_idle (dat0 V c) 1 t (idle0_1 t hc1) (noFlush0_1 t hc1)]
      rw [accAt_mid V c t h0 h1]
      unfold accMid; (try dsimp only)
      rw [PhiS0_castSucc V c t, PhiS0_pos V c _ _ hz]
      iintro ⟨⟨⟨HS0, Hoth⟩, Hg⟩, Ho, ⟨%d0, H0⟩, ⟨%d1, H1⟩⟩
      iapply ((runMid c (grid0.coords t) _ _ _ _ _ _ hc0 hc1 (iblk0 V c 0 t) _).2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accMid_cover c _ _ _ _ _ _ _ _ _ _ _)
          iexact Hoth
        iexact Hg
      isplitl [Ho]; · iexact Ho
      isplitl [H0]; · iexact H0
      iexists _; iexact H1

/-- The body obligation of the region, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives that back: the scratch row's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ ht, PhiA0_eq]
  iintro ⟨⟨HS0, Hoth⟩, Hg⟩
  isplitl [HS0 Hoth]
  · isplitl [HS0]
    · iexists _; iexact HS0
    iexact Hoth
  iexact Hg

end Region2

end Cert.Kernel.Hand

end
-- ==== Proof.KerBHs.lean ====
/-
  The second of the kernel's three regions: hs[j, f] = dinv[j] * sum_m x[j, m] * W[m, f], computed in four row
  slabs of 2048 rows. At each slab the body reads the slab of x, the whole of W and the slab of the column dinv,
  and stores one 2048 x 256 block. Here: what that store leaves in the output's staging buffer as a function of
  the three blocks read, the body's run on any staging buffers, and the region's proof data at ANY contents `V`
  the region may find in the arrays when it is entered.
-/
import proofs.«168457_g2000706009674355_pallasbulk_102_19_alg».proof.Proof.Gen.Kernel.Launch
import proofs.«168457_g2000706009674355_pallasbulk_102_19_alg».proof.Proof.Gen.Kernel.Skeleton
import proofs.«168457_g2000706009674355_pallasbulk_102_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The block of window `w`'s array that grid point `t` works on, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The slab of x is in its staging buffer at every point. -/
theorem found1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- W, fetched once, is in its staging buffer at every point: its block index never moves. -/
theorem found1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The slab of the column dinv is in its staging buffer at every point. -/
theorem found1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 2048 x 256 slab, the whole of W, the whole 2048 x 1 column slab: the boxes the body reads and writes through. -/
abbrev boxSlab : Rect S2048x256 := Rect.unit (s := S2048x256) ![0, 0] S2048x256.size inb_S2048x256_S2048x256_0_0
abbrev boxW : Rect S256x256 := Rect.unit (s := S256x256) ![0, 0] S256x256.size inb_S256x256_S256x256_0_0
abbrev boxCol : Rect S2048x1 := Rect.unit (s := S2048x1) ![0, 0] S2048x1.size inb_S2048x1_S2048x1_0_0

/-- What the body's one store leaves in the output's staging buffer: the product dinv * (x W) of the three blocks read. -/
def hsBlock (x0 : Vec F S2048x256 .f32) (x1 : Vec F S256x256 .f32) (x2 : Vec F S2048x1 .f32) : Vec F S2048x256 .f32 :=
  View.canon [⟨boxSlab, k1_pay1 (View.ld x0 boxSlab) (View.ld x1 boxW) (View.ld x2 boxCol)⟩]

/-- The one store fills the whole buffer. -/
theorem hsBlock_cover (p0 : Vec F S2048x256 .f32) (y : S2048x256.Idx) :
    ∃ pc ∈ ([⟨boxSlab, p0⟩] : List (View.Piece (Elt F) S2048x256 .f32)), y ∈ pc.1.set :=
  View.cover_of_tiled [⟨boxSlab, p0⟩] S2048x256.size (by rfl) y

set_option maxHeartbeats 1000000 in
/-- The body on whole staging buffers holding the three blocks (the output's buffer at anything) runs to the end,
    leaves the inputs as they were and the output's buffer at `hsBlock` of them. -/
theorem sound_kernel1 (c : Dev nD) (E : Set ℕ) (i : grid1.Coords)
    (arg1 : Memref sig .tc .vmem S2048x256 .f32) (harg1 : arg1.IsWhole) (arg2 : Memref sig .tc .vmem S256x256 .f32) (harg2 : arg2.IsWhole)
    (arg3 : Memref sig .tc .vmem S2048x1 .f32) (harg3 : arg3.IsWhole) (arg4 : Memref sig .tc .vmem S2048x256 .f32) (harg4 : arg4.IsWhole)
    (x0 : Vec F S2048x256 .f32) (x1 : Vec F S256x256 .f32) (x2 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (hsBlock x0 x1 x2)) -∗ K ⟨⟩))
      ⊢ wp frame (wpE (defs₀ (F := F)) Variants.none c none) E (cc1__hs_kernel i arg1 harg1 arg2 harg2 arg3 harg3 arg4 harg4) K := by
  simp only [cc1__hs_kernel_eq_skeleton]; unfold cc1__hs_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (hsBlock_cover _)

/-- The region's proof data on core `c`: the arrays as the region finds them; after the body at slab `t` each
    input's buffer still at its block and the output's at `hsBlock` of the three blocks; nothing kept between
    slabs beyond the scoped buffers no window stages and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => hsBlock (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = hsBlock (iblk1 V c 0 t) (iblk1 V c 1 t) (iblk1 V c 2 t) := by dsimp only [dat1]

theorem before1_0 (c : Dev nD) (t : Fin cfg1.N) (d) : (dat1 V c).before 0 t d = iblk1 V c 0 t :=
  found1_0 V (dat1 V c) (A_eq1 V c 0) (after1_0 V c) t d
theorem before1_1 (c : Dev nD) (t : Fin cfg1.N) (d) : (dat1 V c).before 1 t d = iblk1 V c 1 t :=
  found1_1 V (dat1 V c) (A_eq1 V c 1) (after1_1 V c) t d
theorem before1_2 (c : Dev nD) (t : Fin cfg1.N) (d) : (dat1 V c).before 2 t d = iblk1 V c 2 t :=
  found1_2 V (dat1 V c) (A_eq1 V c 2) (after1_2 V c) t d

/-- What the body is called with at slab `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every slab. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KerBAgg.lean ====
/-
  The last of the kernel's three regions: y[i, f] = dinv[i] * sum_j graph[j, i] * hs[j, f] + bias[f], computed in
  sixteen row slabs of 512 output rows. At each slab the body reads two neighbouring 8192 x 256 column slabs of
  the graph (both windows of the one array), the whole of hs, a 512 x 1 slab of the column dinv and the bias row;
  it contracts the whole j axis in four chunks of 2048 rows, adds the four partial products, and stores the two
  256-row halves of the output block. Here: what the two stores leave in the output's staging buffer as a function
  of the five blocks read, the body's run on any staging buffers, and the region's proof data at ANY contents
  `V` the region may find in the arrays when it is entered.
-/
import proofs.«168457_g2000706009674355_pallasbulk_102_19_alg».proof.Proof.Gen.Kernel.Launch
import proofs.«168457_g2000706009674355_pallasbulk_102_19_alg».proof.Proof.Gen.Kernel.Skeleton
import proofs.«168457_g2000706009674355_pallasbulk_102_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The block of window `w`'s array that grid point `t` works on, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each of the five inputs is in its staging buffer at every point, fetched there or not. -/
theorem found2_0 {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem found2_2 {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem found2_3 {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem found2_4 {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The four 2048-row chunks of an 8192 x 256 buffer, the two 256-row halves of the dinv slab and of the output
    block, and the bias row: the boxes the body reads and writes through. -/
abbrev chunk0 : Rect S8192x256 := Rect.unit (s := S8192x256) ![0, 0] S2048x256.size inb_S8192x256_S2048x256_0_0
abbrev chunk1 : Rect S8192x256 := Rect.unit (s := S8192x256) ![2048, 0] S2048x256.size inb_S8192x256_S2048x256_2048_0
abbrev chunk2 : Rect S8192x256 := Rect.unit (s := S8192x256) ![4096, 0] S2048x256.size inb_S8192x256_S2048x256_4096_0
abbrev chunk3 : Rect S8192x256 := Rect.unit (s := S8192x256) ![6144, 0] S2048x256.size inb_S8192x256_S2048x256_6144_0
abbrev colLo : Rect S512x1 := Rect.unit (s := S512x1) ![0, 0] S256x1.size inb_S512x1_S256x1_0_0
abbrev colHi : Rect S512x1 := Rect.unit (s := S512x1) ![256, 0] S256x1.size inb_S512x1_S256x1_256_0
abbrev boxBias : Rect S1x256 := Rect.unit (s := S1x256) ![0, 0] S1x256.size inb_S1x256_S1x256_0_0
abbrev outLo : Rect S512x256 := Rect.unit (s := S512x256) ![0, 0] S256x256.size inb_S512x256_S256x256_0_0
abbrev outHi : Rect S512x256 := Rect.unit (s := S512x256) ![256, 0] S256x256.size inb_S512x256_S256x256_256_0

/-- The first 256 rows of the output block: dinv * (the sum over the four chunks of the first graph slab's products with hs) + bias. -/
def aggLo (g0 : Vec F S8192x256 .f32) (h : Vec F S8192x256 .f32) (dv : Vec F S512x1 .f32) (b : Vec F S1x256 .f32) : FVec F S256x256 .f32 :=
  k2_pay1 (k2_pay6 (View.ld h chunk0) (View.ld g0 chunk0) (View.ld h chunk1) (View.ld g0 chunk1) (View.ld h chunk2) (View.ld g0 chunk2))
    (k2_pay9 (View.ld h chunk3) (View.ld g0 chunk3)) (View.ld dv colLo) (View.ld b boxBias)

/-- The last 256 rows: the same of the second graph slab. -/
def aggHi (g1 : Vec F S8192x256 .f32) (h : Vec F S8192x256 .f32) (dv : Vec F S512x1 .f32) (b : Vec F S1x256 .f32) : FVec F S256x256 .f32 :=
  k2_pay2 (k2_pay7 (View.ld h chunk0) (View.ld g1 chunk0) (View.ld h chunk1) (View.ld g1 chunk1) (View.ld h chunk2) (View.ld g1 chunk2))
    (k2_pay8 (View.ld h chunk3)) (View.ld g1 chunk3) (constant S256x256 .f32 0x00000000#32) (View.ld dv colHi) (View.ld b boxBias)

/-- What the body's two stores leave in the output's staging buffer. -/
def aggBlock (g0 g1 h : Vec F S8192x256 .f32) (dv : Vec F S512x1 .f32) (b : Vec F S1x256 .f32) : Vec F S512x256 .f32 :=
  View.canon [⟨outHi, aggHi g1 h dv b⟩, ⟨outLo, aggLo g0 h dv b⟩]

/-- The two stores tile the buffer. -/
theorem aggBlock_cover (p1 p0 : Vec F S256x256 .f32) (y : S512x256.Idx) :
    ∃ pc ∈ ([⟨outHi, p1⟩, ⟨outLo, p0⟩] : List (View.Piece (Elt F) S512x256 .f32)), y ∈ pc.1.set :=
  View.cover_of_tiled [⟨outHi, p1⟩, ⟨outLo, p0⟩] S256x256.size (by rfl) y

set_option maxHeartbeats 2000000 in
/-- The body on whole staging buffers holding the five blocks (the output's buffer at anything) runs to the end,
    leaves the inputs as they were and the output's buffer at `aggBlock` of them. -/
theorem sound_kernel2 (c : Dev nD) (E : Set ℕ) (i : grid2.Coords)
    (arg1 : Memref sig .tc .vmem S8192x256 .f32) (harg1 : arg1.IsWhole) (arg2 : Memref sig .tc .vmem S8192x256 .f32) (harg2 : arg2.IsWhole)
    (arg3 : Memref sig .tc .vmem S8192x256 .f32) (harg3 : arg3.IsWhole) (arg4 : Memref sig .tc .vmem S512x1 .f32) (harg4 : arg4.IsWhole)
    (arg5 : Memref sig .tc .vmem S1x256 .f32) (harg5 : arg5.IsWhole) (arg6 : Memref sig .tc .vmem S512x256 .f32) (harg6 : arg6.IsWhole)
    (x0 x1 x2 : Vec F S8192x256 .f32) (x3 : Vec F S512x1 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (aggBlock x0 x1 x2 x3 x4)) -∗ K ⟨⟩))
      ⊢ wp frame (wpE (defs₀ (F := F)) Variants.none c none) E (cc2__agg2_kernel i arg1 harg1 arg2 harg2 arg3 harg3 arg4 harg4 arg5 harg5 arg6 harg6) K := by
  simp only [cc2__agg2_kernel_eq_skeleton]; unfold cc2__agg2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (aggBlock_cover _ _)

/-- The region's proof data on core `c`: the arrays as the region finds them; after the body at slab `t` each
    input's buffer still at its block and the output's at `aggBlock` of the five blocks. The graph is read through
    two windows: each holds one half of the array's share; every other input its array outright. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => aggBlock (iblk2 V c 0 t) (iblk2 V c 1 t) (iblk2 V c 2 t) (iblk2 V c 3 t) (iblk2 V c 4 t)
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = aggBlock (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  found2_0 V (dat2 V c) (A_eq2 V c 0) (after2_0 V c) t d
theorem before2_1 (c : Dev nD) (t : Fin cfg2.N) (d) : (dat2 V c).before 1 t d = iblk2 V c 1 t :=
  found2_1 V (dat2 V c) (A_eq2 V c 1) (after2_1 V c) t d
theorem before2_2 (c : Dev nD) (t : Fin cfg2.N) (d) : (dat2 V c).before 2 t d = iblk2 V c 2 t :=
  found2_2 V (dat2 V c) (A_eq2 V c 2) (after2_2 V c) t d
theorem before2_3 (c : Dev nD) (t : Fin cfg2.N) (d) : (dat2 V c).before 3 t d = iblk2 V c 3 t :=
  found2_3 V (dat2 V c) (A_eq2 V c 3) (after2_3 V c) t d
theorem before2_4 (c : Dev nD) (t : Fin cfg2.N) (d) : (dat2 V c).before 4 t d = iblk2 V c 4 t :=
  found2_4 V (dat2 V c) (A_eq2 V c 4) (after2_4 V c) t d

/-- What the body is called with at slab `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every slab. -/
theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.KerBRun.lean ====
/-
  The kernel program from launch to return: one stretch of host operations (the bias row reshaped), then the three
  regions in order. Between items every unscoped buffer of the core is held at a named valuation: the launch
  memory, then what the reshape leaves, then after each region its arrays at what the region's write-backs leave
  and every other buffer as it was. The run ends with every unscoped buffer at the last of those valuations; the
  arguments read back through them are the launch memory, and the result is what the last region's write-backs
  leave in its output array.
-/
import proofs.«168457_g2000706009674355_pallasbulk_102_19_alg».proof.Proof.KerBDinv
import proofs.«168457_g2000706009674355_pallasbulk_102_19_alg».proof.Proof.KerBHs
import proofs.«168457_g2000706009674355_pallasbulk_102_19_alg».proof.Proof.KerBAgg

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.SL.BI (bigSepL)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the reshape of the bias (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: the column dinv at what its write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second region: hs at what its write-backs leave. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the third region: the result array at what its write-backs leave, every other buffer as it was (the
    region's other arrays are inputs, never written). -/
def W4 (c : Dev nD) : Valuation τ sig (Elt F) :=
  Function.update (W3 m c) (Proc.devRef .tc main_v1) ((dat2 (V3 m) c).arrAt 5 cfg2.N)
theorem W4_result (c : Dev nD) : W4 m c (Proc.devRef .tc main_v1) = (dat2 (V3 m) c).arrAt 5 cfg2.N := by
  unfold W4; exact Function.update_self ..
theorem W4_of_ne (c : Dev nD) (b : Ref sig .tc) (hb : b ≠ main_v1) :
    W4 m c (Proc.devRef .tc b) = W3 m c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m c b

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as items -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### The third region: the graph read through two windows -/

/-- A core's unscoped buffers, one by one. -/
theorem unscopedBufs_list (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_v0) ↦{fullShare} V main_v0) ∗ (((c : Thread nD τ).loc main_call0_v0) ↦{fullShare} V main_call0_v0) ∗ (((c : Thread nD τ).loc main_call0_v1) ↦{fullShare} V main_call0_v1) ∗ (((c : Thread nD τ).loc main_v1) ↦{fullShare} V main_v1)) := by
  unfold unscopedBufs
  exact Idealize.SL.BI.bigSep_eq_bigSepL_of_eq [main_arg0, main_arg1, main_arg2, main_arg3, main_v0, main_call0_v0, main_call0_v1, main_v1] (by decide) (by decide) _

/-- The third region's arrays, window by window: the graph's two windows at the two halves of its share. -/
theorem arrays2_list (c : Dev nD) (V : (c : Dev nD) → (b : Ref sig .tc) → Buf (Elt F) ((c : Thread nD τ).loc b))
    (G : (w : Fin cfg2.W) → Buf (Elt F) ((cfg2.win w).arr.view.loc (c : Thread nD τ))) :
    ((dat2 V c).arrays G : sProp 𝕄)
      = iprop((((c : Thread nD τ).loc main_arg1) ↦{fullShare.left} G 0) ∗ (((c : Thread nD τ).loc main_arg1) ↦{fullShare.right} G 1)
          ∗ (((c : Thread nD τ).loc main_call0_v1) ↦{fullShare} G 2) ∗ (((c : Thread nD τ).loc main_call0_v0) ↦{fullShare} G 3)
          ∗ (((c : Thread nD τ).loc main_v0) ↦{fullShare} G 4) ∗ (((c : Thread nD τ).loc main_v1) ↦{fullShare} G 5)) := by
  unfold Dat.arrays; rw [bigSep_W2]
  rw [(arr_whole2 0).set_eq_univ, (arr_whole2 2).set_eq_univ, (arr_whole2 3).set_eq_univ,
    (arr_whole2 4).set_eq_univ, (arr_whole2 5).set_eq_univ]
  rw [show (dat2 V c).share 0 = fullShare.left from rfl, show (dat2 V c).share 1 = fullShare.right from rfl,
    show (dat2 V c).share 2 = fullShare from rfl, show (dat2 V c).share 3 = fullShare from rfl,
    show (dat2 V c).share 4 = fullShare from rfl, show (dat2 V c).share 5 = fullShare from rfl]

/-- The buffers that bypass the third region: the arguments x, W and the bias vector. -/
def bypass2 (c : Dev nD) (V : (b : Ref sig .tc) → Buf (Elt F) ((c : Thread nD τ).loc b)) : sProp 𝕄 :=
  iprop((((c : Thread nD τ).loc main_arg0) ↦{fullShare} V main_arg0) ∗ (((c : Thread nD τ).loc main_arg2) ↦{fullShare} V main_arg2)
    ∗ (((c : Thread nD τ).loc main_arg3) ↦{fullShare} V main_arg3))

/-- ENTRY: the core's unscoped buffers at the second region's exit contents are the third region's arrays at their
    entry contents — the graph's buffer split between its two windows — and the bypassing buffers. -/
theorem enter2' (c : Dev nD) :
    (StableHlo.held (c : Thread nD τ) (Pipeline.ucRefs τ sig) (W3 m c) : sProp 𝕄)
      ⊢ iprop((dat2 (V3 m) c).arrays ((dat2 (V3 m) c).arrAt · 0) ∗ bypass2 c (V3 m c)) := by
  rw [← Pipeline.unscopedBufs_held (Ix := Unit) (Name := ℕ) (U := UR sig nD τ) (Lvl := ℕ) c (W3 m c), unscopedBufs_list, arrays2_list]
  unfold bypass2
  iintro ⟨H0, H1, H2, H3, H4, H5, H6, H7⟩
  ihave Hs := (pointsTo_share (PosShare.mem_left_op_right fullShare)).1 $$ H1
  icases Hs with ⟨Hl, Hr⟩
  isplitl [Hl Hr H6 H5 H4 H7]
  · isplitl [Hl]; · iexact Hl
    isplitl [Hr]; · iexact Hr
    isplitl [H6]; · iexact H6
    isplitl [H5]; · iexact H5
    isplitl [H4]; · iexact H4
    iexact H7
  isplitl [H0]; · iexact H0
  isplitl [H2]; · iexact H2
  iexact H3

/-- EXIT: the arrays at what the region leaves — the inputs as entered, the graph's two halves joined again, the
    result at its write-backs — and the bypassing buffers are the core's unscoped buffers at the last valuation. -/
theorem exit2' (c : Dev nD) :
    iprop((dat2 (V3 m) c).arrays ((dat2 (V3 m) c).arrAt · cfg2.N) ∗ bypass2 c (V3 m c))
      ⊢ (StableHlo.held (c : Thread nD τ) (Pipeline.ucRefs τ sig) (W4 m c) : sProp 𝕄) := by
  rw [← Pipeline.unscopedBufs_held (Ix := Unit) (Name := ℕ) (U := UR sig nD τ) (Lvl := ℕ) c (W4 m c), unscopedBufs_list, arrays2_list]
  unfold bypass2
  rw [(dat2 (V3 m) c).arrAt_in 0 rfl cfg2.N, (dat2 (V3 m) c).arrAt_in 1 rfl cfg2.N, (dat2 (V3 m) c).arrAt_in 2 rfl cfg2.N,
    (dat2 (V3 m) c).arrAt_in 3 rfl cfg2.N, (dat2 (V3 m) c).arrAt_in 4 rfl cfg2.N]
  rw [W4_of_ne m c main_arg0 (by decide), W4_of_ne m c main_arg1 (by decide), W4_of_ne m c main_arg2 (by decide),
    W4_of_ne m c main_arg3 (by decide), W4_of_ne m c main_v0 (by decide), W4_of_ne m c main_call0_v0 (by decide),
    W4_of_ne m c main_call0_v1 (by decide), W4_result m c]
  iintro ⟨⟨Hl, Hr, H6, H5, H4, H7⟩, H0, H2, H3⟩
  ihave H1 := (pointsTo_share (PosShare.mem_left_op_right fullShare)).2 $$ [Hl Hr]
  · isplitl [Hl]; · iexact Hl
    iexact Hr
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem enter2 (c : Dev nD) :
    (StableHlo.held (c : Thread nD τ) (Pipeline.ucRefs τ sig) (W3 m c) : sProp 𝕄)
      ⊢ iprop((pdats m 2 c).arrays ((pdats m 2 c).arrAt · 0) ∗ bypass2 c (V3 m c)) := enter2' m c
theorem exit2 (c : Dev nD) :
    iprop((pdats m 2 c).arrays ((pdats m 2 c).arrAt · cfg2.N) ∗ bypass2 c (V3 m c))
      ⊢ (StableHlo.held (c : Thread nD τ) (Pipeline.ucRefs τ sig) (W4 m c) : sProp 𝕄) := exit2' m c

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := bypass2 c (V3 m c)
  hentry c := by
    rw [Pipeline.ownSems0_none]
    have hsplit := enter2 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 m c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .region (reg2 m) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state holds every unscoped buffer of every core at the last valuation. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## The arguments and the result, read off the last valuation -/

/-- The reshape writes the bias row's buffer only. -/
theorem hostOps0_writes' : (hostOps0 : List (HloOp τ sig (Elt F))).Forall fun op =>
    op.writes ⊆ (([main_v0] : List (Ref sig .tc)).map (Proc.devRef (τ := τ) .tc)).toFinset := by
  simp only [List.Forall]
  exact (by simp only [StableHlo.reshape_writes, Finset.singleton_subset_iff, List.mem_toFinset]; exact List.mem_map_of_mem (by decide))
theorem W1_of_ne (c : Dev nD) (b : Ref sig .tc) (hb : b ∉ ([main_v0] : List (Ref sig .tc))) :
    W1 m c (Proc.devRef .tc b) = m ((c : Thread nD τ).loc b) :=
  StableHlo.after_of_writes_sub hostOps0 _ hostOps0_writes' hb

end Cert.Kernel.Hand

end
-- ==== Proof.KerBEnds.lean ====
/-
  The kernel program's run, read at the arguments and at the result: no item writes an argument (a region reads
  it through an input window, whose array is never written back, or bypasses it; the one host operation writes the
  reshaped bias only), so each argument's buffer at the last valuation is the launch memory; the result's buffer is
  what the last region's write-backs leave.
-/
import proofs.«168457_g2000706009674355_pallasbulk_102_19_alg».proof.Proof.KerBRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := (W3_arr m c 0).trans (((dat1 (V2 m) c).arrAt_in 0 rfl _).trans (A_eq1 (V2 m) c 0))
    _ = W1 m c (Proc.devRef .tc main_arg0) := W2_of_ne m c main_arg0 (by decide)
    _ = m ((c : Thread nD τ).loc main_arg0) := W1_of_ne m c main_arg0 (by decide)

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := (W2_arr m c 0).trans (((dat0 (V1 m) c).arrAt_in 0 rfl _).trans (A_eq0 (V1 m) c 0))
    _ = m ((c : Thread nD τ).loc main_arg1) := W1_of_ne m c main_arg1 (by decide)

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := (W3_arr m c 1).trans (((dat1 (V2 m) c).arrAt_in 1 rfl _).trans (A_eq1 (V2 m) c 1))
    _ = W1 m c (Proc.devRef .tc main_arg2) := W2_of_ne m c main_arg2 (by decide)
    _ = m ((c : Thread nD τ).loc main_arg2) := W1_of_ne m c main_arg2 (by decide)

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of_ne m c main_arg3 (by decide)

/-- THE RUN, read: every weakly fair execution terminates, nothing faulting; the result's buffer ends at what the
    last region's write-backs leave in it, and every argument as launched. -/
theorem run_read (ρ : Dev nD → PrngReg) : θ_run defs (onTc (τ := τ) (main (F := F))) ⟨m, fun _ => 0, ρ⟩ (fun r => ∀ c : Dev nD,
      r.2.mem ((c.tc : Thread nD τ).loc main_v1) = (dat2 (V3 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v1 (by decide))).trans (W4_result m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

/-- The frame: every argument ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_read m ρ)

end Cert.Kernel.Hand

end
-- ==== Proof.KerDinvRuns.lean ====
/-
  The first of the kernel's three regions: dinv[i] = rsqrt(sum_j graph[j, i]) where that column sum is positive,
  0 elsewhere. The grid is 2 column slabs of 4096 columns by 32 row slabs of 256 rows. A scratch row of 4096 sums
  is carried along the row slabs of one column slab: reset to zero at the first row slab, increased by the row
  slab's column sums at every one, and at the last turned into the 4096 x 1 column of the output. So the body has
  three ways to run, by the row slab's position: first, middle, last. Here: the two conditions in closed form over
  the grid, where the output window is idle, the buffers the body is called with, the region's invariant split
  into the scratch row and the rest, and the body's run in each of the three cases, the stores each leaves found
  by running it.
-/
import proofs.«168457_g2000706009674355_pallasbulk_102_19_alg».proof.Proof.Gen.KernelIdeal.Launch
import proofs.«168457_g2000706009674355_pallasbulk_102_19_alg».proof.Proof.Gen.KernelIdeal.Skeleton
import proofs.«168457_g2000706009674355_pallasbulk_102_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- The row slab is the first of its column slab. -/
abbrev isFirstRow (i : grid0.Coords) : Prop :=
  (Scalar.cmpi .ne (Scalar.extui (Scalar.cmpi .eq (BitVec.ofNat 32 (i 1).val) 0#32)) 0#32) = 1#1
theorem isFirstRow_iff : ∀ t : Fin cfg0.N, isFirstRow (grid0.coords t) ↔ t.val % 32 = 0 :=
  (by decide +kernel : ∀ t : Fin grid0.N, isFirstRow (grid0.coords t) ↔ t.val % 32 = 0)

/-- The row slab is the last of its column slab. -/
abbrev isLastRow (i : grid0.Coords) : Prop := k0_cond2 i = 1#1
theorem isLastRow_iff : ∀ t : Fin cfg0.N, isLastRow (grid0.coords t) ↔ t.val % 32 = 31 :=
  (by decide +kernel : ∀ t : Fin grid0.N, isLastRow (grid0.coords t) ↔ t.val % 32 = 31)

/-! ## Where the windows are idle -/

/-- The graph's window is an input: never idle. -/
theorem live0_0 : ∀ t : Fin cfg0.N, cfg0.idle 0 (grid0.coords t) = false := by decide +kernel
/-- Before the last row slab the body stores nothing into the output column: the window is idle there, -/
theorem idle0_1 : ∀ t : Fin cfg0.N, ¬isLastRow (grid0.coords t) → cfg0.idle 1 (grid0.coords t) = true := by decide +kernel
/-- and its block is not written back there. -/
theorem noFlush0_1 : ∀ t : Fin cfg0.N, ¬isLastRow (grid0.coords t) → (cfg0.win 1).flush t = false := by decide +kernel
/-- At the last row slab it is live. -/
theorem live0_1 : ∀ t : Fin cfg0.N, isLastRow (grid0.coords t) → cfg0.idle 1 (grid0.coords t) = false := by decide +kernel

/-! ## The buffers the body is called with -/

abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .f32 := win0_1.stage (cfg0.slots t 1)
abbrev hs0_1 (t : Fin cfg0.N) : (ms0_1 t).IsWhole := hstage0_1 ((cfg0.slots t 1).cast nbuf0_1)
/-- The scratch row of column sums. -/
abbrev accM : Memref sig .tc .vmem S1x4096 .f32 := Memref.whole cc0_scratch0
abbrev accV : View sig .tc .vmem S1x4096 .f32 := accM.view
/-- One staging buffer of the output column, through which its contents are stated (the choice does not matter). -/
abbrev colV : View sig .tc .vmem S4096x1 .f32 := (Memref.whole cc0_stg1_0 : Memref sig .tc .vmem S4096x1 .f32).view

/-! ## The region's invariant, split -/

/-- The scoped buffers this region's pipeline does not stage, the scratch row apart: the other two regions'
    staging buffers, each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

/-- Between row slabs the region holds the scratch row, those other buffers and the generator register. -/
theorem PhiA0_eq (c : Dev nD) :
    (Pipeline.ΦA spec0 c : sProp 𝕄)
      = iprop(iprop((∃ d, owns (c : Thread nD τ) accM fullShare d) ∗ otherScoped c) ∗ (∃ r, prngReg c r)) := by
  unfold Pipeline.ΦA otherScoped; rw [scopedRest0_eq]; simp only [accM, owns_whole]; try rfl

/-! ## The body's run, case by case -/

set_option maxHeartbeats 1000000 in
/-- FIRST row slab: the scratch row, found at anything, is zeroed and then increased by this slab's column sums;
    the output column's buffer is handed back untouched. The stores the scratch row ends with are what the run finds. -/
noncomputable def runFirst (c : Dev nD) (i : grid0.Coords) (arg2 : Memref sig .tc .vmem S256x4096 .f32) (harg2 : arg2.IsWhole)
    (arg3 : Memref sig .tc .vmem S4096x1 .f32) (harg3 : arg3.IsWhole) (arg4 : Memref sig .tc .vmem S1x4096 .f32) (harg4 : arg4.IsWhole)
    (hc0 : isFirstRow i) (hc1 : ¬isLastRow i) (x0 : Vec F S256x4096 .f32) :
    { LS0 : List (View.Piece (Elt F) S1x4096 .f32) //
      ∀ (xi1 : Vec F S4096x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f LS0)) -∗ K ⟨⟩))
          ⊢ wp frame (wpE (defs₀ (F := F)) Variants.none c none) E (cc0__dinv_kernel i arg2 harg2 arg3 harg3 arg4 harg4) K } := by
  refine ⟨?_, fun xi1 E K => ?run⟩
  case run =>
    simp only [cc0__dinv_kernel_eq_skeleton]; unfold cc0__dinv_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- MIDDLE row slab: the scratch row, at what the slab before left (`xs0`), is increased by this slab's column sums;
    the output column's buffer is handed back untouched. -/
noncomputable def runMid (c : Dev nD) (i : grid0.Coords) (arg2 : Memref sig .tc .vmem S256x4096 .f32) (harg2 : arg2.IsWhole)
    (arg3 : Memref sig .tc .vmem S4096x1 .f32) (harg3 : arg3.IsWhole) (arg4 : Memref sig .tc .vmem S1x4096 .f32) (harg4 : arg4.IsWhole)
    (hc0 : ¬isFirstRow i) (hc1 : ¬isLastRow i) (x0 : Vec F S256x4096 .f32) (xs0 : Vec F S1x4096 .f32) :
    { LS0 : List (View.Piece (Elt F) S1x4096 .f32) //
      ∀ (xi1 : Vec F S4096x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f LS0)) -∗ K ⟨⟩))
          ⊢ wp frame (wpE (defs₀ (F := F)) Variants.none c none) E (cc0__dinv_kernel i arg2 harg2 arg3 harg3 arg4 harg4) K } := by
  refine ⟨?_, fun xi1 E K => ?run⟩
  case run =>
    simp only [cc0__dinv_kernel_eq_skeleton]; unfold cc0__dinv_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- LAST row slab: the scratch row, at what the slab before left, is increased by this slab's column sums, and the
    output column's buffer (found at anything) is stored whole from it. -/
noncomputable def runLast (c : Dev nD) (i : grid0.Coords) (arg2 : Memref sig .tc .vmem S256x4096 .f32) (harg2 : arg2.IsWhole)
    (arg3 : Memref sig .tc .vmem S4096x1 .f32) (harg3 : arg3.IsWhole) (arg4 : Memref sig .tc .vmem S1x4096 .f32) (harg4 : arg4.IsWhole)
    (hc0 : ¬isFirstRow i) (hc1 : isLastRow i) (x0 : Vec F S256x4096 .f32) (xs0 : Vec F S1x4096 .f32) :
    Σ' (L1 : List (View.Piece (Elt F) S4096x1 .f32)), { LS0 : List (View.Piece (Elt F) S1x4096 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f LS0)) -∗ K ⟨⟩))
          ⊢ wp frame (wpE (defs₀ (F := F)) Variants.none c none) E (cc0__dinv_kernel i arg2 harg2 arg3 harg3 arg4 harg4) K } := by
  refine ⟨?_, ?_, fun E K => ?run⟩
  case run =>
    simp only [cc0__dinv_kernel_eq_skeleton]; unfold cc0__dinv_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.KerDinv.lean ====
/-
  The first region, continued: what the scratch row of column sums and the output column hold after each grid
  point — a recursion along the 64 points, the case chosen by the row slab's position in its column slab —, the
  region's invariant (the scratch row at those contents), its proof data at ANY contents `V` the region may find
  in the arrays when it is entered, and the body obligation, case by case.
-/
import proofs.«168457_g2000706009674355_pallasbulk_102_19_alg».proof.Proof.KerDinvRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The block of window `w`'s array that grid point `t` works on, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The graph's 256 x 4096 block is in its staging buffer at every point. -/
theorem found0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Region

/-! ## What each case leaves -/

section Cases

variable (c : Dev nD) (i : grid0.Coords) (arg2 : Memref sig .tc .vmem S256x4096 .f32) (harg2 : arg2.IsWhole)
  (arg3 : Memref sig .tc .vmem S4096x1 .f32) (harg3 : arg3.IsWhole) (arg4 : Memref sig .tc .vmem S1x4096 .f32) (harg4 : arg4.IsWhole)

/-- The stores each case leaves in the scratch row cover it, -/
theorem accFirst_cover (hc0 : isFirstRow i) (hc1 : ¬isLastRow i) (x0 : Vec F S256x4096 .f32) (y : S1x4096.Idx) :
    ∃ pc ∈ (runFirst c i arg2 harg2 arg3 harg3 arg4 harg4 hc0 hc1 x0).1, y ∈ pc.1.set :=
  View.cover_of_tiledL (runFirst c i arg2 harg2 arg3 harg3 arg4 harg4 hc0 hc1 x0).1 S1x4096.size (by sl_kernel_rfl) y
theorem accMid_cover (hc0 : ¬isFirstRow i) (hc1 : ¬isLastRow i) (x0 : Vec F S256x4096 .f32) (xs0 : Vec F S1x4096 .f32) (y : S1x4096.Idx) :
    ∃ pc ∈ (runMid c i arg2 harg2 arg3 harg3 arg4 harg4 hc0 hc1 x0 xs0).1, y ∈ pc.1.set :=
  View.cover_of_tiledL (runMid c i arg2 harg2 arg3 harg3 arg4 harg4 hc0 hc1 x0 xs0).1 S1x4096.size (by sl_kernel_rfl) y
theorem accLast_cover (hc0 : ¬isFirstRow i) (hc1 : isLastRow i) (x0 : Vec F S256x4096 .f32) (xs0 : Vec F S1x4096 .f32) (y : S1x4096.Idx) :
    ∃ pc ∈ (runLast c i arg2 harg2 arg3 harg3 arg4 harg4 hc0 hc1 x0 xs0).2.1, y ∈ pc.1.set :=
  View.cover_of_tiledL (runLast c i arg2 harg2 arg3 harg3 arg4 harg4 hc0 hc1 x0 xs0).2.1 S1x4096.size (by sl_kernel_rfl) y
/-- and the last case's store covers the output column. -/
theorem colLast_cover (hc0 : ¬isFirstRow i) (hc1 : isLastRow i) (x0 : Vec F S256x4096 .f32) (xs0 : Vec F S1x4096 .f32) (y : S4096x1.Idx) :
    ∃ pc ∈ (runLast c i arg2 harg2 arg3 harg3 arg4 harg4 hc0 hc1 x0 xs0).1, y ∈ pc.1.set :=
  View.cover_of_tiledL (runLast c i arg2 harg2 arg3 harg3 arg4 harg4 hc0 hc1 x0 xs0).1 S4096x1.size (by sl_kernel_rfl) y

/-- What each case leaves in the scratch row: its stores read back. -/
def accFirst (hc0 : isFirstRow i) (hc1 : ¬isLastRow i) (x0 : Vec F S256x4096 .f32) : Vec F S1x4096 .f32 :=
  accV.read (Elt F) (accV.writes (Elt F) accV.junk (runFirst c i arg2 harg2 arg3 harg3 arg4 harg4 hc0 hc1 x0).1)
def accMid (hc0 : ¬isFirstRow i) (hc1 : ¬isLastRow i) (x0 : Vec F S256x4096 .f32) (xs0 : Vec F S1x4096 .f32) : Vec F S1x4096 .f32 :=
  accV.read (Elt F) (accV.writes (Elt F) accV.junk (runMid c i arg2 harg2 arg3 harg3 arg4 harg4 hc0 hc1 x0 xs0).1)
def accLast (hc0 : ¬isFirstRow i) (hc1 : isLastRow i) (x0 : Vec F S256x4096 .f32) (xs0 : Vec F S1x4096 .f32) : Vec F S1x4096 .f32 :=
  accV.read (Elt F) (accV.writes (Elt F) accV.junk (runLast c i arg2 harg2 arg3 harg3 arg4 harg4 hc0 hc1 x0 xs0).2.1)
/-- What the last case leaves in the output column's staging buffer. -/
def colLast (hc0 : ¬isFirstRow i) (hc1 : isLastRow i) (x0 : Vec F S256x4096 .f32) (xs0 : Vec F S1x4096 .f32) : Vec F S4096x1 .f32 :=
  colV.read (Elt F) (colV.writes (Elt F) colV.junk (runLast c i arg2 harg2 arg3 harg3 arg4 harg4 hc0 hc1 x0 xs0).1)

end Cases

section Region2

variable (V : (c : Dev nD) → (b : Ref sig .tc) → Buf (Elt F) ((c : Thread nD τ).loc b))

/-- THE ACCUMULATION: the scratch row after the body at position `n`. -/
def accAt (c : Dev nD) : (n : ℕ) → n < cfg0.N → Vec F S1x4096 .f32
  | 0, hn => accFirst c (grid0.coords ⟨0, hn⟩) (ms0_0 ⟨0, hn⟩) (hs0_0 ⟨0, hn⟩) (ms0_1 ⟨0, hn⟩) (hs0_1 ⟨0, hn⟩) accM (Memref.isWhole_whole _) ((isFirstRow_iff ⟨0, hn⟩).mpr (Nat.zero_mod _)) (fun h => by have h' := (isLastRow_iff ⟨0, hn⟩).mp h; (try dsimp only at h'); omega) (iblk0 V c 0 ⟨0, hn⟩)
  | n + 1, hn =>
    if h0 : (n + 1) % 32 = 0 then
      accFirst c (grid0.coords ⟨n + 1, hn⟩) (ms0_0 ⟨n + 1, hn⟩) (hs0_0 ⟨n + 1, hn⟩) (ms0_1 ⟨n + 1, hn⟩) (hs0_1 ⟨n + 1, hn⟩) accM (Memref.isWhole_whole _) ((isFirstRow_iff ⟨n + 1, hn⟩).mpr h0) (fun h => by have h' := (isLastRow_iff ⟨n + 1, hn⟩).mp h; (try dsimp only at h'); omega) (iblk0 V c 0 ⟨n + 1, hn⟩)
    else
      if h1 : (n + 1) % 32 = 31 then
        accLast c (grid0.coords ⟨n + 1, hn⟩) (ms0_0 ⟨n + 1, hn⟩) (hs0_0 ⟨n + 1, hn⟩) (ms0_1 ⟨n + 1, hn⟩) (hs0_1 ⟨n + 1, hn⟩) accM (Memref.isWhole_whole _) (fun h => h0 ((isFirstRow_iff ⟨n + 1, hn⟩).mp h)) ((isLastRow_iff ⟨n + 1, hn⟩).mpr h1) (iblk0 V c 0 ⟨n + 1, hn⟩) (accAt c n (Nat.lt_of_succ_lt hn))
      else
        accMid c (grid0.coords ⟨n + 1, hn⟩) (ms0_0 ⟨n + 1, hn⟩) (hs0_0 ⟨n + 1, hn⟩) (ms0_1 ⟨n + 1, hn⟩) (hs0_1 ⟨n + 1, hn⟩) accM (Memref.isWhole_whole _) (fun h => h0 ((isFirstRow_iff ⟨n + 1, hn⟩).mp h)) (fun h => h1 ((isLastRow_iff ⟨n + 1, hn⟩).mp h)) (iblk0 V c 0 ⟨n + 1, hn⟩) (accAt c n (Nat.lt_of_succ_lt hn))

theorem accAt_first (c : Dev nD) (t : Fin cfg0.N) (h0 : t.val % 32 = 0) (h1 : ¬t.val % 32 = 31) :
    accAt V c t.val t.isLt = accFirst c (grid0.coords t) (ms0_0 t) (hs0_0 t) (ms0_1 t) (hs0_1 t) accM (Memref.isWhole_whole _) ((isFirstRow_iff t).mpr h0) (fun h => h1 ((isLastRow_iff t).mp h)) (iblk0 V c 0 t) := by
  obtain ⟨n, hn⟩ := t
  cases n with
  | zero => exact rfl
  | succ n => exact (dif_pos h0).trans rfl

theorem accAt_mid (c : Dev nD) (t : Fin cfg0.N) (h0 : ¬t.val % 32 = 0) (h1 : ¬t.val % 32 = 31) :
    accAt V c t.val t.isLt = accMid c (grid0.coords t) (ms0_0 t) (hs0_0 t) (ms0_1 t) (hs0_1 t) accM (Memref.isWhole_whole _) (fun h => h0 ((isFirstRow_iff t).mp h)) (fun h => h1 ((isLastRow_iff t).mp h)) (iblk0 V c 0 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 32 = 0) (h1 : t.val % 32 = 31) :
    accAt V c t.val t.isLt = accLast c (grid0.coords t) (ms0_0 t) (hs0_0 t) (ms0_1 t) (hs0_1 t) accM (Memref.isWhole_whole _) (fun h => h0 ((isFirstRow_iff t).mp h)) ((isLastRow_iff t).mpr h1) (iblk0 V c 0 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output column's staging buffer after the body at point `t`: at a last row slab what that case stores, from
    this slab's block and the scratch row the slab before left; elsewhere a placeholder nothing consults (the window
    is idle there and not written back). -/
def colAt (c : Dev nD) (t : Fin cfg0.N) : Vec F S4096x1 .f32 :=
  if h1 : t.val % 32 = 31 then
    colLast c (grid0.coords t) (ms0_0 t) (hs0_0 t) (ms0_1 t) (hs0_1 t) accM (Memref.isWhole_whole _) (fun h => by have h' := (isFirstRow_iff t).mp h; omega) ((isLastRow_iff t).mpr h1) (iblk0 V c 0 t)
      (accAt V c (t.val - 1) (Nat.lt_of_le_of_lt (Nat.sub_le _ _) t.isLt))
  else colV.read (Elt F) colV.junk

theorem colAt_last (c : Dev nD) (t : Fin cfg0.N) (h0 : ¬t.val % 32 = 0) (h1 : t.val % 32 = 31) :
    colAt V c t = colLast c (grid0.coords t) (ms0_0 t) (hs0_0 t) (ms0_1 t) (hs0_1 t) accM (Memref.isWhole_whole _) (fun h => h0 ((isFirstRow_iff t).mp h)) ((isLastRow_iff t).mpr h1) (iblk0 V c 0 t)
      (accAt V c (t.val - 1) (Nat.lt_of_le_of_lt (Nat.sub_le _ _) t.isLt)) := by
  unfold colAt; exact (dif_pos h1).trans rfl

/-- The region's invariant before position `n`: before the first point the scratch row at anything; afterwards at
    what the point before left in it; beside it the other scoped buffers and the generator register. -/
def PhiS0 (c : Dev nD) : (n : ℕ) → n ≤ cfg0.N → sProp 𝕄
  | 0, _ => Pipeline.ΦA spec0 c
  | n + 1, hn => iprop(iprop(owns (c : Thread nD τ) accM fullShare (accAt V c n hn) ∗ otherScoped c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) accM fullShare (accAt V c n hn) ∗ otherScoped c) ∗ (∃ r, prngReg c r)) := rfl

theorem PhiS0_pos (c : Dev nD) (n : ℕ) (h : n ≤ cfg0.N) (hz : n ≠ 0) :
    PhiS0 V c n h = iprop(iprop(owns (c : Thread nD τ) accM fullShare (accAt V c (n - 1) (by omega)) ∗ otherScoped c) ∗ (∃ r, prngReg c r)) := by
  cases n with
  | zero => exact absurd rfl hz
  | succ n => rfl

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => colAt V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = colAt V c t := by dsimp only [dat0]

theorem before0_0 (c : Dev nD) (t : Fin cfg0.N) (d) : (dat0 V c).before 0 t d = iblk0 V c 0 t :=
  found0_0 V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which case the point is in; the invariant hands the body the scratch
    row (at anything before the first point, else at what the point before left) and takes it back at this point's
    contents; an idle output column goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [live0_0 t], after0_0]
  by_cases h0 : t.val % 32 = 0
  · have h1 : ¬t.val % 32 = 31 := by omega
    have hc0 : isFirstRow (grid0.coords t) := (isFirstRow_iff t).mpr h0
    have hc1 : ¬isLastRow (grid0.coords t) := fun h => h1 ((isLastRow_iff t).mp h)
    rw [Dat.leavesExact_idle (dat0 V c) 1 t (idle0_1 t hc1) (noFlush0_1 t hc1)]
    rw [accAt_first V c t h0 h1]
    unfold accFirst; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩⟩
      iapply ((runFirst c (grid0.coords t) _ _ _ _ _ _ hc0 hc1 (iblk0 V c 0 t)).2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accFirst_cover c _ _ _ _ _ _ _ _ _ _)
          iexact Hoth
        iexact Hg
      isplitl [Ho]; · iexact Ho
      isplitl [H0]; · iexact H0
      iexists _; iexact H1
    · rw [PhiS0_castSucc V c t, PhiS0_pos V c _ _ hz]
      iintro ⟨⟨⟨HS0, Hoth⟩, Hg⟩, Ho, ⟨%d0, H0⟩, ⟨%d1, H1⟩⟩
      iapply ((runFirst c (grid0.coords t) _ _ _ _ _ _ hc0 hc1 (iblk0 V c 0 t)).2 _ Set.univ _)
      isplitl [H0]; · iexact H0
      isplitl [H1]; · iexact H1
      isplitl [HS0]; · iexists _; iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accFirst_cover c _ _ _ _ _ _ _ _ _ _)
          iexact Hoth
        iexact Hg
      isplitl [Ho]; · iexact Ho
      isplitl [H0]; · iexact H0
      iexists _; iexact H1
  · have hz : t.val ≠ 0 := fun e => h0 (by rw [e])
    have hc0 : ¬isFirstRow (grid0.coords t) := fun h => h0 ((isFirstRow_iff t).mp h)
    by_cases h1 : t.val % 32 = 31
    · have hc1 : isLastRow (grid0.coords t) := (isLastRow_iff t).mpr h1
      rw [show (dat0 V c).leavesExact 1 t = owns (c : Thread nD τ) (ms0_1 t) fullShare ((dat0 V c).after 1 t) from by
        unfold Dat.leavesExact; rw [live0_1 t hc1], after0_1]
      rw [accAt_last V c t h0 h1, colAt_last V c t h0 h1]
      unfold accLast colLast; (try dsimp only)
      rw [PhiS0_castSucc V c t, PhiS0_pos V c _ _ hz]
      iintro ⟨⟨⟨HS0, Hoth⟩, Hg⟩, Ho, ⟨%d0, H0⟩, ⟨%d1, H1⟩⟩
      iapply ((runLast c (grid0.coords t) _ _ _ _ _ _ hc0 hc1 (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accLast_cover c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (colLast_cover c _ _ _ _ _ _ _ _ _ _ _)
    · have hc1 : ¬isLastRow (grid0.coords t) := fun h => h1 ((isLastRow_iff t).mp h)
      rw [Dat.leavesExact_idle (dat0 V c) 1 t (idle0_1 t hc1) (noFlush0_1 t hc1)]
      rw [accAt_mid V c t h0 h1]
      unfold accMid; (try dsimp only)
      rw [PhiS0_castSucc V c t, PhiS0_pos V c _ _ hz]
      iintro ⟨⟨⟨HS0, Hoth⟩, Hg⟩, Ho, ⟨%d0, H0⟩, ⟨%d1, H1⟩⟩
      iapply ((runMid c (grid0.coords t) _ _ _ _ _ _ hc0 hc1 (iblk0 V c 0 t) _).2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accMid_cover c _ _ _ _ _ _ _ _ _ _ _)
          iexact Hoth
        iexact Hg
      isplitl [Ho]; · iexact Ho
      isplitl [H0]; · iexact H0
      iexists _; iexact H1

/-- The body obligation of the region, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives that back: the scratch row's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ ht, PhiA0_eq]
  iintro ⟨⟨HS0, Hoth⟩, Hg⟩
  isplitl [HS0 Hoth]
  · isplitl [HS0]
    · iexists _; iexact HS0
    iexact Hoth
  iexact Hg

end Region2

end Cert.KernelIdeal.Hand

end
-- ==== Proof.KerHs.lean ====
/-
  The second of the kernel's three regions: hs[j, f] = dinv[j] * sum_m x[j, m] * W[m, f], computed in four row
  slabs of 2048 rows. At each slab the body reads the slab of x, the whole of W and the slab of the column dinv,
  and stores one 2048 x 256 block. Here: what that store leaves in the output's staging buffer as a function of
  the three blocks read, the body's run on any staging buffers, and the region's proof data at ANY contents `V`
  the region may find in the arrays when it is entered.
-/
import proofs.«168457_g2000706009674355_pallasbulk_102_19_alg».proof.Proof.Gen.KernelIdeal.Launch
import proofs.«168457_g2000706009674355_pallasbulk_102_19_alg».proof.Proof.Gen.KernelIdeal.Skeleton
import proofs.«168457_g2000706009674355_pallasbulk_102_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The block of window `w`'s array that grid point `t` works on, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The slab of x is in its staging buffer at every point. -/
theorem found1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- W, fetched once, is in its staging buffer at every point: its block index never moves. -/
theorem found1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The slab of the column dinv is in its staging buffer at every point. -/
theorem found1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 2048 x 256 slab, the whole of W, the whole 2048 x 1 column slab: the boxes the body reads and writes through. -/
abbrev boxSlab : Rect S2048x256 := Rect.unit (s := S2048x256) ![0, 0] S2048x256.size inb_S2048x256_S2048x256_0_0
abbrev boxW : Rect S256x256 := Rect.unit (s := S256x256) ![0, 0] S256x256.size inb_S256x256_S256x256_0_0
abbrev boxCol : Rect S2048x1 := Rect.unit (s := S2048x1) ![0, 0] S2048x1.size inb_S2048x1_S2048x1_0_0

/-- What the body's one store leaves in the output's staging buffer: the product dinv * (x W) of the three blocks read. -/
def hsBlock (x0 : Vec F S2048x256 .f32) (x1 : Vec F S256x256 .f32) (x2 : Vec F S2048x1 .f32) : Vec F S2048x256 .f32 :=
  View.canon [⟨boxSlab, k1_pay1 (View.ld x0 boxSlab) (View.ld x1 boxW) (View.ld x2 boxCol)⟩]

/-- The one store fills the whole buffer. -/
theorem hsBlock_cover (p0 : Vec F S2048x256 .f32) (y : S2048x256.Idx) :
    ∃ pc ∈ ([⟨boxSlab, p0⟩] : List (View.Piece (Elt F) S2048x256 .f32)), y ∈ pc.1.set :=
  View.cover_of_tiled [⟨boxSlab, p0⟩] S2048x256.size (by rfl) y

set_option maxHeartbeats 1000000 in
/-- The body on whole staging buffers holding the three blocks (the output's buffer at anything) runs to the end,
    leaves the inputs as they were and the output's buffer at `hsBlock` of them. -/
theorem sound_kernel1 (c : Dev nD) (E : Set ℕ) (i : grid1.Coords)
    (arg1 : Memref sig .tc .vmem S2048x256 .f32) (harg1 : arg1.IsWhole) (arg2 : Memref sig .tc .vmem S256x256 .f32) (harg2 : arg2.IsWhole)
    (arg3 : Memref sig .tc .vmem S2048x1 .f32) (harg3 : arg3.IsWhole) (arg4 : Memref sig .tc .vmem S2048x256 .f32) (harg4 : arg4.IsWhole)
    (x0 : Vec F S2048x256 .f32) (x1 : Vec F S256x256 .f32) (x2 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (hsBlock x0 x1 x2)) -∗ K ⟨⟩))
      ⊢ wp frame (wpE (defs₀ (F := F)) Variants.none c none) E (cc1__hs_kernel i arg1 harg1 arg2 harg2 arg3 harg3 arg4 harg4) K := by
  simp only [cc1__hs_kernel_eq_skeleton]; unfold cc1__hs_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (hsBlock_cover _)

/-- The region's proof data on core `c`: the arrays as the region finds them; after the body at slab `t` each
    input's buffer still at its block and the output's at `hsBlock` of the three blocks; nothing kept between
    slabs beyond the scoped buffers no window stages and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => hsBlock (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = hsBlock (iblk1 V c 0 t) (iblk1 V c 1 t) (iblk1 V c 2 t) := by dsimp only [dat1]

theorem before1_0 (c : Dev nD) (t : Fin cfg1.N) (d) : (dat1 V c).before 0 t d = iblk1 V c 0 t :=
  found1_0 V (dat1 V c) (A_eq1 V c 0) (after1_0 V c) t d
theorem before1_1 (c : Dev nD) (t : Fin cfg1.N) (d) : (dat1 V c).before 1 t d = iblk1 V c 1 t :=
  found1_1 V (dat1 V c) (A_eq1 V c 1) (after1_1 V c) t d
theorem before1_2 (c : Dev nD) (t : Fin cfg1.N) (d) : (dat1 V c).before 2 t d = iblk1 V c 2 t :=
  found1_2 V (dat1 V c) (A_eq1 V c 2) (after1_2 V c) t d

/-- What the body is called with at slab `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every slab. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KerAgg.lean ====
/-
  The last of the kernel's three regions: y[i, f] = dinv[i] * sum_j graph[j, i] * hs[j, f] + bias[f], computed in
  sixteen row slabs of 512 output rows. At each slab the body reads two neighbouring 8192 x 256 column slabs of
  the graph (both windows of the one array), the whole of hs, a 512 x 1 slab of the column dinv and the bias row;
  it contracts the whole j axis in four chunks of 2048 rows, adds the four partial products, and stores the two
  256-row halves of the output block. Here: what the two stores leave in the output's staging buffer as a function
  of the five blocks read, the body's run on any staging buffers, and the region's proof data at ANY contents
  `V` the region may find in the arrays when it is entered.
-/
import proofs.«168457_g2000706009674355_pallasbulk_102_19_alg».proof.Proof.Gen.KernelIdeal.Launch
import proofs.«168457_g2000706009674355_pallasbulk_102_19_alg».proof.Proof.Gen.KernelIdeal.Skeleton
import proofs.«168457_g2000706009674355_pallasbulk_102_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The block of window `w`'s array that grid point `t` works on, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each of the five inputs is in its staging buffer at every point, fetched there or not. -/
theorem found2_0 {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem found2_2 {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem found2_3 {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem found2_4 {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The four 2048-row chunks of an 8192 x 256 buffer, the two 256-row halves of the dinv slab and of the output
    block, and the bias row: the boxes the body reads and writes through. -/
abbrev chunk0 : Rect S8192x256 := Rect.unit (s := S8192x256) ![0, 0] S2048x256.size inb_S8192x256_S2048x256_0_0
abbrev chunk1 : Rect S8192x256 := Rect.unit (s := S8192x256) ![2048, 0] S2048x256.size inb_S8192x256_S2048x256_2048_0
abbrev chunk2 : Rect S8192x256 := Rect.unit (s := S8192x256) ![4096, 0] S2048x256.size inb_S8192x256_S2048x256_4096_0
abbrev chunk3 : Rect S8192x256 := Rect.unit (s := S8192x256) ![6144, 0] S2048x256.size inb_S8192x256_S2048x256_6144_0
abbrev colLo : Rect S512x1 := Rect.unit (s := S512x1) ![0, 0] S256x1.size inb_S512x1_S256x1_0_0
abbrev colHi : Rect S512x1 := Rect.unit (s := S512x1) ![256, 0] S256x1.size inb_S512x1_S256x1_256_0
abbrev boxBias : Rect S1x256 := Rect.unit (s := S1x256) ![0, 0] S1x256.size inb_S1x256_S1x256_0_0
abbrev outLo : Rect S512x256 := Rect.unit (s := S512x256) ![0, 0] S256x256.size inb_S512x256_S256x256_0_0
abbrev outHi : Rect S512x256 := Rect.unit (s := S512x256) ![256, 0] S256x256.size inb_S512x256_S256x256_256_0

/-- The first 256 rows of the output block: dinv * (the sum over the four chunks of the first graph slab's products with hs) + bias. -/
def aggLo (g0 : Vec F S8192x256 .f32) (h : Vec F S8192x256 .f32) (dv : Vec F S512x1 .f32) (b : Vec F S1x256 .f32) : FVec F S256x256 .f32 :=
  k2_pay1 (k2_pay6 (View.ld h chunk0) (View.ld g0 chunk0) (View.ld h chunk1) (View.ld g0 chunk1) (View.ld h chunk2) (View.ld g0 chunk2))
    (k2_pay9 (View.ld h chunk3) (View.ld g0 chunk3)) (View.ld dv colLo) (View.ld b boxBias)

/-- The last 256 rows: the same of the second graph slab. -/
def aggHi (g1 : Vec F S8192x256 .f32) (h : Vec F S8192x256 .f32) (dv : Vec F S512x1 .f32) (b : Vec F S1x256 .f32) : FVec F S256x256 .f32 :=
  k2_pay2 (k2_pay7 (View.ld h chunk0) (View.ld g1 chunk0) (View.ld h chunk1) (View.ld g1 chunk1) (View.ld h chunk2) (View.ld g1 chunk2))
    (k2_pay8 (View.ld h chunk3)) (View.ld g1 chunk3) (constant S256x256 .f32 0x00000000#32) (View.ld dv colHi) (View.ld b boxBias)

/-- What the body's two stores leave in the output's staging buffer. -/
def aggBlock (g0 g1 h : Vec F S8192x256 .f32) (dv : Vec F S512x1 .f32) (b : Vec F S1x256 .f32) : Vec F S512x256 .f32 :=
  View.canon [⟨outHi, aggHi g1 h dv b⟩, ⟨outLo, aggLo g0 h dv b⟩]

/-- The two stores tile the buffer. -/
theorem aggBlock_cover (p1 p0 : Vec F S256x256 .f32) (y : S512x256.Idx) :
    ∃ pc ∈ ([⟨outHi, p1⟩, ⟨outLo, p0⟩] : List (View.Piece (Elt F) S512x256 .f32)), y ∈ pc.1.set :=
  View.cover_of_tiled [⟨outHi, p1⟩, ⟨outLo, p0⟩] S256x256.size (by rfl) y

set_option maxHeartbeats 2000000 in
/-- The body on whole staging buffers holding the five blocks (the output's buffer at anything) runs to the end,
    leaves the inputs as they were and the output's buffer at `aggBlock` of them. -/
theorem sound_kernel2 (c : Dev nD) (E : Set ℕ) (i : grid2.Coords)
    (arg1 : Memref sig .tc .vmem S8192x256 .f32) (harg1 : arg1.IsWhole) (arg2 : Memref sig .tc .vmem S8192x256 .f32) (harg2 : arg2.IsWhole)
    (arg3 : Memref sig .tc .vmem S8192x256 .f32) (harg3 : arg3.IsWhole) (arg4 : Memref sig .tc .vmem S512x1 .f32) (harg4 : arg4.IsWhole)
    (arg5 : Memref sig .tc .vmem S1x256 .f32) (harg5 : arg5.IsWhole) (arg6 : Memref sig .tc .vmem S512x256 .f32) (harg6 : arg6.IsWhole)
    (x0 x1 x2 : Vec F S8192x256 .f32) (x3 : Vec F S512x1 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (aggBlock x0 x1 x2 x3 x4)) -∗ K ⟨⟩))
      ⊢ wp frame (wpE (defs₀ (F := F)) Variants.none c none) E (cc2__agg2_kernel i arg1 harg1 arg2 harg2 arg3 harg3 arg4 harg4 arg5 harg5 arg6 harg6) K := by
  simp only [cc2__agg2_kernel_eq_skeleton]; unfold cc2__agg2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (aggBlock_cover _ _)

/-- The region's proof data on core `c`: the arrays as the region finds them; after the body at slab `t` each
    input's buffer still at its block and the output's at `aggBlock` of the five blocks. The graph is read through
    two windows: each holds one half of the array's share; every other input its array outright. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => aggBlock (iblk2 V c 0 t) (iblk2 V c 1 t) (iblk2 V c 2 t) (iblk2 V c 3 t) (iblk2 V c 4 t)
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = aggBlock (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  found2_0 V (dat2 V c) (A_eq2 V c 0) (after2_0 V c) t d
theorem before2_1 (c : Dev nD) (t : Fin cfg2.N) (d) : (dat2 V c).before 1 t d = iblk2 V c 1 t :=
  found2_1 V (dat2 V c) (A_eq2 V c 1) (after2_1 V c) t d
theorem before2_2 (c : Dev nD) (t : Fin cfg2.N) (d) : (dat2 V c).before 2 t d = iblk2 V c 2 t :=
  found2_2 V (dat2 V c) (A_eq2 V c 2) (after2_2 V c) t d
theorem before2_3 (c : Dev nD) (t : Fin cfg2.N) (d) : (dat2 V c).before 3 t d = iblk2 V c 3 t :=
  found2_3 V (dat2 V c) (A_eq2 V c 3) (after2_3 V c) t d
theorem before2_4 (c : Dev nD) (t : Fin cfg2.N) (d) : (dat2 V c).before 4 t d = iblk2 V c 4 t :=
  found2_4 V (dat2 V c) (A_eq2 V c 4) (after2_4 V c) t d

/-- What the body is called with at slab `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every slab. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KerRun.lean ====
/-
  The kernel program from launch to return: one stretch of host operations (the bias row reshaped), then the three
  regions in order. Between items every unscoped buffer of the core is held at a named valuation: the launch
  memory, then what the reshape leaves, then after each region its arrays at what the region's write-backs leave
  and every other buffer as it was. The run ends with every unscoped buffer at the last of those valuations; the
  arguments read back through them are the launch memory, and the result is what the last region's write-backs
  leave in its output array.
-/
import proofs.«168457_g2000706009674355_pallasbulk_102_19_alg».proof.Proof.KerDinv
import proofs.«168457_g2000706009674355_pallasbulk_102_19_alg».proof.Proof.KerHs
import proofs.«168457_g2000706009674355_pallasbulk_102_19_alg».proof.Proof.KerAgg

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.SL.BI (bigSepL)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the reshape of the bias (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: the column dinv at what its write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second region: hs at what its write-backs leave. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the third region: the result array at what its write-backs leave, every other buffer as it was (the
    region's other arrays are inputs, never written). -/
def W4 (c : Dev nD) : Valuation τ sig (Elt F) :=
  Function.update (W3 m c) (Proc.devRef .tc main_v1) ((dat2 (V3 m) c).arrAt 5 cfg2.N)
theorem W4_result (c : Dev nD) : W4 m c (Proc.devRef .tc main_v1) = (dat2 (V3 m) c).arrAt 5 cfg2.N := by
  unfold W4; exact Function.update_self ..
theorem W4_of_ne (c : Dev nD) (b : Ref sig .tc) (hb : b ≠ main_v1) :
    W4 m c (Proc.devRef .tc b) = W3 m c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m c b

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as items -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### The third region: the graph read through two windows -/

/-- A core's unscoped buffers, one by one. -/
theorem unscopedBufs_list (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_v0) ↦{fullShare} V main_v0) ∗ (((c : Thread nD τ).loc main_call0_v0) ↦{fullShare} V main_call0_v0) ∗ (((c : Thread nD τ).loc main_call0_v1) ↦{fullShare} V main_call0_v1) ∗ (((c : Thread nD τ).loc main_v1) ↦{fullShare} V main_v1)) := by
  unfold unscopedBufs
  exact Idealize.SL.BI.bigSep_eq_bigSepL_of_eq [main_arg0, main_arg1, main_arg2, main_arg3, main_v0, main_call0_v0, main_call0_v1, main_v1] (by decide) (by decide) _

/-- The third region's arrays, window by window: the graph's two windows at the two halves of its share. -/
theorem arrays2_list (c : Dev nD) (V : (c : Dev nD) → (b : Ref sig .tc) → Buf (Elt F) ((c : Thread nD τ).loc b))
    (G : (w : Fin cfg2.W) → Buf (Elt F) ((cfg2.win w).arr.view.loc (c : Thread nD τ))) :
    ((dat2 V c).arrays G : sProp 𝕄)
      = iprop((((c : Thread nD τ).loc main_arg1) ↦{fullShare.left} G 0) ∗ (((c : Thread nD τ).loc main_arg1) ↦{fullShare.right} G 1)
          ∗ (((c : Thread nD τ).loc main_call0_v1) ↦{fullShare} G 2) ∗ (((c : Thread nD τ).loc main_call0_v0) ↦{fullShare} G 3)
          ∗ (((c : Thread nD τ).loc main_v0) ↦{fullShare} G 4) ∗ (((c : Thread nD τ).loc main_v1) ↦{fullShare} G 5)) := by
  unfold Dat.arrays; rw [bigSep_W2]
  rw [(arr_whole2 0).set_eq_univ, (arr_whole2 2).set_eq_univ, (arr_whole2 3).set_eq_univ,
    (arr_whole2 4).set_eq_univ, (arr_whole2 5).set_eq_univ]
  rw [show (dat2 V c).share 0 = fullShare.left from rfl, show (dat2 V c).share 1 = fullShare.right from rfl,
    show (dat2 V c).share 2 = fullShare from rfl, show (dat2 V c).share 3 = fullShare from rfl,
    show (dat2 V c).share 4 = fullShare from rfl, show (dat2 V c).share 5 = fullShare from rfl]

/-- The buffers that bypass the third region: the arguments x, W and the bias vector. -/
def bypass2 (c : Dev nD) (V : (b : Ref sig .tc) → Buf (Elt F) ((c : Thread nD τ).loc b)) : sProp 𝕄 :=
  iprop((((c : Thread nD τ).loc main_arg0) ↦{fullShare} V main_arg0) ∗ (((c : Thread nD τ).loc main_arg2) ↦{fullShare} V main_arg2)
    ∗ (((c : Thread nD τ).loc main_arg3) ↦{fullShare} V main_arg3))

/-- ENTRY: the core's unscoped buffers at the second region's exit contents are the third region's arrays at their
    entry contents — the graph's buffer split between its two windows — and the bypassing buffers. -/
theorem enter2' (c : Dev nD) :
    (StableHlo.held (c : Thread nD τ) (Pipeline.ucRefs τ sig) (W3 m c) : sProp 𝕄)
      ⊢ iprop((dat2 (V3 m) c).arrays ((dat2 (V3 m) c).arrAt · 0) ∗ bypass2 c (V3 m c)) := by
  rw [← Pipeline.unscopedBufs_held (Ix := Unit) (Name := ℕ) (U := UR sig nD τ) (Lvl := ℕ) c (W3 m c), unscopedBufs_list, arrays2_list]
  unfold bypass2
  iintro ⟨H0, H1, H2, H3, H4, H5, H6, H7⟩
  ihave Hs := (pointsTo_share (PosShare.mem_left_op_right fullShare)).1 $$ H1
  icases Hs with ⟨Hl, Hr⟩
  isplitl [Hl Hr H6 H5 H4 H7]
  · isplitl [Hl]; · iexact Hl
    isplitl [Hr]; · iexact Hr
    isplitl [H6]; · iexact H6
    isplitl [H5]; · iexact H5
    isplitl [H4]; · iexact H4
    iexact H7
  isplitl [H0]; · iexact H0
  isplitl [H2]; · iexact H2
  iexact H3

/-- EXIT: the arrays at what the region leaves — the inputs as entered, the graph's two halves joined again, the
    result at its write-backs — and the bypassing buffers are the core's unscoped buffers at the last valuation. -/
theorem exit2' (c : Dev nD) :
    iprop((dat2 (V3 m) c).arrays ((dat2 (V3 m) c).arrAt · cfg2.N) ∗ bypass2 c (V3 m c))
      ⊢ (StableHlo.held (c : Thread nD τ) (Pipeline.ucRefs τ sig) (W4 m c) : sProp 𝕄) := by
  rw [← Pipeline.unscopedBufs_held (Ix := Unit) (Name := ℕ) (U := UR sig nD τ) (Lvl := ℕ) c (W4 m c), unscopedBufs_list, arrays2_list]
  unfold bypass2
  rw [(dat2 (V3 m) c).arrAt_in 0 rfl cfg2.N, (dat2 (V3 m) c).arrAt_in 1 rfl cfg2.N, (dat2 (V3 m) c).arrAt_in 2 rfl cfg2.N,
    (dat2 (V3 m) c).arrAt_in 3 rfl cfg2.N, (dat2 (V3 m) c).arrAt_in 4 rfl cfg2.N]
  rw [W4_of_ne m c main_arg0 (by decide), W4_of_ne m c main_arg1 (by decide), W4_of_ne m c main_arg2 (by decide),
    W4_of_ne m c main_arg3 (by decide), W4_of_ne m c main_v0 (by decide), W4_of_ne m c main_call0_v0 (by decide),
    W4_of_ne m c main_call0_v1 (by decide), W4_result m c]
  iintro ⟨⟨Hl, Hr, H6, H5, H4, H7⟩, H0, H2, H3⟩
  ihave H1 := (pointsTo_share (PosShare.mem_left_op_right fullShare)).2 $$ [Hl Hr]
  · isplitl [Hl]; · iexact Hl
    iexact Hr
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem enter2 (c : Dev nD) :
    (StableHlo.held (c : Thread nD τ) (Pipeline.ucRefs τ sig) (W3 m c) : sProp 𝕄)
      ⊢ iprop((pdats m 2 c).arrays ((pdats m 2 c).arrAt · 0) ∗ bypass2 c (V3 m c)) := enter2' m c
theorem exit2 (c : Dev nD) :
    iprop((pdats m 2 c).arrays ((pdats m 2 c).arrAt · cfg2.N) ∗ bypass2 c (V3 m c))
      ⊢ (StableHlo.held (c : Thread nD τ) (Pipeline.ucRefs τ sig) (W4 m c) : sProp 𝕄) := exit2' m c

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := bypass2 c (V3 m c)
  hentry c := by
    rw [Pipeline.ownSems0_none]
    have hsplit := enter2 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 m c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .region (reg2 m) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state holds every unscoped buffer of every core at the last valuation. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## The arguments and the result, read off the last valuation -/

/-- The reshape writes the bias row's buffer only. -/
theorem hostOps0_writes' : (hostOps0 : List (HloOp τ sig (Elt F))).Forall fun op =>
    op.writes ⊆ (([main_v0] : List (Ref sig .tc)).map (Proc.devRef (τ := τ) .tc)).toFinset := by
  simp only [List.Forall]
  exact (by simp only [StableHlo.reshape_writes, Finset.singleton_subset_iff, List.mem_toFinset]; exact List.mem_map_of_mem (by decide))
theorem W1_of_ne (c : Dev nD) (b : Ref sig .tc) (hb : b ∉ ([main_v0] : List (Ref sig .tc))) :
    W1 m c (Proc.devRef .tc b) = m ((c : Thread nD τ).loc b) :=
  StableHlo.after_of_writes_sub hostOps0 _ hostOps0_writes' hb

end Cert.KernelIdeal.Hand

end
-- ==== Proof.KerEnds.lean ====
/-
  The kernel program's run, read at the arguments and at the result: no item writes an argument (a region reads
  it through an input window, whose array is never written back, or bypasses it; the one host operation writes the
  reshaped bias only), so each argument's buffer at the last valuation is the launch memory; the result's buffer is
  what the last region's write-backs leave.
-/
import proofs.«168457_g2000706009674355_pallasbulk_102_19_alg».proof.Proof.KerRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := (W3_arr m c 0).trans (((dat1 (V2 m) c).arrAt_in 0 rfl _).trans (A_eq1 (V2 m) c 0))
    _ = W1 m c (Proc.devRef .tc main_arg0) := W2_of_ne m c main_arg0 (by decide)
    _ = m ((c : Thread nD τ).loc main_arg0) := W1_of_ne m c main_arg0 (by decide)

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := (W2_arr m c 0).trans (((dat0 (V1 m) c).arrAt_in 0 rfl _).trans (A_eq0 (V1 m) c 0))
    _ = m ((c : Thread nD τ).loc main_arg1) := W1_of_ne m c main_arg1 (by decide)

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := (W3_arr m c 1).trans (((dat1 (V2 m) c).arrAt_in 1 rfl _).trans (A_eq1 (V2 m) c 1))
    _ = W1 m c (Proc.devRef .tc main_arg2) := W2_of_ne m c main_arg2 (by decide)
    _ = m ((c : Thread nD τ).loc main_arg2) := W1_of_ne m c main_arg2 (by decide)

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of_ne m c main_arg3 (by decide)

/-- THE RUN, read: every weakly fair execution terminates, nothing faulting; the result's buffer ends at what the
    last region's write-backs leave in it, and every argument as launched. -/
theorem run_read (ρ : Dev nD → PrngReg) : θ_run defs (onTc (τ := τ) (main (F := F))) ⟨m, fun _ => 0, ρ⟩ (fun r => ∀ c : Dev nD,
      r.2.mem ((c.tc : Thread nD τ).loc main_v1) = (dat2 (V3 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v1 (by decide))).trans (W4_result m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

/-- The frame: every argument ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_read m ρ)

end Cert.KernelIdeal.Hand

end
-- ==== Proof.KerDinvPieces.lean ====
/-
  The first region's cases, read: what each case leaves in the scratch row of column sums and in the output
  column, as the body's pure terms of the block read and of the scratch row found. A middle or last row slab
  leaves (found row) + (this slab's column sums); the first leaves (zero row) + (this slab's column sums); the
  last also stores the column computed from the row it leaves.
-/
import proofs.«168457_g2000706009674355_pallasbulk_102_19_alg».proof.Proof.KerDinv
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem accMid_eq (c : Dev nD) (i : grid0.Coords) (arg2 : Memref sig .tc .vmem S256x4096 .f32) (harg2 : arg2.IsWhole)
    (arg3 : Memref sig .tc .vmem S4096x1 .f32) (harg3 : arg3.IsWhole) (arg4 : Memref sig .tc .vmem S1x4096 .f32) (harg4 : arg4.IsWhole)
    (hc0 : ¬isFirstRow i) (hc1 : ¬isLastRow i) (x0 : Vec F S256x4096 .f32) (xs0 : Vec F S1x4096 .f32) :
    accMid c i arg2 harg2 arg3 harg3 arg4 harg4 hc0 hc1 x0 xs0 = k0_pay2 xs0 x0 := by
  unfold accMid
  rw [View.read_writes_eq_canon _ _ _ (accMid_cover c i arg2 harg2 arg3 harg3 arg4 harg4 hc0 hc1 x0 xs0)]
  unfold runMid
  dsimp only
  sl_unfold_run_names
  rw [View.canon_unit_zero hz2]
  simp only [View.readAt_eq_ld, harg4.read_unread, harg2.read_unread, View.ld_unit_zero (S := S1x4096) hz2, View.ld_unit_zero (S := S256x4096) hz2]

theorem accLast_eq (c : Dev nD) (i : grid0.Coords) (arg2 : Memref sig .tc .vmem S256x4096 .f32) (harg2 : arg2.IsWhole)
    (arg3 : Memref sig .tc .vmem S4096x1 .f32) (harg3 : arg3.IsWhole) (arg4 : Memref sig .tc .vmem S1x4096 .f32) (harg4 : arg4.IsWhole)
    (hc0 : ¬isFirstRow i) (hc1 : isLastRow i) (x0 : Vec F S256x4096 .f32) (xs0 : Vec F S1x4096 .f32) :
    accLast c i arg2 harg2 arg3 harg3 arg4 harg4 hc0 hc1 x0 xs0 = k0_pay2 xs0 x0 := by
  unfold accLast
  rw [View.read_writes_eq_canon _ _ _ (accLast_cover c i arg2 harg2 arg3 harg3 arg4 harg4 hc0 hc1 x0 xs0)]
  unfold runLast
  dsimp only
  sl_unfold_run_names
  rw [View.canon_unit_zero hz2]
  simp only [View.readAt_eq_ld, harg4.read_unread, harg2.read_unread, View.ld_unit_zero (S := S1x4096) hz2, View.ld_unit_zero (S := S256x4096) hz2]

theorem colLast_eq (c : Dev nD) (i : grid0.Coords) (arg2 : Memref sig .tc .vmem S256x4096 .f32) (harg2 : arg2.IsWhole)
    (arg3 : Memref sig .tc .vmem S4096x1 .f32) (harg3 : arg3.IsWhole) (arg4 : Memref sig .tc .vmem S1x4096 .f32) (harg4 : arg4.IsWhole)
    (hc0 : ¬isFirstRow i) (hc1 : isLastRow i) (x0 : Vec F S256x4096 .f32) (xs0 : Vec F S1x4096 .f32) :
    colLast c i arg2 harg2 arg3 harg3 arg4 harg4 hc0 hc1 x0 xs0 = k0_pay3 (k0_pay2 xs0 x0) := by
  unfold colLast
  rw [View.read_writes_eq_canon _ _ _ (colLast_cover c i arg2 harg2 arg3 harg3 arg4 harg4 hc0 hc1 x0 xs0)]
  unfold runLast
  dsimp only
  sl_unfold_run_names
  rw [View.canon_unit_zero hz2, View.readCov_unit_zero _ hz2]
  simp only [View.readAt_eq_ld, harg4.read_unread, harg2.read_unread, View.ld_unit_zero (S := S1x4096) hz2, View.ld_unit_zero (S := S256x4096) hz2]

theorem accFirst_eq (c : Dev nD) (i : grid0.Coords) (arg2 : Memref sig .tc .vmem S256x4096 .f32) (harg2 : arg2.IsWhole)
    (arg3 : Memref sig .tc .vmem S4096x1 .f32) (harg3 : arg3.IsWhole) (arg4 : Memref sig .tc .vmem S1x4096 .f32) (harg4 : arg4.IsWhole)
    (hc0 : isFirstRow i) (hc1 : ¬isLastRow i) (x0 : Vec F S256x4096 .f32) :
    accFirst c i arg2 harg2 arg3 harg3 arg4 harg4 hc0 hc1 x0 = k0_pay2 (k0_pay1 (F := F)) x0 := by
  unfold accFirst
  rw [View.read_writes_eq_canon _ _ _ (accFirst_cover c i arg2 harg2 arg3 harg3 arg4 harg4 hc0 hc1 x0)]
  unfold runFirst
  dsimp only
  sl_unfold_run_names
  rw [View.canon_cons_unit_zero hz2, View.readCov_unit_zero _ hz2]
  simp only [View.readAt_eq_ld, harg4.read_unread, harg2.read_unread, View.ld_unit_zero (S := S1x4096) hz2, View.ld_unit_zero (S := S256x4096) hz2]

end Cert.KernelIdeal.Hand

end
-- ==== Proof.Spec.lean ====
/-
  The function both programs compute, over the extended reals, index by index. With g the 8192 x 8192 graph,
  x the 8192 x 256 features, w the 256 x 256 weights and b the 256 biases:
    deg i      = the sum over j of g[j, i]                     (column sums)
    dinv i     = 1 / sqrt (deg i) where deg i > 0, else 0
    hs[j, f]   = dinv j * the sum over k of x[j, k] * w[k, f]
    y[i, f]    = dinv i * (the sum over j of g[j, i] * hs[j, f]) + b[f]
  Both programs add the same terms in different groupings; addition of extended reals is commutative and
  associative, so the groupings do not matter and no finiteness is needed.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-- The column sum of the graph at column `i`. -/
def deg (g : (⟨2, ![8192, 8192]⟩ : Shape).Idx → EReal) (i : Fin 8192) : EReal := ∑ j : Fin 8192, g (ix2 j i)

/-- The inverse square root of a positive degree, zero otherwise. -/
def dinvOf (d : EReal) : EReal := Scalar.select (Ideal.cmp .ogt d 0) (Ideal.rsqrt d) 0

/-- The scaled features. -/
def hs (g : (⟨2, ![8192, 8192]⟩ : Shape).Idx → EReal) (x : (⟨2, ![8192, 256]⟩ : Shape).Idx → EReal)
    (w : (⟨2, ![256, 256]⟩ : Shape).Idx → EReal) (j : Fin 8192) (f : Fin 256) : EReal :=
  dinvOf (deg g j) * ∑ k : Fin 256, x (ix2 j k) * w (ix2 k f)

/-- The layer's output. -/
def y (g : (⟨2, ![8192, 8192]⟩ : Shape).Idx → EReal) (x : (⟨2, ![8192, 256]⟩ : Shape).Idx → EReal)
    (w : (⟨2, ![256, 256]⟩ : Shape).Idx → EReal) (b : (⟨1, ![256]⟩ : Shape).Idx → EReal) :
    (⟨2, ![8192, 256]⟩ : Shape).Idx → EReal :=
  fun i => dinvOf (deg g (i 0)) * (∑ j : Fin 8192, g (ix2 j (i 0)) * hs g x w j (i 1)) + b (ix1 (i 1))

/-- A sum over `a * b` consecutive indices is the sum over `a` groups of the sums over the `b` indices of each group. -/
theorem sum_groups {M : Type*} [AddCommMonoid M] (a b : Nat) (f : Fin (a * b) → M) :
    ∑ j : Fin (a * b), f j = ∑ r : Fin a, ∑ k : Fin b, f (finProdFinEquiv (r, k)) := by
  rw [← Fintype.sum_prod_type', ← finProdFinEquiv.sum_comp]

end Cert.GcnSpec

end
-- ==== Proof.LibLayoutReads.lean ====
/-
  Layout operations of a host program read at an index written by its coordinates: a broadcast of a scalar, of a
  vector to a column or a row, of a column or a row to a matrix; a vector cast to a one-row matrix; a plain matrix
  product read at (i, j) as the sum over the contracted coordinate; and two scalar facts: the guarded reciprocal
  square root select(x > 0, rsqrt x, 0) is a nonnegative real, and the wrap of a negative index leaves a
  nonnegative 32-bit word alone.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.LayoutReads

open Idealize.ShloMosaic Idealize.ShloMosaic.ValueIdx

variable {α : Type}

/-! ## Broadcasts at an index -/

/-- A broadcast scalar reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector [a] broadcast to a column [a, 1] reads, at (i, u), the vector at i. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) :=
  broadcastInDim_apply _ h x _ (ix1 i) (fun c => by
    have hi := i.isLt
    match c with
    | ⟨0, _⟩ =>
      show i.val = if a = 1 then 0 else i.val
      split <;> omega)

/-- A vector [b] broadcast to a row [1, b] reads, at (u, j), the vector at j. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) :=
  broadcastInDim_apply _ h x _ (ix1 j) (fun c => by
    have hj := j.isLt
    match c with
    | ⟨0, _⟩ =>
      show j.val = if b = 1 then 0 else j.val
      split <;> omega)

/-- A column [a, 1] broadcast to a matrix [a, b] reads, at (i, j), the column at (i, 0). -/
theorem bcast_col_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) :=
  broadcastInDim_apply _ h x _ (ix2 i (0 : Fin 1)) (fun c => by
    have hi := i.isLt
    match c with
    | ⟨0, _⟩ =>
      show i.val = if a = 1 then 0 else i.val
      split <;> omega
    | ⟨1, _⟩ =>
      show 0 = if 1 = 1 then 0 else j.val
      rfl)

/-- A row [1, b] broadcast to a matrix [a, b] reads, at (i, j), the row at (0, j). -/
theorem bcast_row_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) :=
  broadcastInDim_apply _ h x _ (ix2 (0 : Fin 1) j) (fun c => by
    have hj := j.isLt
    match c with
    | ⟨0, _⟩ =>
      show 0 = if 1 = 1 then 0 else i.val
      rfl
    | ⟨1, _⟩ =>
      show j.val = if b = 1 then 0 else j.val
      split <;> omega)

/-- A vector [b] cast to a one-row matrix [1, b] reads, at (u, j), the vector at j. -/
theorem shapeCast_vec_row_apply {b : ℕ} (h : (⟨1, ![b]⟩ : Shape).ShapeCasts ⟨2, ![1, b]⟩)
    (x : (⟨1, ![b]⟩ : Shape).Idx → α) (u : Fin 1) (j : Fin b) : shapeCast ⟨2, ![1, b]⟩ x h (ix2 u j) = x (ix1 j) :=
  shapeCast_a_1a_apply x h u j

/-! ## Two scalar facts -/

/-- The guarded reciprocal square root, select(x > 0, rsqrt x, 0), is a nonnegative real at every extended real x:
    0 off the positive half-line, 0 at the top, and the inverse of the square root at a positive real. -/
theorem dinv_nonneg_real (x : EReal) :
    ∃ r : ℝ, 0 ≤ r ∧ Scalar.select (Ideal.cmp .ogt x 0) (Ideal.rsqrt x) 0 = (r : EReal) := by
  by_cases hx : 0 < x
  · have hc : Ideal.cmp .ogt x 0 = 1#1 := by simp [Ideal.cmp, hx]
    rw [hc, select_one]
    induction x using EReal.rec with
    | bot => exact absurd hx (by simp)
    | top => exact ⟨0, le_rfl, by simp⟩
    | coe r =>
      have hr : 0 < r := by exact_mod_cast hx
      refine ⟨(Real.sqrt r)⁻¹, inv_nonneg.mpr (Real.sqrt_nonneg r), ?_⟩
      rw [Ideal.rsqrt_coe, if_neg (not_lt.mpr hr.le), if_neg hr.ne']
  · have hc : Ideal.cmp .ogt x 0 = 0#1 := by simp [Ideal.cmp, hx]
    rw [hc, select_zero]
    exact ⟨0, le_rfl, by simp⟩

/-- A 32-bit word that reads, signed, as nonnegative is left alone by the wrap of negative indices. -/
theorem wrap_of_nonneg (v : BitVec 32) (h0 : 0 ≤ v.toInt) :
    Scalar.select (IntOp.cmpi .slt v 0#32) (IntOp.addi v 100000#32) v = v := by
  have hs : v.slt 0#32 = false := by
    unfold BitVec.slt
    simp
    exact h0
  have hc : IntOp.cmpi .slt v 0#32 = 0#1 := by
    show BitVec.ofBool (v.slt 0#32) = 0#1
    rw [hs]; rfl
  rw [hc, select_zero]

/-! ## A plain matrix product at an index -/

/-- With no batch axis and one non-contracting axis on the left, that axis reads the result index's first coordinate. -/
theorem lhsIdx_val_of_single_non {sl sr so : Shape} (d : DotDims sl sr so) {a : Fin sl.rank}
    (hb : d.lhsBatch = []) (hn : d.lhsNonContracting = [a]) (j : so.Idx) (k : d.contr.Idx) (h0 : 0 < so.rank) :
    (d.lhsIdx j k a).val = (j ⟨0, h0⟩).val := by
  have hmem : a ∈ d.lhsNonContracting := by rw [hn]; exact List.mem_singleton.mpr rfl
  unfold DotDims.lhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one non-contracting axis on the left and one on the right, the right one reads the result
    index's second coordinate. -/
theorem rhsIdx_val_of_single_non {sl sr so : Shape} (d : DotDims sl sr so) {al : Fin sl.rank} {a : Fin sr.rank}
    (hlb : d.lhsBatch = []) (hrb : d.rhsBatch = []) (hln : d.lhsNonContracting = [al]) (hn : d.rhsNonContracting = [a])
    (j : so.Idx) (k : d.contr.Idx) (h1 : 1 < so.rank) :
    (d.rhsIdx j k a).val = (j ⟨1, h1⟩).val := by
  have hmem : a ∈ d.rhsNonContracting := by rw [hn]; exact List.mem_singleton.mpr rfl
  unfold DotDims.rhsIdx
  rw [dif_neg (by rw [hrb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

/-- A plain matrix product [n, kk] x [kk, p] on the host, at the exact values, read at (i, j): the sum over the
    contracted coordinate k of lhs (i, k) * rhs (k, j). -/
theorem dotGeneral_plain_apply {n kk p : ℕ} {φ₁ φ₂ : FTy} (d : DotDims ⟨2, ![n, kk]⟩ ⟨2, ![kk, p]⟩ ⟨2, ![n, p]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![n, kk]⟩ φ₁) (rhs : FVec Ideal ⟨2, ![kk, p]⟩ φ₂)
    (i : Fin n) (j : Fin p) :
    Host.dotGeneral (F := Ideal) d prec lhs rhs (ix2 i j) = ∑ k : Fin kk, lhs (ix2 i k) * rhs (ix2 k j) := by
  have hr : d.contr.rank = 1 := by rw [d.rank_contr, hlc]; rfl
  have hs : d.contr.size ⟨0, by omega⟩ = kk := by
    have h1 : (0 : Nat) < d.lhsContracting.length := by rw [hlc]; exact Nat.one_pos
    refine (d.size_contr 0 h1).trans ?_
    have h2 : d.lhsContracting[0] = (1 : Fin 2) := by simp [hlc]
    rw [h2]; rfl
  simp only [Host.dotGeneral]
  rw [Ideal.dotGeneral_apply]
  refine Fintype.sum_equiv (contrEquiv1 d kk hr hs) _ _ (fun k => ?_)
  have hL : d.lhsIdx (ix2 i j) k = ix2 i (contrEquiv1 d kk hr hs k) := by
    funext c; refine Fin.ext ?_
    match c with
    | ⟨0, _⟩ => exact lhsIdx_val_of_single_non d hlb hln (ix2 i j) k (show 0 < 2 by omega)
    | ⟨1, _⟩ => exact d.lhsIdx_val_of_single hlc (ix2 i j) k
  have hR : d.rhsIdx (ix2 i j) k = ix2 (contrEquiv1 d kk hr hs k) j := by
    funext c; refine Fin.ext ?_
    match c with
    | ⟨0, _⟩ => exact d.rhsIdx_val_of_single hrc (ix2 i j) k
    | ⟨1, _⟩ => exact rhsIdx_val_of_single_non d hlb hrb hln hrn (ix2 i j) k (show 1 < 2 by omega)
  rw [hL, hR]

end Idealize.ShloMosaic.LayoutReads

end
-- ==== Proof.KerVal0.lean ====
/-
  The first region, read: the column dinv it leaves. After the body at grid point t (column slab q = t / 32, row
  slab r = t % 32) the scratch row holds, at column c of the slab, the sum of the column sums of the row slabs
  0 .. r of the graph's column 4096 q + c, added in that order starting from zero. At a last row slab (r = 31) the
  body stores, at row c of the output block, dinvOf of that sum. The two column slabs' blocks tile the 8192 rows of
  the output.
-/
import proofs.«168457_g2000706009674355_pallasbulk_102_19_alg».proof.Proof.KerDinvPieces
import proofs.«168457_g2000706009674355_pallasbulk_102_19_alg».proof.Proof.Spec
import proofs.«168457_g2000706009674355_pallasbulk_102_19_alg».proof.Proof.LibLayoutReads
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Idealize.ShloMosaic.LayoutReads Cert.GcnSpec

/-! ## The three stored values at an index -/

/-- The reset row is zero. -/
theorem zeroRow_apply (y : S1x4096.Idx) : (k0_pay1 (F := Ideal)) y = 0 := by
  unfold k0_pay1
  rw [shapeCast_self]
  show Ideal.ofBits .f32 0x00000000#32 = 0
  exact Ideal.ofBits_zero_f32

/-- The column sums of a 256 x 4096 block. -/
def colSums (v4 : Vec Ideal S256x4096 .f32) (col : Fin 4096) : EReal := ∑ k : Fin 256, v4 (ix2 k col)

/-- The increased row: the row found plus the block's column sums. -/
theorem addSums_apply (v3 : Vec Ideal S1x4096 .f32) (v4 : Vec Ideal S256x4096 .f32) (u : Fin 1) (col : Fin 4096) :
    k0_pay2 v3 v4 (ix2 u col) = v3 (ix2 u col) + colSums v4 col := by
  unfold k0_pay2 colSums
  rw [shapeCast_self, addf_apply, shapeCast_vec_row_apply]
  refine congrArg (v3 (ix2 u col) + ·) ?_
  refine (Ideal.multiReduction_add_single v4 0x00000000#32 reduces_S256x4096_S4096 _ _ (ix1 col)).trans ?_
  refine Finset.sum_congr rfl fun k _ => congrArg v4 ?_
  funext a; apply Fin.ext
  match a with
  | ⟨0, _⟩ => rfl
  | ⟨1, _⟩ => rfl

/-- The stored column: at row `row`, dinvOf of the row's entry at that column. -/
theorem col_apply (v14 : Vec Ideal S1x4096 .f32) (row : Fin 4096) (u : Fin 1) :
    k0_pay3 v14 (ix2 row u) = dinvOf (v14 (ix2 (0 : Fin 1) row)) := by
  unfold k0_pay3
  rw [shapeCast_apply _ _ _ (ix2 (0 : Fin 1) row) (by
    have hu : u.val = 0 := by omega
    rw [Shape.rowMajor_val_two, Shape.rowMajor_val_two]
    show 0 * 4096 + row.val = row.val * 1 + u.val
    omega)]
  show Scalar.select (Ideal.cmp .ogt (v14 (ix2 (0 : Fin 1) row)) (Ideal.ofBits .f32 0x00000000#32)) (Ideal.rsqrt (v14 (ix2 (0 : Fin 1) row))) (Ideal.ofBits .f32 0x00000000#32) = _
  rw [Ideal.ofBits_zero_f32]
  rfl

/-! ## The partial sums -/

/-- The column sums of row slab r of the graph, at column 4096 q + col. -/
def rowSumN (G : S8192x8192.Idx → EReal) (q : ℕ) (col : Fin 4096) (r : ℕ) : EReal :=
  ∑ k : Fin 256, G (ix2 (⟨(256 * r + k.val) % 8192, Nat.mod_lt _ (by decide)⟩ : Fin 8192) (⟨(4096 * q + col.val) % 8192, Nat.mod_lt _ (by decide)⟩ : Fin 8192))

/-- The scratch row's entry after row slabs 0 .. n, as the body adds them. -/
def partN (G : S8192x8192.Idx → EReal) (q : ℕ) (col : Fin 4096) : ℕ → EReal
  | 0 => 0 + rowSumN G q col 0
  | n + 1 => partN G q col n + rowSumN G q col (n + 1)

variable (V : (c : Dev nD) → (b : Ref sig .tc) → Buf (Elt Ideal) ((c : Thread nD τ).loc b))

/-- The printed index maps over the 64 points: the graph's block is (row slab, column slab), the column's block the
    column slab. -/
theorem idx_facts0 : ∀ t : Fin cfg0.N, win0_0.index t (0 : Fin 2) = t.val % 32 ∧ win0_0.index t (1 : Fin 2) = t.val / 32
    ∧ win0_1.index t (0 : Fin 2) = t.val / 32 ∧ win0_1.index t (1 : Fin 2) = 0 :=
  (by decide +kernel : ∀ t : Fin grid0.N, _)

theorem t_lt0 (t : Fin cfg0.N) : t.val < 64 := lt_of_lt_of_eq t.isLt (show cfg0.N = 64 from N_0)

/-- The graph's block at (k, col) is the graph at row 256 r + k, column 4096 q + col. -/
theorem blk0_0 (c : Dev nD) (t : Fin cfg0.N) (k : Fin 256) (col : Fin 4096) :
    iblk0 V c 0 t (ix2 k col) = (V c main_arg1 : S8192x8192.Idx → EReal)
      (ix2 (⟨(256 * (t.val % 32) + k.val) % 8192, Nat.mod_lt _ (by decide)⟩ : Fin 8192) (⟨(4096 * (t.val / 32) + col.val) % 8192, Nat.mod_lt _ (by decide)⟩ : Fin 8192)) := by
  obtain ⟨e0, e1, -⟩ := idx_facts0 t
  have ht := t_lt0 t
  show (V c main_arg1 : S8192x8192.Idx → EReal) (((cfg0.win 0).blk t).view.emb (ix2 k col)) = _
  refine congrArg _ (funext fun a => Fin.ext ?_)
  match a with
  | ⟨0, _⟩ => show win0_0.index t (0 : Fin 2) * 256 + 1 * k.val = (256 * (t.val % 32) + k.val) % 8192; omega
  | ⟨1, _⟩ => show win0_0.index t (1 : Fin 2) * 4096 + 1 * col.val = (4096 * (t.val / 32) + col.val) % 8192; omega

/-- This point's block's column sums are the row slab's. -/
theorem blockSums (c : Dev nD) (t : Fin cfg0.N) (col : Fin 4096) :
    colSums (iblk0 V c 0 t) col = rowSumN (V c main_arg1) (t.val / 32) col (t.val % 32) := by
  unfold rowSumN colSums
  exact Finset.sum_congr rfl fun k _ => blk0_0 V c t k col

/-- THE SCRATCH ROW after the body at position n. -/
theorem accAt_eq (c : Dev nD) : ∀ (n : ℕ) (hn : n < cfg0.N) (u : Fin 1) (col : Fin 4096),
    accAt V c n hn (ix2 u col) = partN (V c main_arg1) (n / 32) col (n % 32) := by
  intro n
  induction n with
  | zero =>
    intro hn u col
    have e := accAt_first V c ⟨0, hn⟩ (Nat.zero_mod _) (by decide : ¬ (0 : ℕ) % 32 = 31)
    rw [e, accFirst_eq, addSums_apply, zeroRow_apply, blockSums]
    rfl
  | succ n ih =>
    intro hn u col
    have hN : n + 1 < 64 := lt_of_lt_of_eq hn (show cfg0.N = 64 from N_0)
    by_cases h0 : (n + 1) % 32 = 0
    · have h1 : ¬(n + 1) % 32 = 31 := by omega
      have e := accAt_first V c ⟨n + 1, hn⟩ h0 h1
      rw [e, accFirst_eq, addSums_apply, zeroRow_apply, blockSums]
      show 0 + rowSumN (V c main_arg1) ((n + 1) / 32) col ((n + 1) % 32) = partN (V c main_arg1) ((n + 1) / 32) col ((n + 1) % 32)
      rw [h0]; rfl
    · obtain ⟨r, hr⟩ : ∃ r, (n + 1) % 32 = r + 1 := ⟨(n + 1) % 32 - 1, by omega⟩
      have hq : n / 32 = (n + 1) / 32 := by omega
      have hr' : n % 32 = r := by omega
      have step : accAt V c (n + 1) hn (ix2 u col)
          = accAt V c n (Nat.lt_of_succ_lt hn) (ix2 u col) + rowSumN (V c main_arg1) ((n + 1) / 32) col ((n + 1) % 32) := by
        by_cases h1 : (n + 1) % 32 = 31
        · have e := accAt_last V c ⟨n + 1, hn⟩ h0 h1
          rw [e, accLast_eq, addSums_apply, blockSums]; rfl
        · have e := accAt_mid V c ⟨n + 1, hn⟩ h0 h1
          rw [e, accMid_eq, addSums_apply, blockSums]; rfl
      rw [step, ih (Nat.lt_of_succ_lt hn) u col, hq, hr', hr]
      rfl

/-- THE STORED COLUMN at a last row slab. -/
theorem colAt_eq (c : Dev nD) (t : Fin cfg0.N) (h1 : t.val % 32 = 31) (row : Fin 4096) (u : Fin 1) :
    colAt V c t (ix2 row u) = dinvOf (partN (V c main_arg1) (t.val / 32) row 31) := by
  have h0 : ¬t.val % 32 = 0 := by omega
  have ht := t_lt0 t
  rw [colAt_last V c t h0 h1, colLast_eq, col_apply, addSums_apply, blockSums,
    accAt_eq V c (t.val - 1) (Nat.lt_of_le_of_lt (Nat.sub_le _ _) t.isLt) 0 row]
  have hq : (t.val - 1) / 32 = t.val / 32 := by omega
  have hr : (t.val - 1) % 32 = 30 := by omega
  rw [hq, hr, h1]
  rfl

/-- The column the region leaves, as one function of the graph it finds. -/
def dinvOfGraph (G : S8192x8192.Idx → EReal) : S8192x1.Idx → EReal := fun i =>
  dinvOf (partN G ((i 0).val / 4096) (⟨(i 0).val % 4096, Nat.mod_lt _ (by decide)⟩ : Fin 4096) 31)

/-- WHAT A LAST ROW SLAB WRITES BACK is its block of `dinvOfGraph`. -/
theorem flushed0_eq (c : Dev nD) (t : Fin cfg0.N) (hf : (cfg0.win 1).flush t = true) :
    (dat0 V c).flushed 1 t = ((cfg0.win 1).blk t).view.read (Elt Ideal) (dinvOfGraph (V c main_arg1)) := by
  have h1 : t.val % 32 = 31 := (flush0_1 t).mp hf
  have ht := t_lt0 t
  obtain ⟨-, -, e2, e3⟩ := idx_facts0 t
  show (cfg0.win 1).cut (grid0.coords t) ((dat0 V c).after 1 t) = _
  rw [after0_1]
  funext j
  obtain ⟨row, u, rfl⟩ : ∃ (row : Fin 4096) (u : Fin 1), j = ix2 row u := ⟨j 0, j 1, eq_ix2 j⟩
  refine (colAt_eq V c t h1 row u).trans ?_
  show _ = dinvOfGraph (V c main_arg1) (((cfg0.win 1).blk t).view.emb (ix2 row u))
  have hemb : ((cfg0.win 1).blk t).view.emb (ix2 row u) = (ix2 (⟨4096 * (t.val / 32) + row.val, by omega⟩ : Fin 8192) (0 : Fin 1) : S8192x1.Idx) := by
    funext a; apply Fin.ext
    have hu : u.val = 0 := by omega
    match a with
    | ⟨0, _⟩ => show win0_1.index t (0 : Fin 2) * 4096 + 1 * row.val = 4096 * (t.val / 32) + row.val; omega
    | ⟨1, _⟩ => show win0_1.index t (1 : Fin 2) * 1 + 1 * u.val = 0; omega
  rw [hemb]
  unfold dinvOfGraph
  have hq : (4096 * (t.val / 32) + row.val) / 4096 = t.val / 32 := by omega
  have hc : (⟨(4096 * (t.val / 32) + row.val) % 4096, Nat.mod_lt _ (by decide)⟩ : Fin 4096) = row := Fin.ext (by show (4096 * (t.val / 32) + row.val) % 4096 = row.val; omega)
  show _ = dinvOf (partN (V c main_arg1) ((4096 * (t.val / 32) + row.val) / 4096) (⟨(4096 * (t.val / 32) + row.val) % 4096, Nat.mod_lt _ (by decide)⟩ : Fin 4096) 31)
  rw [hq, hc]

theorem mem_blk0 (t : Fin cfg0.N) (i : S8192x1.Idx) :
    i ∈ ((cfg0.win 1).blk t).view.set ↔ ∀ a : Fin 2, win0_1.index t a * S4096x1.size a ≤ (i a).val ∧ (i a).val < win0_1.index t a * S4096x1.size a + S4096x1.size a := by
  show i ∈ ((View.whole main_call0_v0).slice (win0_1.rect t)).set ↔ _
  rw [View.set_slice_whole, Rect.mem_set_unit]
  exact Iff.rfl

/-- Every row of the column is in the block of its column slab's last point. -/
theorem cover0 (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  let t : Fin cfg0.N := ⟨32 * ((i 0).val / 4096) + 31, by rw [show cfg0.N = 64 from N_0]; omega⟩
  have ht : t.val = 32 * ((i 0).val / 4096) + 31 := rfl
  obtain ⟨-, -, e2, e3⟩ := idx_facts0 t
  refine ⟨t, (flush0_1 t).mpr (by omega), ?_⟩
  rw [mem_blk0]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 1 ≤ (i 1).val ∧ (i 1).val < win0_1.index t (1 : Fin 2) * 1 + 1; omega

/-- THE ARRAY after the region. -/
theorem final0 (c : Dev nD) : (dat0 V c).arrAt 1 cfg0.N = dinvOfGraph (V c main_arg1) :=
  (dat0 V c).arrAt_eq_of_cover 1 (dinvOfGraph (V c main_arg1)) (fun t hf => flushed0_eq V c t hf) cover0

end Cert.KernelIdeal.Hand

end
-- ==== Proof.LibKernelReads.lean ====
/-
  A kernel-side operation read at an index written by coordinates: a plain matrix product [n, kk] x [kk, p] into a
  zero accumulator, at the exact values, reads at (i, j) the sum over the contracted coordinate k of
  lhs (i, k) * rhs (k, j).
-/
import proofs.«168457_g2000706009674355_pallasbulk_102_19_alg».proof.Proof.LibLayoutReads

noncomputable section

open scoped BigOperators

namespace Idealize.ShloMosaic.LayoutReads

open Idealize.ShloMosaic Idealize.ShloMosaic.ValueIdx

variable {α : Type}

/-- A plain matrix product [n, kk] x [kk, p] into the zero accumulator, at the exact values, read at (i, j). -/
theorem matmul_plain_zero_apply {n kk p : ℕ} {φ₁ φ₂ : FTy} (d : DotDims ⟨2, ![n, kk]⟩ ⟨2, ![kk, p]⟩ ⟨2, ![n, p]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![n, kk]⟩ φ₁) (rhs : FVec Ideal ⟨2, ![kk, p]⟩ φ₂)
    (i : Fin n) (j : Fin p) :
    FloatOps.matmul d prec lhs rhs (constant (F := Ideal) ⟨2, ![n, p]⟩ .f32 0x00000000#32) (ix2 i j)
      = ∑ k : Fin kk, lhs (ix2 i k) * rhs (ix2 k j) := by
  have hr : d.contr.rank = 1 := by rw [d.rank_contr, hlc]; rfl
  have hs : d.contr.size ⟨0, by omega⟩ = kk := by
    have h1 : (0 : Nat) < d.lhsContracting.length := by rw [hlc]; exact Nat.one_pos
    refine (d.size_contr 0 h1).trans ?_
    have h2 : d.lhsContracting[0] = (1 : Fin 2) := by simp [hlc]
    rw [h2]; rfl
  rw [Ideal.matmul_constant_zero_apply]
  refine Fintype.sum_equiv (contrEquiv1 d kk hr hs) _ _ (fun k => ?_)
  have hL : d.lhsIdx (ix2 i j) k = ix2 i (contrEquiv1 d kk hr hs k) := by
    funext c; refine Fin.ext ?_
    match c with
    | ⟨0, _⟩ => exact lhsIdx_val_of_single_non d hlb hln (ix2 i j) k (show 0 < 2 by omega)
    | ⟨1, _⟩ => exact d.lhsIdx_val_of_single hlc (ix2 i j) k
  have hR : d.rhsIdx (ix2 i j) k = ix2 (contrEquiv1 d kk hr hs k) j := by
    funext c; refine Fin.ext ?_
    match c with
    | ⟨0, _⟩ => exact d.rhsIdx_val_of_single hrc (ix2 i j) k
    | ⟨1, _⟩ => exact rhsIdx_val_of_single_non d hlb hrb hln hrn (ix2 i j) k (show 1 < 2 by omega)
  rw [hL, hR]

end Idealize.ShloMosaic.LayoutReads

end
-- ==== Proof.LibColumn.lean ====
/-
  Two layout operations read at an index written by coordinates, for the COLUMN shape `[a, 1]`: the shape a
  reduction along the last axis of an `[a, b]` matrix passes through when its result is set back beside the matrix
  (a row statistic kept as a column and repeated along the row).
  • a vector `[a]` viewed as the column `[a, 1]` reads, at `(i, u)`, the vector at `i`;
  • a column `[a, 1]` repeated along its unit axis to `[a, b]` reads, at `(i, j)`, the column at `(i, 0)`.
  Both are the general "read at an index" lemmas of a shape cast and of a broadcast with the row-major position,
  respectively the per-axis coordinates, worked out at these two ranks.
-/
import Idealize.ShloMosaic.Lib.Pipeline.Value
import Idealize.ShloMosaic.Lib.ValueIdx

namespace Cert.Column

open Idealize.ShloMosaic Idealize.ShloMosaic.ValueIdx

variable {α : Type}

/-- An `[a]` vector cast to the column `[a, 1]` reads, at `(i, u)`, the vector at `i`, whatever the unit
    coordinate `u`: the row-major position of `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along its unit axis to `[a, b]` reads, at `(i, j)`, the column's entry of row `i`:
    on the first axis the coordinate is kept (or is `0` anyway when `a = 1`), on the unit axis it is `0`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Column
-- ==== Proof.KerVal1.lean ====
/-
  The second region, read: the array hs it leaves. At slab t the three blocks read are rows 2048 t .. 2048 t + 2047
  of x, the whole of W, and the same rows of the column dinv; the block stored is, at (p, q),
  dinv[2048 t + p] * sum_k x[2048 t + p, k] * W[k, q]. The four slabs' blocks tile the 8192 rows, so the whole array
  is hs[j, f] = dinv[j] * sum_k x[j, k] * W[k, f] of the arrays the region finds.
-/
import proofs.«168457_g2000706009674355_pallasbulk_102_19_alg».proof.Proof.KerHs
import proofs.«168457_g2000706009674355_pallasbulk_102_19_alg».proof.Proof.LibKernelReads
import proofs.«168457_g2000706009674355_pallasbulk_102_19_alg».proof.Proof.LibColumn
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Idealize.ShloMosaic.LayoutReads

theorem hz2' : (![0, 0] : Fin 2 → Nat) = fun _ => 0 := funext fun a => by fin_cases a <;> rfl

/-- The stored value at (p, q): the column's entry of row p times the product's entry. -/
theorem hs_pay_apply (x0 : Vec Ideal S2048x256 .f32) (x1 : Vec Ideal S256x256 .f32) (x2 : Vec Ideal S2048x1 .f32)
    (p : Fin 2048) (q : Fin 256) :
    k1_pay1 x0 x1 x2 (ix2 p q) = x2 (ix2 p (0 : Fin 1)) * ∑ k : Fin 256, x0 (ix2 p k) * x1 (ix2 k q) := by
  unfold k1_pay1
  rw [mulf_apply, Cert.Column.broadcastTo_a1_ab_apply, shapeCast_self]
  exact congrArg (x2 (ix2 p (0 : Fin 1)) * ·)
    (matmul_plain_zero_apply dot_S2048x256_S256x256_S2048x256_1_0_0_1_n_n rfl rfl rfl rfl rfl rfl none x0 x1 p q)

/-- hs as a function of the column D, of x and of W. -/
def hsOf (D : S8192x1.Idx → EReal) (X : S8192x256.Idx → EReal) (W : S256x256.Idx → EReal) : S8192x256.Idx → EReal := fun i =>
  D (ix2 (i 0) (0 : Fin 1)) * ∑ k : Fin 256, X (ix2 (i 0) k) * W (ix2 k (i 1))

variable (V : (c : Dev nD) → (b : Ref sig .tc) → Buf (Elt Ideal) ((c : Thread nD τ).loc b))

/-- The array the region leaves in hs's buffer, as one function of the arrays it finds. -/
def hsArr (c : Dev nD) : S8192x256.Idx → EReal := hsOf (V c main_call0_v0) (V c main_arg0) (V c main_arg2)

/-- The printed index maps over the four slabs: x, dinv and hs move with the slab, W stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem t_lt1 (t : Fin cfg1.N) : t.val < 4 := lt_of_lt_of_eq t.isLt (show cfg1.N = 4 from N_1)

/-- The slab of x at (p, k) is x at row 2048 t + p. -/
theorem blk1_0 (c : Dev nD) (t : Fin cfg1.N) (p : Fin 2048) (k : Fin 256) :
    iblk1 V c 0 t (ix2 p k) = (V c main_arg0 : S8192x256.Idx → EReal) (ix2 (⟨2048 * t.val + p.val, by have := t_lt1 t; omega⟩ : Fin 8192) k) := by
  obtain ⟨e0, e1, -⟩ := idx_facts1 t
  show (V c main_arg0 : S8192x256.Idx → EReal) (((cfg1.win 0).blk t).view.emb (ix2 p k)) = _
  refine congrArg _ (funext fun a => Fin.ext ?_)
  match a with
  | ⟨0, _⟩ => show win1_0.index t (0 : Fin 2) * 2048 + 1 * p.val = 2048 * t.val + p.val; omega
  | ⟨1, _⟩ => show win1_0.index t (1 : Fin 2) * 256 + 1 * k.val = k.val; omega

/-- The block of W is W. -/
theorem blk1_1 (c : Dev nD) (t : Fin cfg1.N) (k : Fin 256) (q : Fin 256) :
    iblk1 V c 1 t (ix2 k q) = (V c main_arg2 : S256x256.Idx → EReal) (ix2 k q) := by
  obtain ⟨-, -, e2, e3, -⟩ := idx_facts1 t
  show (V c main_arg2 : S256x256.Idx → EReal) (((cfg1.win 1).blk t).view.emb (ix2 k q)) = _
  refine congrArg _ (funext fun a => Fin.ext ?_)
  match a with
  | ⟨0, _⟩ => show win1_1.index t (0 : Fin 2) * 256 + 1 * k.val = k.val; omega
  | ⟨1, _⟩ => show win1_1.index t (1 : Fin 2) * 256 + 1 * q.val = q.val; omega

/-- The slab of the column dinv at (p, 0) is the column at row 2048 t + p. -/
theorem blk1_2 (c : Dev nD) (t : Fin cfg1.N) (p : Fin 2048) :
    iblk1 V c 2 t (ix2 p (0 : Fin 1)) = (V c main_call0_v0 : S8192x1.Idx → EReal) (ix2 (⟨2048 * t.val + p.val, by have := t_lt1 t; omega⟩ : Fin 8192) (0 : Fin 1)) := by
  obtain ⟨-, -, -, -, e4, e5, -⟩ := idx_facts1 t
  show (V c main_call0_v0 : S8192x1.Idx → EReal) (((cfg1.win 2).blk t).view.emb (ix2 p (0 : Fin 1))) = _
  refine congrArg _ (funext fun a => Fin.ext ?_)
  match a with
  | ⟨0, _⟩ => show win1_2.index t (0 : Fin 2) * 2048 + 1 * p.val = 2048 * t.val + p.val; omega
  | ⟨1, _⟩ => show win1_2.index t (1 : Fin 2) * 1 + 1 * 0 = 0; omega

/-- WHAT SLAB t WRITES BACK is block t of `hsArr`. -/
theorem flushed1_eq (c : Dev nD) (t : Fin cfg1.N) :
    (dat1 V c).flushed 3 t = ((cfg1.win 3).blk t).view.read (Elt Ideal) (hsArr V c) := by
  show (cfg1.win 3).cut (grid1.coords t) ((dat1 V c).after 3 t) = _
  rw [after1_3]
  unfold hsBlock
  rw [View.canon_unit_zero hz2']
  simp only [View.ld_unit_zero (S := S2048x256) hz2', View.ld_unit_zero (S := S256x256) hz2', View.ld_unit_zero (S := S2048x1) hz2']
  obtain ⟨-, -, -, -, -, -, e6, e7⟩ := idx_facts1 t
  funext j
  obtain ⟨p, q, rfl⟩ : ∃ (p : Fin 2048) (q : Fin 256), j = ix2 p q := ⟨j 0, j 1, eq_ix2 j⟩
  refine (hs_pay_apply _ _ _ p q).trans ?_
  rw [blk1_2 V c t p]
  simp only [blk1_0 V c t p, blk1_1 V c t]
  show _ = hsArr V c (((cfg1.win 3).blk t).view.emb (ix2 p q))
  have hemb : ((cfg1.win 3).blk t).view.emb (ix2 p q) = (ix2 (⟨2048 * t.val + p.val, by have := t_lt1 t; omega⟩ : Fin 8192) q : S8192x256.Idx) := by
    funext a; apply Fin.ext
    match a with
    | ⟨0, _⟩ => show win1_3.index t (0 : Fin 2) * 2048 + 1 * p.val = 2048 * t.val + p.val; omega
    | ⟨1, _⟩ => show win1_3.index t (1 : Fin 2) * 256 + 1 * q.val = q.val; omega
  rw [hemb]
  rfl

/-- An index of hs's array is in slab t's block iff each coordinate is in the block's range on its axis. -/
theorem mem_blk1 (t : Fin cfg1.N) (i : S8192x256.Idx) :
    i ∈ ((cfg1.win 3).blk t).view.set ↔ ∀ a : Fin 2, win1_3.index t a * S2048x256.size a ≤ (i a).val ∧ (i a).val < win1_3.index t a * S2048x256.size a + S2048x256.size a := by
  show i ∈ ((View.whole main_call0_v1).slice (win1_3.rect t)).set ↔ _
  rw [View.set_slice_whole, Rect.mem_set_unit]
  exact Iff.rfl

/-- Every row is in some slab's block. -/
theorem cover1 (i : S8192x256.Idx) : ∃ t : Fin cfg1.N, (cfg1.win 3).flush t = true ∧ i ∈ ((cfg1.win 3).blk t).view.set := by
  have hi0 : (i 0).val < 8192 := (i 0).isLt
  have hi1 : (i 1).val < 256 := (i 1).isLt
  let t : Fin cfg1.N := ⟨(i 0).val / 2048, by rw [show cfg1.N = 4 from N_1]; omega⟩
  obtain ⟨-, -, -, -, -, -, e6, e7⟩ := idx_facts1 t
  refine ⟨t, flush1_3 t, ?_⟩
  rw [mem_blk1]
  intro a
  have ht : t.val = (i 0).val / 2048 := rfl
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 256 ≤ (i 1).val ∧ (i 1).val < win1_3.index t (1 : Fin 2) * 256 + 256; omega

/-- THE ARRAY after the region. -/
theorem final1 (c : Dev nD) : (dat1 V c).arrAt 3 cfg1.N = hsArr V c :=
  (dat1 V c).arrAt_eq_of_cover 3 (hsArr V c) (fun t _ => flushed1_eq V c t) (cover1)

end Cert.KernelIdeal.Hand

end
-- ==== Proof.LibMatmulTN.lean ====
/-
  A kernel-side operation read at an index written by coordinates: a matrix product whose two operands are both
  contracted along their FIRST axis, [kk, n] x [kk, p] into a zero accumulator — the product of the transpose of
  the first operand with the second, no transpose materialized —, at the exact values, reads at (i, j) the sum
  over the contracted coordinate k of lhs (k, i) * rhs (k, j).
-/
import proofs.«168457_g2000706009674355_pallasbulk_102_19_alg».proof.Proof.LibLayoutReads

noncomputable section

open scoped BigOperators

namespace Idealize.ShloMosaic.LayoutReads

open Idealize.ShloMosaic Idealize.ShloMosaic.ValueIdx

/-- A matrix product [kk, n] x [kk, p], both operands contracted along axis 0, into the zero accumulator, at the
    exact values, read at (i, j). -/
theorem matmul_tn_zero_apply {kk n p : ℕ} {φ₁ φ₂ : FTy} (d : DotDims ⟨2, ![kk, n]⟩ ⟨2, ![kk, p]⟩ ⟨2, ![n, p]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![kk, n]⟩ φ₁) (rhs : FVec Ideal ⟨2, ![kk, p]⟩ φ₂)
    (i : Fin n) (j : Fin p) :
    FloatOps.matmul d prec lhs rhs (constant (F := Ideal) ⟨2, ![n, p]⟩ .f32 0x00000000#32) (ix2 i j)
      = ∑ k : Fin kk, lhs (ix2 k i) * rhs (ix2 k j) := by
  have hr : d.contr.rank = 1 := by rw [d.rank_contr, hlc]; rfl
  have hs : d.contr.size ⟨0, by omega⟩ = kk := by
    have h1 : (0 : Nat) < d.lhsContracting.length := by rw [hlc]; exact Nat.one_pos
    refine (d.size_contr 0 h1).trans ?_
    have h2 : d.lhsContracting[0] = (0 : Fin 2) := by simp [hlc]
    rw [h2]; rfl
  rw [Ideal.matmul_constant_zero_apply]
  refine Fintype.sum_equiv (contrEquiv1 d kk hr hs) _ _ (fun k => ?_)
  have hL : d.lhsIdx (ix2 i j) k = ix2 (contrEquiv1 d kk hr hs k) i := by
    funext c; refine Fin.ext ?_
    match c with
    | ⟨0, _⟩ => exact d.lhsIdx_val_of_single hlc (ix2 i j) k
    | ⟨1, _⟩ => exact lhsIdx_val_of_single_non d hlb hln (ix2 i j) k (show 0 < 2 by omega)
  have hR : d.rhsIdx (ix2 i j) k = ix2 (contrEquiv1 d kk hr hs k) j := by
    funext c; refine Fin.ext ?_
    match c with
    | ⟨0, _⟩ => exact d.rhsIdx_val_of_single hrc (ix2 i j) k
    | ⟨1, _⟩ => exact rhsIdx_val_of_single_non d hlb hrb hln hrn (ix2 i j) k (show 1 < 2 by omega)
  rw [hL, hR]

end Idealize.ShloMosaic.LayoutReads

end
-- ==== Proof.KerVal2.lean ====
/-
  The third region, read: the result array it leaves. At slab t the body reads columns 512 t .. 512 t + 255 and
  512 t + 256 .. 512 t + 511 of the graph (two windows), the whole of hs, rows 512 t .. 512 t + 511 of the column
  dinv and the bias row, and stores, at (p, q) of the 512 x 256 block,
    dinv[512 t + p] * (((s0 + s1) + s2) + s3) + bias[q],  s_c = sum over the 2048 rows j of chunk c of graph[j, 512 t + p] * hs[j, q].
  The sixteen slabs' blocks tile the 8192 rows of the result.
-/
import proofs.«168457_g2000706009674355_pallasbulk_102_19_alg».proof.Proof.KerAgg
import proofs.«168457_g2000706009674355_pallasbulk_102_19_alg».proof.Proof.LibMatmulTN
import proofs.«168457_g2000706009674355_pallasbulk_102_19_alg».proof.Proof.LibColumn
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Idealize.ShloMosaic.LayoutReads

theorem hz2'' : (![0, 0] : Fin 2 → Nat) = fun _ => 0 := funext fun a => by fin_cases a <;> rfl

/-! ## Reads through the boxes -/

theorem ld_chunk0 (X : Vec Ideal S8192x256 .f32) (k : Fin 2048) (p : Fin 256) :
    View.ld X chunk0 (ix2 k p) = X (ix2 (⟨(2048 * 0 + k.val) % 8192, Nat.mod_lt _ (by decide)⟩ : Fin 8192) p) := by
  refine congrArg X (funext fun a => Fin.ext ?_)
  match a with
  | ⟨0, _⟩ => show 0 + 1 * k.val = (2048 * 0 + k.val) % 8192; omega
  | ⟨1, _⟩ => show 0 + 1 * p.val = p.val; omega

theorem ld_chunk1 (X : Vec Ideal S8192x256 .f32) (k : Fin 2048) (p : Fin 256) :
    View.ld X chunk1 (ix2 k p) = X (ix2 (⟨(2048 * 1 + k.val) % 8192, Nat.mod_lt _ (by decide)⟩ : Fin 8192) p) := by
  refine congrArg X (funext fun a => Fin.ext ?_)
  match a with
  | ⟨0, _⟩ => show 2048 + 1 * k.val = (2048 * 1 + k.val) % 8192; omega
  | ⟨1, _⟩ => show 0 + 1 * p.val = p.val; omega

theorem ld_chunk2 (X : Vec Ideal S8192x256 .f32) (k : Fin 2048) (p : Fin 256) :
    View.ld X chunk2 (ix2 k p) = X (ix2 (⟨(2048 * 2 + k.val) % 8192, Nat.mod_lt _ (by decide)⟩ : Fin 8192) p) := by
  refine congrArg X (funext fun a => Fin.ext ?_)
  match a with
  | ⟨0, _⟩ => show 4096 + 1 * k.val = (2048 * 2 + k.val) % 8192; omega
  | ⟨1, _⟩ => show 0 + 1 * p.val = p.val; omega

theorem ld_chunk3 (X : Vec Ideal S8192x256 .f32) (k : Fin 2048) (p : Fin 256) :
    View.ld X chunk3 (ix2 k p) = X (ix2 (⟨(2048 * 3 + k.val) % 8192, Nat.mod_lt _ (by decide)⟩ : Fin 8192) p) := by
  refine congrArg X (funext fun a => Fin.ext ?_)
  match a with
  | ⟨0, _⟩ => show 6144 + 1 * k.val = (2048 * 3 + k.val) % 8192; omega
  | ⟨1, _⟩ => show 0 + 1 * p.val = p.val; omega

theorem ld_colLo (X : Vec Ideal S512x1 .f32) (p : Fin 256) (u : Fin 1) :
    View.ld X colLo (ix2 p u) = X (ix2 (⟨p.val, by omega⟩ : Fin 512) (0 : Fin 1)) := by
  refine congrArg X (funext fun a => Fin.ext ?_)
  have hu : u.val = 0 := by omega
  match a with
  | ⟨0, _⟩ => show 0 + 1 * p.val = p.val; omega
  | ⟨1, _⟩ => show 0 + 1 * u.val = 0; omega

theorem ld_colHi (X : Vec Ideal S512x1 .f32) (p : Fin 256) (u : Fin 1) :
    View.ld X colHi (ix2 p u) = X (ix2 (⟨256 + p.val, by omega⟩ : Fin 512) (0 : Fin 1)) := by
  refine congrArg X (funext fun a => Fin.ext ?_)
  have hu : u.val = 0 := by omega
  match a with
  | ⟨0, _⟩ => show 256 + 1 * p.val = 256 + p.val; omega
  | ⟨1, _⟩ => show 0 + 1 * u.val = 0; omega

/-! ## The products at an index -/

/-- One chunk's product: the sum over the chunk's 2048 rows. -/
def chunkDot (A B : FVec Ideal S2048x256 .f32) (i j : Fin 256) : EReal := ∑ k : Fin 2048, A (ix2 k i) * B (ix2 k j)

theorem mm_apply (A B : FVec Ideal S2048x256 .f32) (i j : Fin 256) :
    matmul (F := Ideal) dot_S2048x256_S2048x256_S256x256_0_0_1_1_n_n none A B (constant (F := Ideal) S256x256 .f32 0x00000000#32) (ix2 i j) = chunkDot A B i j :=
  matmul_tn_zero_apply dot_S2048x256_S2048x256_S256x256_0_0_1_1_n_n rfl rfl rfl rfl rfl rfl none A B i j

theorem pay6_apply (v0 v2 v6 v8 v14 v16 : Vec Ideal S2048x256 .f32) (i j : Fin 256) :
    k2_pay6 v0 v2 v6 v8 v14 v16 (ix2 i j) = (chunkDot v2 v0 i j + chunkDot v8 v6 i j) + chunkDot v16 v14 i j := by
  unfold k2_pay6 k2_pay3 k2_pay4 k2_pay5
  rw [shapeCast_self, shapeCast_self, shapeCast_self, addf_apply, addf_apply, mm_apply, mm_apply, mm_apply]

theorem pay7_apply (v0 v4 v6 v10 v14 v18 : Vec Ideal S2048x256 .f32) (i j : Fin 256) :
    k2_pay7 v0 v4 v6 v10 v14 v18 (ix2 i j) = (chunkDot v4 v0 i j + chunkDot v10 v6 i j) + chunkDot v18 v14 i j := by
  unfold k2_pay7 k2_pay3 k2_pay4 k2_pay5
  rw [shapeCast_self, shapeCast_self, shapeCast_self, addf_apply, addf_apply, mm_apply, mm_apply, mm_apply]

theorem pay9_apply (v22 v24 : Vec Ideal S2048x256 .f32) (i j : Fin 256) :
    k2_pay9 v22 v24 (ix2 i j) = chunkDot v24 v22 i j := by
  unfold k2_pay9 k2_pay8
  rw [shapeCast_self, mm_apply]

theorem pay1_apply (v20 v25 : FVec Ideal S256x256 .f32) (v30 : Vec Ideal S256x1 .f32) (v34 : Vec Ideal S1x256 .f32) (p q : Fin 256) :
    k2_pay1 v20 v25 v30 v34 (ix2 p q) = v30 (ix2 p (0 : Fin 1)) * (v20 (ix2 p q) + v25 (ix2 p q)) + v34 (ix2 (0 : Fin 1) q) := by
  unfold k2_pay1
  rw [addf_apply, mulf_apply, addf_apply, Cert.Column.broadcastTo_a1_ab_apply, shapeCast_self, broadcastTo_1b_ab_apply, shapeCast_self]

theorem pay2_apply (v21 : FVec Ideal S256x256 .f32) (v23 : FVec Ideal S2048x256 .f32) (v26 : Vec Ideal S2048x256 .f32)
    (v39 : Vec Ideal S256x1 .f32) (v43 : Vec Ideal S1x256 .f32) (p q : Fin 256) :
    k2_pay2 v21 v23 v26 (constant (F := Ideal) S256x256 .f32 0x00000000#32) v39 v43 (ix2 p q)
      = v39 (ix2 p (0 : Fin 1)) * (v21 (ix2 p q) + chunkDot v26 v23 p q) + v43 (ix2 (0 : Fin 1) q) := by
  unfold k2_pay2
  rw [addf_apply, mulf_apply, addf_apply, Cert.Column.broadcastTo_a1_ab_apply, shapeCast_self, broadcastTo_1b_ab_apply, shapeCast_self, mm_apply]

/-! ## The two stored halves, over any blocks -/

/-- The sum over the 2048 rows of chunk c of g[j, p] * h[j, q]. -/
def chunkOf (g h : Vec Ideal S8192x256 .f32) (c : ℕ) (p q : Fin 256) : EReal :=
  ∑ k : Fin 2048, g (ix2 (⟨(2048 * c + k.val) % 8192, Nat.mod_lt _ (by decide)⟩ : Fin 8192) p) * h (ix2 (⟨(2048 * c + k.val) % 8192, Nat.mod_lt _ (by decide)⟩ : Fin 8192) q)

theorem chunkDot_ld0 (g h : Vec Ideal S8192x256 .f32) (p q : Fin 256) :
    chunkDot (View.ld g chunk0) (View.ld h chunk0) p q = chunkOf g h 0 p q := by
  unfold chunkDot chunkOf
  exact Finset.sum_congr rfl fun k _ => by rw [ld_chunk0, ld_chunk0]

theorem chunkDot_ld1 (g h : Vec Ideal S8192x256 .f32) (p q : Fin 256) :
    chunkDot (View.ld g chunk1) (View.ld h chunk1) p q = chunkOf g h 1 p q := by
  unfold chunkDot chunkOf
  exact Finset.sum_congr rfl fun k _ => by rw [ld_chunk1, ld_chunk1]

theorem chunkDot_ld2 (g h : Vec Ideal S8192x256 .f32) (p q : Fin 256) :
    chunkDot (View.ld g chunk2) (View.ld h chunk2) p q = chunkOf g h 2 p q := by
  unfold chunkDot chunkOf
  exact Finset.sum_congr rfl fun k _ => by rw [ld_chunk2, ld_chunk2]

theorem chunkDot_ld3 (g h : Vec Ideal S8192x256 .f32) (p q : Fin 256) :
    chunkDot (View.ld g chunk3) (View.ld h chunk3) p q = chunkOf g h 3 p q := by
  unfold chunkDot chunkOf
  exact Finset.sum_congr rfl fun k _ => by rw [ld_chunk3, ld_chunk3]

theorem aggLo_eq (g0 h : Vec Ideal S8192x256 .f32) (dv : Vec Ideal S512x1 .f32) (b : Vec Ideal S1x256 .f32) (p q : Fin 256) :
    aggLo g0 h dv b (ix2 p q) = dv (ix2 (⟨p.val, by omega⟩ : Fin 512) (0 : Fin 1))
      * (((chunkOf g0 h 0 p q + chunkOf g0 h 1 p q) + chunkOf g0 h 2 p q) + chunkOf g0 h 3 p q) + b (ix2 (0 : Fin 1) q) := by
  unfold aggLo
  rw [pay1_apply, pay6_apply, pay9_apply, ld_colLo, View.ld_unit_zero (S := S1x256) hz2'', chunkDot_ld0, chunkDot_ld1, chunkDot_ld2, chunkDot_ld3]

theorem aggHi_eq (g1 h : Vec Ideal S8192x256 .f32) (dv : Vec Ideal S512x1 .f32) (b : Vec Ideal S1x256 .f32) (p q : Fin 256) :
    aggHi g1 h dv b (ix2 p q) = dv (ix2 (⟨256 + p.val, by omega⟩ : Fin 512) (0 : Fin 1))
      * (((chunkOf g1 h 0 p q + chunkOf g1 h 1 p q) + chunkOf g1 h 2 p q) + chunkOf g1 h 3 p q) + b (ix2 (0 : Fin 1) q) := by
  unfold aggHi
  rw [pay2_apply, pay7_apply, ld_colHi, View.ld_unit_zero (S := S1x256) hz2'']
  unfold k2_pay8
  rw [shapeCast_self, chunkDot_ld0, chunkDot_ld1, chunkDot_ld2, chunkDot_ld3]

/-! ## The result as one function -/

/-- The sum over the 2048 rows of chunk c of graph[j, i] * hs[j, f]. -/
def chunkSum (G : S8192x8192.Idx → EReal) (H : S8192x256.Idx → EReal) (i : Fin 8192) (f : Fin 256) (c : ℕ) : EReal :=
  ∑ k : Fin 2048, G (ix2 (⟨(2048 * c + k.val) % 8192, Nat.mod_lt _ (by decide)⟩ : Fin 8192) i) * H (ix2 (⟨(2048 * c + k.val) % 8192, Nat.mod_lt _ (by decide)⟩ : Fin 8192) f)

/-- The result array, as the body groups its sums. -/
def yOf4 (G : S8192x8192.Idx → EReal) (H : S8192x256.Idx → EReal) (D : S8192x1.Idx → EReal) (B : S1x256.Idx → EReal) :
    S8192x256.Idx → EReal := fun i =>
  D (ix2 (i 0) (0 : Fin 1)) * (((chunkSum G H (i 0) (i 1) 0 + chunkSum G H (i 0) (i 1) 1) + chunkSum G H (i 0) (i 1) 2) + chunkSum G H (i 0) (i 1) 3)
    + B (ix2 (0 : Fin 1) (i 1))

variable (V : (c : Dev nD) → (b : Ref sig .tc) → Buf (Elt Ideal) ((c : Thread nD τ).loc b))

def yArr (c : Dev nD) : S8192x256.Idx → EReal := yOf4 (V c main_arg1) (V c main_call0_v1) (V c main_call0_v0) (V c main_v0)

/-- The printed index maps over the sixteen slabs. -/
theorem idx_facts2 : ∀ t : Fin cfg2.N, win2_0.index t (0 : Fin 2) = 0 ∧ win2_0.index t (1 : Fin 2) = 2 * t.val
    ∧ win2_1.index t (0 : Fin 2) = 0 ∧ win2_1.index t (1 : Fin 2) = 2 * t.val + 1
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem t_lt2 (t : Fin cfg2.N) : t.val < 16 := lt_of_lt_of_eq t.isLt (show cfg2.N = 16 from N_2)

theorem blk2_0 (c : Dev nD) (t : Fin cfg2.N) (j : Fin 8192) (p : Fin 256) :
    iblk2 V c 0 t (ix2 j p) = (V c main_arg1 : S8192x8192.Idx → EReal) (ix2 j (⟨512 * t.val + p.val, by have := t_lt2 t; omega⟩ : Fin 8192)) := by
  obtain ⟨e0, e1, -⟩ := idx_facts2 t
  show (V c main_arg1 : S8192x8192.Idx → EReal) (((cfg2.win 0).blk t).view.emb (ix2 j p)) = _
  refine congrArg _ (funext fun a => Fin.ext ?_)
  match a with
  | ⟨0, _⟩ => show win2_0.index t (0 : Fin 2) * 8192 + 1 * j.val = j.val; omega
  | ⟨1, _⟩ => show win2_0.index t (1 : Fin 2) * 256 + 1 * p.val = 512 * t.val + p.val; omega

theorem blk2_1 (c : Dev nD) (t : Fin cfg2.N) (j : Fin 8192) (p : Fin 256) :
    iblk2 V c 1 t (ix2 j p) = (V c main_arg1 : S8192x8192.Idx → EReal) (ix2 j (⟨512 * t.val + (256 + p.val), by have := t_lt2 t; omega⟩ : Fin 8192)) := by
  obtain ⟨-, -, e2, e3, -⟩ := idx_facts2 t
  show (V c main_arg1 : S8192x8192.Idx → EReal) (((cfg2.win 1).blk t).view.emb (ix2 j p)) = _
  refine congrArg _ (funext fun a => Fin.ext ?_)
  match a with
  | ⟨0, _⟩ => show win2_1.index t (0 : Fin 2) * 8192 + 1 * j.val = j.val; omega
  | ⟨1, _⟩ => show win2_1.index t (1 : Fin 2) * 256 + 1 * p.val = 512 * t.val + (256 + p.val); omega

theorem blk2_2 (c : Dev nD) (t : Fin cfg2.N) (j : Fin 8192) (q : Fin 256) :
    iblk2 V c 2 t (ix2 j q) = (V c main_call0_v1 : S8192x256.Idx → EReal) (ix2 j q) := by
  obtain ⟨-, -, -, -, e4, e5, -⟩ := idx_facts2 t
  show (V c main_call0_v1 : S8192x256.Idx → EReal) (((cfg2.win 2).blk t).view.emb (ix2 j q)) = _
  refine congrArg _ (funext fun a => Fin.ext ?_)
  match a with
  | ⟨0, _⟩ => show win2_2.index t (0 : Fin 2) * 8192 + 1 * j.val = j.val; omega
  | ⟨1, _⟩ => show win2_2.index t (1 : Fin 2) * 256 + 1 * q.val = q.val; omega

theorem blk2_3 (c : Dev nD) (t : Fin cfg2.N) (p : Fin 512) :
    iblk2 V c 3 t (ix2 p (0 : Fin 1)) = (V c main_call0_v0 : S8192x1.Idx → EReal) (ix2 (⟨512 * t.val + p.val, by have := t_lt2 t; omega⟩ : Fin 8192) (0 : Fin 1)) := by
  obtain ⟨-, -, -, -, -, -, e6, e7, -⟩ := idx_facts2 t
  show (V c main_call0_v0 : S8192x1.Idx → EReal) (((cfg2.win 3).blk t).view.emb (ix2 p (0 : Fin 1))) = _
  refine congrArg _ (funext fun a => Fin.ext ?_)
  match a with
  | ⟨0, _⟩ => show win2_3.index t (0 : Fin 2) * 512 + 1 * p.val = 512 * t.val + p.val; omega
  | ⟨1, _⟩ => show win2_3.index t (1 : Fin 2) * 1 + 1 * 0 = 0; omega

theorem blk2_4 (c : Dev nD) (t : Fin cfg2.N) (q : Fin 256) :
    iblk2 V c 4 t (ix2 (0 : Fin 1) q) = (V c main_v0 : S1x256.Idx → EReal) (ix2 (0 : Fin 1) q) := by
  obtain ⟨-, -, -, -, -, -, -, -, e8, e9, -⟩ := idx_facts2 t
  show (V c main_v0 : S1x256.Idx → EReal) (((cfg2.win 4).blk t).view.emb (ix2 (0 : Fin 1) q)) = _
  refine congrArg _ (funext fun a => Fin.ext ?_)
  match a with
  | ⟨0, _⟩ => show win2_4.index t (0 : Fin 2) * 1 + 1 * 0 = 0; omega
  | ⟨1, _⟩ => show win2_4.index t (1 : Fin 2) * 256 + 1 * q.val = q.val; omega

/-- A chunk's sum over the first graph window's block and hs's block is the chunk's sum of the arrays at column 512 t + p. -/
theorem chunkOf_blk0 (c : Dev nD) (t : Fin cfg2.N) (cidx : ℕ) (p q : Fin 256) :
    chunkOf (iblk2 V c 0 t) (iblk2 V c 2 t) cidx p q
      = chunkSum (V c main_arg1) (V c main_call0_v1) (⟨512 * t.val + p.val, by have := t_lt2 t; omega⟩ : Fin 8192) q cidx := by
  unfold chunkOf chunkSum
  exact Finset.sum_congr rfl fun k _ => by rw [blk2_0 V c t, blk2_2 V c t]

theorem chunkOf_blk1 (c : Dev nD) (t : Fin cfg2.N) (cidx : ℕ) (p q : Fin 256) :
    chunkOf (iblk2 V c 1 t) (iblk2 V c 2 t) cidx p q
      = chunkSum (V c main_arg1) (V c main_call0_v1) (⟨512 * t.val + (256 + p.val), by have := t_lt2 t; omega⟩ : Fin 8192) q cidx := by
  unfold chunkOf chunkSum
  exact Finset.sum_congr rfl fun k _ => by rw [blk2_1 V c t, blk2_2 V c t]

/-! ## The stored block -/

/-- The first 256 rows of slab t's block are the result function at rows 512 t + p. -/
theorem aggLo_apply (c : Dev nD) (t : Fin cfg2.N) (p q : Fin 256) :
    aggLo (iblk2 V c 0 t) (iblk2 V c 2 t) (iblk2 V c 3 t) (iblk2 V c 4 t) (ix2 p q)
      = yArr V c (ix2 (⟨512 * t.val + p.val, by have := t_lt2 t; omega⟩ : Fin 8192) q) := by
  refine (aggLo_eq _ _ _ _ p q).trans ?_
  rw [chunkOf_blk0 V c t 0, chunkOf_blk0 V c t 1, chunkOf_blk0 V c t 2, chunkOf_blk0 V c t 3, blk2_3 V c t, blk2_4 V c t]
  rfl

/-- The last 256 rows are the result function at rows 512 t + 256 + p. -/
theorem aggHi_apply (c : Dev nD) (t : Fin cfg2.N) (p q : Fin 256) :
    aggHi (iblk2 V c 1 t) (iblk2 V c 2 t) (iblk2 V c 3 t) (iblk2 V c 4 t) (ix2 p q)
      = yArr V c (ix2 (⟨512 * t.val + (256 + p.val), by have := t_lt2 t; omega⟩ : Fin 8192) q) := by
  refine (aggHi_eq _ _ _ _ p q).trans ?_
  rw [chunkOf_blk1 V c t 0, chunkOf_blk1 V c t 1, chunkOf_blk1 V c t 2, chunkOf_blk1 V c t 3, blk2_3 V c t, blk2_4 V c t]
  rfl

/-- WHAT SLAB t WRITES BACK is block t of `yArr`. -/
theorem flushed2_eq (c : Dev nD) (t : Fin cfg2.N) :
    (dat2 V c).flushed 5 t = ((cfg2.win 5).blk t).view.read (Elt Ideal) (yArr V c) := by
  obtain ⟨-, -, -, -, -, -, -, -, -, -, e10, e11⟩ := idx_facts2 t
  show (cfg2.win 5).cut (grid2.coords t) ((dat2 V c).after 5 t) = _
  rw [after2_5]
  unfold aggBlock
  funext y
  refine View.canon_apply_of_pieces (((cfg2.win 5).blk t).view.read (Elt Ideal) (yArr V c)) _ ?_ y (aggBlock_cover _ _ y)
  intro pc hpc x
  simp only [List.mem_cons, List.not_mem_nil, or_false] at hpc
  rcases hpc with rfl | rfl
  · obtain ⟨p, q, rfl⟩ : ∃ (p q : Fin 256), x = ix2 p q := ⟨x 0, x 1, eq_ix2 x⟩
    refine (aggHi_apply V c t p q).trans ?_
    show yArr V c _ = yArr V c (((cfg2.win 5).blk t).view.emb (outHi.emb (ix2 p q)))
    refine congrArg _ (funext fun a => Fin.ext ?_)
    match a with
    | ⟨0, _⟩ => show 512 * t.val + (256 + p.val) = win2_5.index t (0 : Fin 2) * 512 + 1 * (256 + 1 * p.val); omega
    | ⟨1, _⟩ => show q.val = win2_5.index t (1 : Fin 2) * 256 + 1 * (0 + 1 * q.val); omega
  · obtain ⟨p, q, rfl⟩ : ∃ (p q : Fin 256), x = ix2 p q := ⟨x 0, x 1, eq_ix2 x⟩
    refine (aggLo_apply V c t p q).trans ?_
    show yArr V c _ = yArr V c (((cfg2.win 5).blk t).view.emb (outLo.emb (ix2 p q)))
    refine congrArg _ (funext fun a => Fin.ext ?_)
    match a with
    | ⟨0, _⟩ => show 512 * t.val + p.val = win2_5.index t (0 : Fin 2) * 512 + 1 * (0 + 1 * p.val); omega
    | ⟨1, _⟩ => show q.val = win2_5.index t (1 : Fin 2) * 256 + 1 * (0 + 1 * q.val); omega

theorem mem_blk2 (t : Fin cfg2.N) (i : S8192x256.Idx) :
    i ∈ ((cfg2.win 5).blk t).view.set ↔ ∀ a : Fin 2, win2_5.index t a * S512x256.size a ≤ (i a).val ∧ (i a).val < win2_5.index t a * S512x256.size a + S512x256.size a := by
  show i ∈ ((View.whole main_v1).slice (win2_5.rect t)).set ↔ _
  rw [View.set_slice_whole, Rect.mem_set_unit]
  exact Iff.rfl

/-- Every row of the result is in some slab's block. -/
theorem cover2 (i : S8192x256.Idx) : ∃ t : Fin cfg2.N, (cfg2.win 5).flush t = true ∧ i ∈ ((cfg2.win 5).blk t).view.set := by
  have hi0 : (i 0).val < 8192 := (i 0).isLt
  have hi1 : (i 1).val < 256 := (i 1).isLt
  let t : Fin cfg2.N := ⟨(i 0).val / 512, by rw [show cfg2.N = 16 from N_2]; omega⟩
  have ht : t.val = (i 0).val / 512 := rfl
  obtain ⟨-, -, -, -, -, -, -, -, -, -, e10, e11⟩ := idx_facts2 t
  refine ⟨t, flush2_5 t, ?_⟩
  rw [mem_blk2]
  intro a
  match a with
  | ⟨0, _⟩ => show win2_5.index t (0 : Fin 2) * 512 ≤ (i 0).val ∧ (i 0).val < win2_5.index t (0 : Fin 2) * 512 + 512; omega
  | ⟨1, _⟩ => show win2_5.index t (1 : Fin 2) * 256 ≤ (i 1).val ∧ (i 1).val < win2_5.index t (1 : Fin 2) * 256 + 256; omega

/-- THE ARRAY after the region. -/
theorem final2 (c : Dev nD) : (dat2 V c).arrAt 5 cfg2.N = yArr V c :=
  (dat2 V c).arrAt_eq_of_cover 5 (yArr V c) (fun t _ => flushed2_eq V c t) cover2

end Cert.KernelIdeal.Hand

end
-- ==== Proof.SpecSums.lean ====
/-
  Regrouping a sum over 8192 consecutive indices: as 32 groups of 256 and as 4 groups of 2048. Index j of group r
  at place k is 256 r + k (respectively 2048 r + k).
-/
import proofs.«168457_g2000706009674355_pallasbulk_102_19_alg».proof.Proof.Spec

noncomputable section

namespace Cert.GcnSpec

theorem sum_32x256 {M : Type*} [AddCommMonoid M] (f : Fin 8192 → M) :
    ∑ j : Fin 8192, f j = ∑ r : Fin 32, ∑ k : Fin 256, f (⟨(256 * r.val + k.val) % 8192, Nat.mod_lt _ (by decide)⟩ : Fin 8192) := by
  have e : Fin 32 × Fin 256 ≃ Fin 8192 := finProdFinEquiv
  rw [← (finProdFinEquiv : Fin 32 × Fin 256 ≃ Fin 8192).sum_comp, Fintype.sum_prod_type]
  refine Finset.sum_congr rfl fun r _ => Finset.sum_congr rfl fun k _ => congrArg f (Fin.ext ?_)
  show ((finProdFinEquiv (r, k) : Fin (32 * 256)) : ℕ) = (256 * r.val + k.val) % 8192
  rw [finProdFinEquiv_apply_val]
  have := r.isLt; have := k.isLt
  show k.val + 256 * r.val = (256 * r.val + k.val) % 8192
  omega

theorem sum_4x2048 {M : Type*} [AddCommMonoid M] (f : Fin 8192 → M) :
    ∑ j : Fin 8192, f j = ∑ r : Fin 4, ∑ k : Fin 2048, f (⟨(2048 * r.val + k.val) % 8192, Nat.mod_lt _ (by decide)⟩ : Fin 8192) := by
  rw [← (finProdFinEquiv : Fin 4 × Fin 2048 ≃ Fin 8192).sum_comp, Fintype.sum_prod_type]
  refine Finset.sum_congr rfl fun r _ => Finset.sum_congr rfl fun k _ => congrArg f (Fin.ext ?_)
  show ((finProdFinEquiv (r, k) : Fin (4 * 2048)) : ℕ) = (2048 * r.val + k.val) % 8192
  rw [finProdFinEquiv_apply_val]
  have := r.isLt; have := k.isLt
  show k.val + 2048 * r.val = (2048 * r.val + k.val) % 8192
  omega

theorem sum_16x512 {M : Type*} [AddCommMonoid M] (f : Fin 8192 → M) :
    ∑ j : Fin 8192, f j = ∑ r : Fin 16, ∑ k : Fin 512, f (⟨(512 * r.val + k.val) % 8192, Nat.mod_lt _ (by decide)⟩ : Fin 8192) := by
  rw [← (finProdFinEquiv : Fin 16 × Fin 512 ≃ Fin 8192).sum_comp, Fintype.sum_prod_type]
  refine Finset.sum_congr rfl fun r _ => Finset.sum_congr rfl fun k _ => congrArg f (Fin.ext ?_)
  show ((finProdFinEquiv (r, k) : Fin (16 * 512)) : ℕ) = (512 * r.val + k.val) % 8192
  rw [finProdFinEquiv_apply_val]
  have := r.isLt; have := k.isLt
  show k.val + 512 * r.val = (512 * r.val + k.val) % 8192
  omega

end Cert.GcnSpec

end
-- ==== Proof.KerMath.lean ====
/-
  The kernel program's three arrays, regrouped: the scratch row's nested partial sums over 32 row slabs of 256 rows
  are the column sum over the 8192 rows; the four chunk sums of 2048 rows added in order are the sum over the 8192
  rows; so the arrays, composed, are the specification's y. Addition of extended reals is commutative and associative:
  nothing here needs the inputs finite.
-/
import proofs.«168457_g2000706009674355_pallasbulk_102_19_alg».proof.Proof.KerVal0
import proofs.«168457_g2000706009674355_pallasbulk_102_19_alg».proof.Proof.KerVal1
import proofs.«168457_g2000706009674355_pallasbulk_102_19_alg».proof.Proof.KerVal2
import proofs.«168457_g2000706009674355_pallasbulk_102_19_alg».proof.Proof.SpecSums

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Idealize.ShloMosaic.LayoutReads Cert.GcnSpec

/-- The scratch row's entry after row slabs 0 .. n is the sum of their column sums. -/
theorem partN_eq_sum (G : S8192x8192.Idx → EReal) (q : ℕ) (col : Fin 4096) :
    ∀ n, partN G q col n = ∑ r ∈ Finset.range (n + 1), rowSumN G q col r
  | 0 => by
    show 0 + rowSumN G q col 0 = _
    rw [zero_add, Finset.sum_range_one]
  | n + 1 => by
    show partN G q col n + rowSumN G q col (n + 1) = _
    rw [partN_eq_sum G q col n, Finset.sum_range_succ (fun r => rowSumN G q col r) (n + 1)]

/-- The column the first region leaves is dinvOf of the column sums. -/
theorem dinv_at (G : S8192x8192.Idx → EReal) (i : Fin 8192) :
    dinvOfGraph G (ix2 i (0 : Fin 1)) = dinvOf (deg G i) := by
  unfold dinvOfGraph
  refine congrArg dinvOf ?_
  show partN G (i.val / 4096) (⟨i.val % 4096, Nat.mod_lt _ (by decide)⟩ : Fin 4096) 31 = deg G i
  rw [partN_eq_sum, Finset.sum_range]
  unfold rowSumN deg
  rw [sum_32x256 (fun j => G (ix2 j i))]
  refine Finset.sum_congr rfl fun r _ => Finset.sum_congr rfl fun k _ => congrArg G ?_
  have hi := i.isLt
  have e : (⟨(4096 * (i.val / 4096) + i.val % 4096) % 8192, Nat.mod_lt _ (by decide)⟩ : Fin 8192) = i := Fin.ext (by show (4096 * (i.val / 4096) + i.val % 4096) % 8192 = i.val; omega)
  show ix2 _ (⟨(4096 * (i.val / 4096) + i.val % 4096) % 8192, Nat.mod_lt _ (by decide)⟩ : Fin 8192) = ix2 _ i
  rw [e]

/-- hs as the second region leaves it, over the first region's column, is the specification's. -/
theorem hs_at (G : S8192x8192.Idx → EReal) (X : S8192x256.Idx → EReal) (W : S256x256.Idx → EReal) (j : Fin 8192) (f : Fin 256) :
    hsOf (dinvOfGraph G) X W (ix2 j f) = hs G X W j f := by
  unfold hsOf hs
  show dinvOfGraph G (ix2 j (0 : Fin 1)) * _ = _
  rw [dinv_at]

/-- The four chunk sums, added in the body's order, are the sum over all rows. -/
theorem chunks_total (G : S8192x8192.Idx → EReal) (H : S8192x256.Idx → EReal) (i : Fin 8192) (f : Fin 256) :
    ((chunkSum G H i f 0 + chunkSum G H i f 1) + chunkSum G H i f 2) + chunkSum G H i f 3 = ∑ j : Fin 8192, G (ix2 j i) * H (ix2 j f) := by
  rw [sum_4x2048 (fun j => G (ix2 j i) * H (ix2 j f)), Fin.sum_univ_four]
  rfl

/-- THE COMPOSITION: the third region's array over the first two regions' arrays and the reshaped bias is y. -/
theorem yOf4_eq_spec (G : S8192x8192.Idx → EReal) (X : S8192x256.Idx → EReal) (W : S256x256.Idx → EReal) (b : S256.Idx → EReal) :
    yOf4 G (hsOf (dinvOfGraph G) X W) (dinvOfGraph G) (shapeCast S1x256 b shapeCasts_S256_S1x256) = y G X W b := by
  funext i
  obtain ⟨i0, f, rfl⟩ : ∃ (i0 : Fin 8192) (f : Fin 256), i = ix2 i0 f := ⟨i 0, i 1, eq_ix2 i⟩
  unfold yOf4 y
  show dinvOfGraph G (ix2 i0 (0 : Fin 1)) * (((chunkSum G _ i0 f 0 + chunkSum G _ i0 f 1) + chunkSum G _ i0 f 2) + chunkSum G _ i0 f 3)
      + shapeCast S1x256 b shapeCasts_S256_S1x256 (ix2 (0 : Fin 1) f) = dinvOf (deg G i0) * (∑ j : Fin 8192, G (ix2 j i0) * hs G X W j f) + b (ix1 f)
  rw [dinv_at, chunks_total, shapeCast_vec_row_apply]
  simp only [hs_at]

end Cert.KernelIdeal.Hand

end
-- ==== Proof.KerValue.lean ====
/-
  The kernel program's result as a function of its arguments. Each region's arrays are read back through the fold of
  buffer contents: the graph, x and W reach every region as launched; the column dinv reaches the second and third
  regions as the first left it; hs reaches the third as the second left it; the bias row is the bias vector reshaped.
  Composed, the result is the specification's y of the four arguments.
-/
import proofs.«168457_g2000706009674355_pallasbulk_102_19_alg».proof.Proof.KerEnds
import proofs.«168457_g2000706009674355_pallasbulk_102_19_alg».proof.Proof.KerMath
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Idealize.ShloMosaic.LayoutReads Cert.GcnSpec

variable (m : (ℓ : Loc nD τ sig) → Buf (Elt Ideal) ℓ)

theorem V1_graph (c : Dev nD) : V1 m c main_arg1 = m ((c : Thread nD τ).loc main_arg1) := W1_of_ne m c main_arg1 (by decide)

theorem V2_dinv (c : Dev nD) : V2 m c main_call0_v0 = dinvOfGraph (m ((c : Thread nD τ).loc main_arg1)) := by
  have h := (W2_arr m c 1).trans (final0 (V1 m) c)
  rw [V1_graph] at h
  exact h

theorem V2_x (c : Dev nD) : V2 m c main_arg0 = m ((c : Thread nD τ).loc main_arg0) :=
  (W2_of_ne m c main_arg0 (by decide)).trans (W1_of_ne m c main_arg0 (by decide))
theorem V2_w (c : Dev nD) : V2 m c main_arg2 = m ((c : Thread nD τ).loc main_arg2) :=
  (W2_of_ne m c main_arg2 (by decide)).trans (W1_of_ne m c main_arg2 (by decide))

theorem V3_hs (c : Dev nD) : V3 m c main_call0_v1
    = hsOf (dinvOfGraph (m ((c : Thread nD τ).loc main_arg1))) (m ((c : Thread nD τ).loc main_arg0)) (m ((c : Thread nD τ).loc main_arg2)) := by
  have h := (W3_arr m c 3).trans (final1 (V2 m) c)
  unfold hsArr at h
  rw [V2_dinv, V2_x, V2_w] at h
  exact h

theorem V3_dinv (c : Dev nD) : V3 m c main_call0_v0 = dinvOfGraph (m ((c : Thread nD τ).loc main_arg1)) :=
  (W3_arr m c 2).trans (((dat1 (V2 m) c).arrAt_in 2 rfl _).trans ((A_eq1 (V2 m) c 2).trans (V2_dinv m c)))

theorem V3_graph (c : Dev nD) : V3 m c main_arg1 = m ((c : Thread nD τ).loc main_arg1) :=
  (W3_of_ne m c main_arg1 (by decide)).trans ((W2_arr m c 0).trans (((dat0 (V1 m) c).arrAt_in 0 rfl _).trans ((A_eq0 (V1 m) c 0).trans (V1_graph m c))))

/-- The bias row the third region finds is the bias vector reshaped. -/
theorem V3_bias (c : Dev nD) : (V3 m c main_v0 : S1x256.Idx → EReal)
    = shapeCast S1x256 (m ((c : Thread nD τ).loc main_arg3) : S256.Idx → EReal) shapeCasts_S256_S1x256 := by
  have h : V3 m c main_v0 = W1 m c (Proc.devRef .tc main_v0) := (W3_of_ne m c main_v0 (by decide)).trans (W2_of_ne m c main_v0 (by decide))
  rw [h]
  show StableHlo.after hostOps0 (fun b => m (c, b)) (Proc.devRef .tc main_v0) = _
  after_results
  rfl

/-- THE RESULT of the kernel program. -/
theorem ker_value (c : Dev nD) : (dat2 (V3 m) c).arrAt 5 cfg2.N
    = y (m ((c : Thread nD τ).loc main_arg1)) (m ((c : Thread nD τ).loc main_arg0)) (m ((c : Thread nD τ).loc main_arg2)) (m ((c : Thread nD τ).loc main_arg3)) := by
  rw [final2]
  unfold yArr
  rw [V3_graph, V3_hs, V3_dinv, V3_bias]
  exact yOf4_eq_spec _ _ _ _

end Cert.KernelIdeal.Hand

end
-- ==== Proof.RefFeat.lean ====
import proofs.«168457_g2000706009674355_pallasbulk_102_19_alg».proof.Proof.Gen.ReferenceIdeal.Launch
import proofs.«168457_g2000706009674355_pallasbulk_102_19_alg».proof.Proof.Gen.ReferenceIdeal.Skeleton
import proofs.«168457_g2000706009674355_pallasbulk_102_19_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

/-! # The feature kernel's region (custom_call 0), at the contents `V` the region is entered with

The kernel reads, at grid point `t`, row block `t` of the features (window 0), the whole weight matrix
(window 1) and row block `t` of the degree scaling (window 2), and stores into row block `t` of its result
(window 3) the product `scale ⊙ (x · W)`: one store covering the block, so what it leaves there is a closed
function of the three blocks it read. -/

section Feat

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is `V`'s and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_x : Rect S512x256 := Rect.unit (s := S512x256) ![0, 0] S512x256.size inb_S512x256_S512x256_0_0
abbrev r0_w : Rect S256x256 := Rect.unit (s := S256x256) ![0, 0] S256x256.size inb_S256x256_S256x256_0_0
abbrev r0_d : Rect S512x1 := Rect.unit (s := S512x1) ![0, 0] S512x1.size inb_S512x1_S512x1_0_0

/-- The result window's staging buffer after the body, from the three input blocks: its one store. -/
def out0_3 (x0 : Vec F S512x256 .f32) (x1 : Vec F S256x256 .f32) (x2 : Vec F S512x1 .f32) : Vec F S512x256 .f32 :=
  View.canon [⟨r0_x, k0_pay1 (View.ld x0 r0_x) (View.ld x1 r0_w) (View.ld x2 r0_d)⟩]

/-- The store covers the buffer. -/
theorem cover0_3 (p0 : Vec F S512x256 .f32) (y : S512x256.Idx) :
    ∃ pc ∈ ([⟨r0_x, p0⟩] : List (View.Piece (Elt F) S512x256 .f32)), y ∈ pc.1.set :=
  View.cover_of_tiled [⟨r0_x, p0⟩] S512x256.size (by rfl) y

/-! ## The body's triple -/

set_option maxHeartbeats 1000000 in
/-- The kernel body on whole staging memrefs, the inputs' at read contents `x0`, `x1`, `x2` and the result's
    at anything, runs to the continuation holding the inputs' as they were and the result's at `out0_3` of them:
    the printed function is its skeleton, run operation by operation; the load of the result buffer before the
    store is dead. -/
theorem sound_kernel0 (c : Dev nD) (E : Set ℕ) (i : grid0.Coords)
    (arg1 : Memref sig .tc .vmem S512x256 .f32) (harg1 : arg1.IsWhole) (arg2 : Memref sig .tc .vmem S256x256 .f32) (harg2 : arg2.IsWhole)
    (arg3 : Memref sig .tc .vmem S512x1 .f32) (harg3 : arg3.IsWhole) (arg4 : Memref sig .tc .vmem S512x256 .f32) (harg4 : arg4.IsWhole)
    (x0 : Vec F S512x256 .f32) (x1 : Vec F S256x256 .f32) (x2 : Vec F S512x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gcn_feat_kernel i arg1 harg1 arg2 harg2 arg3 harg3 arg4 harg4) K := by
  simp only [cc0__gcn_feat_kernel_eq_skeleton]; unfold cc0__gcn_feat_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer at its block and the result's at `out0_3` of the three blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Feat

end Cert.ReferenceIdeal.Hand

end
-- ==== Proof.RefAggRuns.lean ====
import proofs.«168457_g2000706009674355_pallasbulk_102_19_alg».proof.Proof.Gen.ReferenceIdeal.Launch
import proofs.«168457_g2000706009674355_pallasbulk_102_19_alg».proof.Proof.Gen.ReferenceIdeal.Skeleton
import proofs.«168457_g2000706009674355_pallasbulk_102_19_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

/-! # The aggregation kernel's region (custom_call 1): what its three cases share

The grid is `[32, 16]`: point `t` is row block `t / 16` of the result at step `k = t % 16` of the contraction.
The body keeps an accumulator in a scratch buffer across the steps of one row block: at `k = 0` it stores zeros
into it; at every step it adds the product of the adjacency block (transposed) and the feature block; at `k = 15`
it stores `scale ⊙ acc + bias` into the result window, which is idle at every other step. -/

/-! ## The body's branch conditions -/

/-- The condition of the body's first `scf.if` (zero the accumulator), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second `scf.if` (store the result), from the grid coordinates. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the result window is idle -/

/-- Where the result is not stored the configuration calls window 4 idle, -/
theorem idleAt1_4 : ∀ t : Fin cfg1.N, ¬cond1_1 (grid1.coords t) → cfg1.idle 4 (grid1.coords t) = true := by decide +kernel
/-- and the pipeline does not write its block back there; -/
theorem noFlush1_4 : ∀ t : Fin cfg1.N, ¬cond1_1 (grid1.coords t) → (cfg1.win 4).flush t = false := by decide +kernel
/-- where it is stored the window is live. -/
theorem liveAt1_4 : ∀ t : Fin cfg1.N, cond1_1 (grid1.coords t) → cfg1.idle 4 (grid1.coords t) = false := by decide +kernel

/-! ## The memrefs the pipeline calls the body with -/

abbrev ms1_0 (t : Fin cfg1.N) : Memref sig .tc .vmem S512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x256 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev scM1 : Memref sig .tc .vmem S256x256 .f32 := Memref.whole cc1_scratch0
/-- The accumulator as a view: what it holds is stated through it. -/
abbrev VS1 : View sig .tc .vmem S256x256 .f32 := scM1.view
/-- One staging buffer of the result window, through which its contents are stated (the choice does not matter). -/
abbrev VO1_4 : View sig .tc .vmem S256x256 .f32 := (Memref.whole cc1_stg4_0 : Memref sig .tc .vmem S256x256 .f32).view

/-! ## The class invariant, the accumulator named -/

/-- The core's scoped buffers that are neither a staging buffer of this region nor its accumulator — the feature
    region's staging buffers —, each at some contents. -/
def rest7 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The scoped rest of this region: the feature region's staging buffers beside the accumulator. -/
theorem scoped1_split (c : Dev nD) :
    (iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1 fullShare d)) : sProp 𝕄) = iprop(rest7 c ∗ (∃ d, owns (c : Thread nD τ) scM1 fullShare d)) := by
  have h₁ : (iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1 fullShare d)) : sProp 𝕄) ⊢ iprop(rest7 c ∗ (∃ d, owns (c : Thread nD τ) scM1 fullShare d)) := by
    unfold rest7
    iintro ⟨H1, H2, H3, H4, H5, H6, H7, HS⟩
    isplitr [HS]
    · isplitl [H1]; · iexact H1
      isplitl [H2]; · iexact H2
      isplitl [H3]; · iexact H3
      isplitl [H4]; · iexact H4
      isplitl [H5]; · iexact H5
      isplitl [H6]; · iexact H6
      iexact H7
    · iexact HS
  have h₂ : (iprop(rest7 c ∗ (∃ d, owns (c : Thread nD τ) scM1 fullShare d)) : sProp 𝕄) ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1 fullShare d)) := by
    unfold rest7
    iintro ⟨⟨H1, H2, H3, H4, H5, H6, H7⟩, HS⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  exact BI.equiv_iff.mp ⟨h₁, h₂⟩

/-- The class invariant with the accumulator as a memref owned at some contents. -/
theorem PhiA1_eq (c : Dev nD) :
    (Pipeline.ΦA spec1 c : sProp 𝕄)
      = iprop(iprop(rest7 c ∗ (∃ d, owns (c : Thread nD τ) scM1 fullShare d)) ∗ (∃ r, prngReg c r)) := by
  unfold Pipeline.ΦA; rw [scopedRest1_eq, ← scoped1_split]; simp only [scM1, owns_whole]; try rfl

section Agg

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Agg

end Cert.ReferenceIdeal.Hand

end
-- ==== Proof.RefAggRunA.lean ====
import proofs.«168457_g2000706009674355_pallasbulk_102_19_alg».proof.Proof.RefAggRuns

-- membership in a rectangle of production extents: the elaborator's structural look recurses once per
-- coordinate of the long axes
set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- CASE A (`k = 0`: the accumulator zeroed, the result not stored). What the body's stores leave in the
    accumulator, as pieces (last first), WITH the proof that on whole memrefs — the adjacency and feature
    blocks' at their contents, the accumulator's at anything — the body runs to the continuation holding the
    two blocks as they were and the accumulator with its pieces written. The other windows' buffers are not
    touched in this case and stay with the caller. The pieces are the witness the run finds. -/
noncomputable def kernelRun1_A (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S256x1 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : cond1_0 i) (hc1 : ¬cond1_1 i)
    (x0 : Vec F S512x256 .f32) (x1 : Vec F S512x256 .f32) :
    { LS : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc1__gcn_agg_kernel i arg2 harg2 arg3 harg3 arg4 harg4 arg5 harg5 arg6 harg6 arg7 harg7) K } := by
  refine ⟨?_, fun E K => ?run⟩
  case run =>
    simp only [cc1__gcn_agg_kernel_eq_skeleton]; unfold cc1__gcn_agg_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.ReferenceIdeal.Hand

end
-- ==== Proof.RefAggRunB.lean ====
import proofs.«168457_g2000706009674355_pallasbulk_102_19_alg».proof.Proof.RefAggRunA

-- membership in a rectangle of production extents: the elaborator's structural look recurses once per
-- coordinate of the long axes
set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- CASE B (`0 < k < 15`: the accumulator carried, the result not stored). What the body's store leaves in the
    accumulator, as pieces, WITH the proof that on whole memrefs — the adjacency and feature blocks' at their
    contents, the accumulator's at what the step before left (`xs`) — the body runs to the continuation holding
    the two blocks as they were and the accumulator with its pieces written. -/
noncomputable def kernelRun1_B (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S256x1 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : ¬cond1_1 i)
    (x0 : Vec F S512x256 .f32) (x1 : Vec F S512x256 .f32) (xs : Vec F S256x256 .f32) :
    { LS : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg7 fullShare xs
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc1__gcn_agg_kernel i arg2 harg2 arg3 harg3 arg4 harg4 arg5 harg5 arg6 harg6 arg7 harg7) K } := by
  refine ⟨?_, fun E K => ?run⟩
  case run =>
    simp only [cc1__gcn_agg_kernel_eq_skeleton]; unfold cc1__gcn_agg_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.ReferenceIdeal.Hand

end
-- ==== Proof.RefAggRunC.lean ====
import proofs.«168457_g2000706009674355_pallasbulk_102_19_alg».proof.Proof.RefAggRunB

-- membership in a rectangle of production extents: the elaborator's structural look recurses once per
-- coordinate of the long axes
set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- CASE C (`k = 15`: the accumulator carried, the result stored). What the body's stores leave in the result
    window's buffer (`.1`) and in the accumulator (`.2.1`), as pieces, WITH the proof that on whole memrefs — the
    four inputs' at their contents, the result's at anything, the accumulator's at what the step before left
    (`xs`) — the body runs to the continuation holding the inputs as they were and the two buffers with their
    pieces written. -/
noncomputable def kernelRun1_C (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S256x1 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : cond1_1 i)
    (x0 : Vec F S512x256 .f32) (x1 : Vec F S512x256 .f32) (x2 : Vec F S256x1 .f32) (x3 : Vec F S1x256 .f32) (xs : Vec F S256x256 .f32) :
    Σ' (L4 : List (View.Piece (Elt F) S256x256 .f32)), { LS : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1__gcn_agg_kernel i arg2 harg2 arg3 harg3 arg4 harg4 arg5 harg5 arg6 harg6 arg7 harg7) K } := by
  refine ⟨?_, ?_, fun E K => ?run⟩
  case run =>
    simp only [cc1__gcn_agg_kernel_eq_skeleton]; unfold cc1__gcn_agg_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.ReferenceIdeal.Hand

end
-- ==== Proof.RefAgg.lean ====
import proofs.«168457_g2000706009674355_pallasbulk_102_19_alg».proof.Proof.RefAggRunC

-- membership in a rectangle of production extents: the elaborator's structural look recurses once per
-- coordinate of the long axes
set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

/-! # The aggregation kernel's region: what it leaves point by point, the proof data, the body obligation -/

section Agg

-- the TensorCore's buffer contents when the region is entered
variable (V : (c : Dev nD) → (b : Ref sig .tc) → Buf (Elt F) ((c : Thread nD τ).loc b))

/-! ## The three cases at a grid point: the run on the point's memrefs and blocks -/

/-- Case A at point `t`: the body on the point's staging memrefs and the accumulator, at the point's adjacency and
    feature blocks. -/
abbrev runA_at (c : Dev nD) (t : Fin cfg1.N) (hc0 : cond1_0 (grid1.coords t)) (hc1 : ¬cond1_1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t)
/-- Case B at point `t`, the accumulator entered at `xs`. -/
abbrev runB_at (c : Dev nD) (t : Fin cfg1.N) (hc0 : ¬cond1_0 (grid1.coords t)) (hc1 : ¬cond1_1 (grid1.coords t)) (xs : Vec F S256x256 .f32) :=
  kernelRun1_B (F := F) c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) xs
/-- Case C at point `t`, the accumulator entered at `xs`. -/
abbrev runC_at (c : Dev nD) (t : Fin cfg1.N) (hc0 : ¬cond1_0 (grid1.coords t)) (hc1 : cond1_1 (grid1.coords t)) (xs : Vec F S256x256 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) xs

/-- Case A's pieces for the accumulator cover it (the zeroing store and the accumulating store, each whole). -/
theorem scover1_A (c : Dev nD) (t : Fin cfg1.N) (hc0 : cond1_0 (grid1.coords t)) (hc1 : ¬cond1_1 (grid1.coords t)) (y : S256x256.Idx) :
    ∃ pc ∈ (runA_at V c t hc0 hc1).1, y ∈ pc.1.set :=
  View.cover_of_tiledL (runA_at V c t hc0 hc1).1 S256x256.size (by sl_kernel_rfl) y
/-- What case A leaves in the accumulator: its pieces read back. -/
def sout1_A (c : Dev nD) (t : Fin cfg1.N) (hc0 : cond1_0 (grid1.coords t)) (hc1 : ¬cond1_1 (grid1.coords t)) : Vec F S256x256 .f32 :=
  VS1.read (Elt F) (VS1.writes (Elt F) VS1.junk (runA_at V c t hc0 hc1).1)

/-- Case B's piece for the accumulator covers it. -/
theorem scover1_B (c : Dev nD) (t : Fin cfg1.N) (hc0 : ¬cond1_0 (grid1.coords t)) (hc1 : ¬cond1_1 (grid1.coords t)) (xs : Vec F S256x256 .f32) (y : S256x256.Idx) :
    ∃ pc ∈ (runB_at V c t hc0 hc1 xs).1, y ∈ pc.1.set :=
  View.cover_of_tiledL (runB_at V c t hc0 hc1 xs).1 S256x256.size (by sl_kernel_rfl) y
/-- What case B leaves in the accumulator. -/
def sout1_B (c : Dev nD) (t : Fin cfg1.N) (hc0 : ¬cond1_0 (grid1.coords t)) (hc1 : ¬cond1_1 (grid1.coords t)) (xs : Vec F S256x256 .f32) : Vec F S256x256 .f32 :=
  VS1.read (Elt F) (VS1.writes (Elt F) VS1.junk (runB_at V c t hc0 hc1 xs).1)

/-- Case C's piece for the result window's buffer covers it. -/
theorem cover1_C_4 (c : Dev nD) (t : Fin cfg1.N) (hc0 : ¬cond1_0 (grid1.coords t)) (hc1 : cond1_1 (grid1.coords t)) (xs : Vec F S256x256 .f32) (y : S256x256.Idx) :
    ∃ pc ∈ (runC_at V c t hc0 hc1 xs).1, y ∈ pc.1.set :=
  View.cover_of_tiledL (runC_at V c t hc0 hc1 xs).1 S256x256.size (by sl_kernel_rfl) y
/-- What case C leaves in the result window's staging buffer. -/
def out1_C_4 (c : Dev nD) (t : Fin cfg1.N) (hc0 : ¬cond1_0 (grid1.coords t)) (hc1 : cond1_1 (grid1.coords t)) (xs : Vec F S256x256 .f32) : Vec F S256x256 .f32 :=
  VO1_4.read (Elt F) (VO1_4.writes (Elt F) VO1_4.junk (runC_at V c t hc0 hc1 xs).1)
/-- Case C's piece for the accumulator covers it. -/
theorem scover1_C (c : Dev nD) (t : Fin cfg1.N) (hc0 : ¬cond1_0 (grid1.coords t)) (hc1 : cond1_1 (grid1.coords t)) (xs : Vec F S256x256 .f32) (y : S256x256.Idx) :
    ∃ pc ∈ (runC_at V c t hc0 hc1 xs).2.1, y ∈ pc.1.set :=
  View.cover_of_tiledL (runC_at V c t hc0 hc1 xs).2.1 S256x256.size (by sl_kernel_rfl) y
/-- What case C leaves in the accumulator. -/
def sout1_C (c : Dev nD) (t : Fin cfg1.N) (hc0 : ¬cond1_0 (grid1.coords t)) (hc1 : cond1_1 (grid1.coords t)) (xs : Vec F S256x256 .f32) : Vec F S256x256 .f32 :=
  VS1.read (Elt F) (VS1.writes (Elt F) VS1.junk (runC_at V c t hc0 hc1 xs).2.1)

/-- Where the result window is idle nothing is stored into its buffer: a placeholder nothing consults, since at
    those points the window is neither written back nor read at the next point. -/
def out1_idle : Vec F S256x256 .f32 := VO1_4.read (Elt F) VO1_4.junk

/-! ## What the result window's buffer and the accumulator hold after each point -/

/-- THE ACCUMULATION. What the result window's staging buffer (first component) and the accumulator (second) hold
    after the body at position `n`: the case the closed forms select at `n`, run at the point's memrefs and input
    blocks, the accumulator entered at what position `n - 1` left in it. No point is both a first and a last step. -/
def outsAt1 (c : Dev nD) : (n : ℕ) → n < cfg1.N → Vec F S256x256 .f32 × Vec F S256x256 .f32
  | 0, hn => (out1_idle, sout1_A V c ⟨0, hn⟩ ((hcond1_0 ⟨0, hn⟩).mpr (Nat.zero_mod _)) (fun h => (fun h => by (try dsimp only at h); omega) ((hcond1_1 ⟨0, hn⟩).mp h)))
  | n + 1, hn =>
    if h0 : (n + 1) % 16 = 0 then
      if h1 : (n + 1) % 16 = 15 then
        False.elim (by omega)
      else
        (out1_idle, sout1_A V c ⟨n + 1, hn⟩ ((hcond1_0 ⟨n + 1, hn⟩).mpr h0) (fun h => h1 ((hcond1_1 ⟨n + 1, hn⟩).mp h)))
    else
      if h1 : (n + 1) % 16 = 15 then
        (out1_C_4 V c ⟨n + 1, hn⟩ (fun h => h0 ((hcond1_0 ⟨n + 1, hn⟩).mp h)) ((hcond1_1 ⟨n + 1, hn⟩).mpr h1) (outsAt1 c n (Nat.lt_of_succ_lt hn)).2,
         sout1_C V c ⟨n + 1, hn⟩ (fun h => h0 ((hcond1_0 ⟨n + 1, hn⟩).mp h)) ((hcond1_1 ⟨n + 1, hn⟩).mpr h1) (outsAt1 c n (Nat.lt_of_succ_lt hn)).2)
      else
        (out1_idle, sout1_B V c ⟨n + 1, hn⟩ (fun h => h0 ((hcond1_0 ⟨n + 1, hn⟩).mp h)) (fun h => h1 ((hcond1_1 ⟨n + 1, hn⟩).mp h)) (outsAt1 c n (Nat.lt_of_succ_lt hn)).2)

/-- `outsAt1` at a point of case A. -/
theorem outsAt1_A (c : Dev nD) (t : Fin cfg1.N) (h0 : t.val % 16 = 0) (h1 : ¬t.val % 16 = 15) :
    outsAt1 V c t.val t.isLt = (out1_idle, sout1_A V c t ((hcond1_0 t).mpr h0) (fun h => h1 ((hcond1_1 t).mp h))) := by
  obtain ⟨n, hn⟩ := t
  cases n with
  | zero => exact rfl
  | succ n => exact (dif_pos h0).trans ((dif_neg h1).trans rfl)

/-- `outsAt1` at a point of case B: over what the point before left in the accumulator. -/
theorem outsAt1_B (c : Dev nD) (t : Fin cfg1.N) (h0 : ¬t.val % 16 = 0) (h1 : ¬t.val % 16 = 15) :
    outsAt1 V c t.val t.isLt = (out1_idle, sout1_B V c t (fun h => h0 ((hcond1_0 t).mp h)) (fun h => h1 ((hcond1_1 t).mp h)) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left in the accumulator. -/
theorem outsAt1_C (c : Dev nD) (t : Fin cfg1.N) (h0 : ¬t.val % 16 = 0) (h1 : t.val % 16 = 15) :
    outsAt1 V c t.val t.isLt = (out1_C_4 V c t (fun h => h0 ((hcond1_0 t).mp h)) ((hcond1_1 t).mpr h1) (outsAt1 V c (t.val - 1) (Nat.lt_of_le_of_lt (Nat.sub_le _ _) t.isLt)).2,
      sout1_C V c t (fun h => h0 ((hcond1_0 t).mp h)) ((hcond1_1 t).mpr h1) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried -/

/-- The invariant before position `n`: before the first point the class's (every scoped buffer that is no staging
    buffer of the region at anything, the generator register at some state); afterwards the same with the accumulator
    at what the point before left in it. -/
def PhiS (c : Dev nD) : (n : ℕ) → n ≤ cfg1.N → sProp 𝕄
  | 0, _ => Pipeline.ΦA spec1 c
  | n + 1, hn => iprop(iprop(rest7 c ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(rest7 c ∗ owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(iprop(rest7 c ∗ owns (c : Thread nD τ) scM1 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them; after the body at point `t` each
    input's buffer at its block and the result window's at `outsAt1`'s first component; the invariant `PhiS`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The input windows are never idle: what the body leaves in their buffers is stated outright. -/
theorem leaves1_0 (c : Dev nD) (t : Fin cfg1.N) : (dat1 V c).leavesExact 0 t = owns (c : Thread nD τ) (ms1_0 t) fullShare (iblk1 V c 0 t) := by
  rw [← after1_0]
theorem leaves1_1 (c : Dev nD) (t : Fin cfg1.N) : (dat1 V c).leavesExact 1 t = owns (c : Thread nD τ) (ms1_1 t) fullShare (iblk1 V c 1 t) := by
  rw [← after1_1]
theorem leaves1_2 (c : Dev nD) (t : Fin cfg1.N) : (dat1 V c).leavesExact 2 t = owns (c : Thread nD τ) (ms1_2 t) fullShare (iblk1 V c 2 t) := by
  rw [← after1_2]
theorem leaves1_3 (c : Dev nD) (t : Fin cfg1.N) : (dat1 V c).leavesExact 3 t = owns (c : Thread nD τ) (ms1_3 t) fullShare (iblk1 V c 3 t) := by
  rw [← after1_3]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in;
    the invariant hands the body the accumulator at what the point before left (at anything at the very first point,
    and at a first step, which overwrites it) and takes it back at this point's contents; where the result window is
    idle its buffer goes back as it came; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  have hN : t.val < 512 := lt_of_lt_of_eq t.isLt (show cfg1.N = 512 from N_1)
  by_cases h0 : t.val % 16 = 0
  · by_cases h1 : t.val % 16 = 15
    · exfalso; omega
    · rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A; (try dsimp only)
      by_cases hz : t.val = 0
      · rw [PhiS_castSucc V c t, PhiS_zero V c _ _ hz, PhiA1_eq]
        iintro ⟨⟨⟨HR, HS⟩, Hg⟩, Ho, ⟨%d0, H0⟩, ⟨%d1, H1⟩, ⟨%d2, H2⟩, ⟨%d3, H3⟩, ⟨%d4, H4⟩⟩
        iapply ((runA_at V c t ((hcond1_0 t).mpr h0) (fun h => h1 ((hcond1_1 t).mp h))).2 Set.univ _)
        isplitl [H0]; · iexact H0
        isplitl [H1]; · iexact H1
        isplitl [HS]; · iexact HS
        iintro ⟨H0, H1, ⟨%es, HS⟩⟩
        isplitl [HR HS Hg]
        · isplitl [HR HS]
          · isplitl [HR]; · iexact HR
            unfold owns; iexists _; isplitr
            swap; · iexact HS
            ipureintro; exact View.read_writes_of_cover _ _ _ _ _ (scover1_A V c t _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HR, HS⟩, Hg⟩, Ho, ⟨%d0, H0⟩, ⟨%d1, H1⟩, ⟨%d2, H2⟩, ⟨%d3, H3⟩, ⟨%d4, H4⟩⟩
        iapply ((runA_at V c t ((hcond1_0 t).mpr h0) (fun h => h1 ((hcond1_1 t).mp h))).2 Set.univ _)
        isplitl [H0]; · iexact H0
        isplitl [H1]; · iexact H1
        isplitl [HS]; · iexists _; iexact HS
        iintro ⟨H0, H1, ⟨%es, HS⟩⟩
        isplitl [HR HS Hg]
        · isplitl [HR HS]
          · isplitl [HR]; · iexact HR
            unfold owns; iexists _; isplitr
            swap; · iexact HS
            ipureintro; exact View.read_writes_of_cover _ _ _ _ _ (scover1_A V c t _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 16 = 15
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C; (try dsimp only)
      rw [PhiS_castSucc V c t, PhiS_pos V c _ _ hz]
      iintro ⟨⟨⟨HR, HS⟩, Hg⟩, Ho, ⟨%d0, H0⟩, ⟨%d1, H1⟩, ⟨%d2, H2⟩, ⟨%d3, H3⟩, ⟨%d4, H4⟩⟩
      iapply ((runC_at V c t (fun h => h0 ((hcond1_0 t).mp h)) ((hcond1_1 t).mpr h1) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HR HS Hg]
      · isplitl [HR HS]
        · isplitl [HR]; · iexact HR
          unfold owns; iexists _; isplitr
          swap; · iexact HS
          ipureintro; exact View.read_writes_of_cover _ _ _ _ _ (scover1_C V c t _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 V c t _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS_castSucc V c t, PhiS_pos V c _ _ hz]
      iintro ⟨⟨⟨HR, HS⟩, Hg⟩, Ho, ⟨%d0, H0⟩, ⟨%d1, H1⟩, ⟨%d2, H2⟩, ⟨%d3, H3⟩, ⟨%d4, H4⟩⟩
      iapply ((runB_at V c t (fun h => h0 ((hcond1_0 t).mp h)) (fun h => h1 ((hcond1_1 t).mp h)) _).2 Set.univ _)
      isplitl [H0]; · iexact H0
      isplitl [H1]; · iexact H1
      isplitl [HS]; · iexact HS
      iintro ⟨H0, H1, ⟨%es, HS⟩⟩
      isplitl [HR HS Hg]
      · isplitl [HR HS]
        · isplitl [HR]; · iexact HR
          unfold owns; iexists _; isplitr
          swap; · iexact HS
          ipureintro; exact View.read_writes_of_cover _ _ _ _ _ (scover1_B V c t _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR, HS⟩, Hg⟩
  isplitl [HR HS]
  · isplitl [HR]; · iexact HR
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 512 := N_1; omega)

end Agg

end Cert.ReferenceIdeal.Hand

end
-- ==== Proof.RefRun.lean ====
import proofs.«168457_g2000706009674355_pallasbulk_102_19_alg».proof.Proof.RefFeat
import proofs.«168457_g2000706009674355_pallasbulk_102_19_alg».proof.Proof.RefAgg

-- membership in a rectangle of production extents: the elaborator's structural look recurses once per
-- coordinate of the long axes
set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

/-! # THE RUN: @main's segments from the launch to the return

@main is one stretch of host operations, then the feature region, then the aggregation region. The buffer contents at
each boundary are a fold from the launch memory: the host operations' results, then each region's arrays at what its
write-backs leave, every other buffer as the region found it. -/

variable (m : (ℓ : Loc nD τ sig) → Buf (Elt F) ℓ)

/-- Core `c`'s buffers at launch. -/
abbrev W0 : Dev nD → Valuation τ sig (Elt F) := fun c b => m (c, b)
/-- After the host operations (the feature region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the feature region's exit: its arrays at what the pipeline leaves (the inputs as entered, the result's
    write-backs folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the aggregation region's entry: no host operation lies between). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the aggregation region's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched: no host operation writes one, and no region has one among its arrays -/

/-- A buffer no host operation writes holds after them what it held at launch. -/
theorem W1_of_not_written (c : Dev nD) (r : Ref sig .tc)
    (h : r ∉ ([main_call0_c, main_call0_c_0, main_call0_c_1, main_call0_cst, main_call0_v0, main_call0_cst_2, main_call0_v1, main_call0_v2, main_call0_v3, main_call0_cst_3, main_call0_call0_v0, main_call0_call0_v1, main_call0_v4, main_call0_cst_4, main_call0_v5, main_call0_v6, main_call0_cst_5, main_call0_v7, main_call0_v8, main_call0_cst_6, main_call0_v9, main_call0_v10, main_call0_cst_7, main_call0_v11, main_call0_c_8, main_call0_v12, main_call0_v13, main_call0_cst_9, main_call0_v14, main_call0_c_10, main_call0_v15, main_call0_v16] : List (Ref sig .tc))) :
    W1 m c (Proc.devRef .tc r) = W0 m c (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.mem_nil_iff, or_false, not_or] at h
    obtain ⟨h1, h2, h3, h4, h5, h6, h7, h8, h9, h10, h11, h12, h13, h14, h15, h16, h17, h18, h19, h20, h21, h22, h23, h24, h25, h26, h27, h28, h29, h30, h31, h32⟩ := h
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    all_goals exact StableHlo.devRef_ne_of_ne (by assumption)))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := W1_of_not_written m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of_not_written m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of_not_written m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of_not_written m c main_arg3 (by decide)
    _ = m ((c : Thread nD τ).loc main_arg3) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as segments -/

-- a library lemma stated over the pinned configuration unifies with the printed one only when unification may unfold
-- plain definitions in a metavariable's type
set_option backward.isDefEq.respectTransparency.types false in
/-- REGION 0 (custom_call 0) over the thread state: entered from every unscoped buffer at `W1`, left at `W2`.
    Its arrays are split out of the unscoped buffers and put back at the exit contents; the generator register goes
    into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 (custom_call 1) over the thread state: entered from every unscoped buffer at `W2`, left at `W3`.
    Its arrays are split out of the unscoped buffers and put back at the exit contents; the generator register goes
    into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main IS the run of the segments. -/
theorem main_run (c : Dev nD) : main (F := F) c = Pipeline.Seg.run (segs m) := (main_chain c).trans (by chain_rfl)

/-- The buffer contents after the last region, on core `c`. -/
def Wend (m : (ℓ : Loc nD τ sig) → Buf (Elt F) ℓ) (ρ : Dev nD → PrngReg) (c : Dev nD) : Valuation τ sig (Elt F) := W3 m c

variable (ρ : Dev nD → PrngReg)

-- the launch theorem's implicit arguments are found by unifying its conclusion with this one, which takes unfolding plain
-- definitions in a metavariable's type
set_option backward.isDefEq.respectTransparency.types false in
/-- THE RUN. At the compiled mesh, from any memory with zero counters, every weakly fair execution of @main on the
    TensorCores terminates, nothing faulting, and every final state has every unscoped buffer of every core at the last
    boundary's contents `Wend`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Wend m ρ c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- Each argument array ends as launched. -/
theorem Wend_main_arg0 (c : Dev nD) : Wend m ρ c (Proc.devRef .tc main_arg0) = m ((c : Thread nD τ).loc main_arg0) :=
  W3_main_arg0 m c
theorem Wend_main_arg1 (c : Dev nD) : Wend m ρ c (Proc.devRef .tc main_arg1) = m ((c : Thread nD τ).loc main_arg1) :=
  W3_main_arg1 m c
theorem Wend_main_arg2 (c : Dev nD) : Wend m ρ c (Proc.devRef .tc main_arg2) = m ((c : Thread nD τ).loc main_arg2) :=
  W3_main_arg2 m c
theorem Wend_main_arg3 (c : Dev nD) : Wend m ρ c (Proc.devRef .tc main_arg3) = m ((c : Thread nD τ).loc main_arg3) :=
  W3_main_arg3 m c

/-- The result array (the array of the aggregation region's window 4, its one output window) ends at what that
    region's write-backs leave in it. -/
theorem Wend_result (c : Dev nD) : Wend m ρ c (Proc.devRef .tc main_v0) = (dat1 (V2 m) c).arrAt 4 cfg1.N :=
  W3_arr m c 4

end Cert.ReferenceIdeal.Hand

end
-- ==== Proof.LibScatterSet.lean ====
/-
  General facts about the host scatter whose body returns the update (`x.at[idx].set(v)`): the fold over the update positions
  in row-major order leaves, at an element no update position targets, the operand's value; and at an element some position
  targets, the update of the LAST such position.
-/
import Idealize.ShloMosaic.PureOps

namespace Cert.Proof.LibScatter

open Idealize.ShloMosaic

section Fold
variable {N I α : Type} [DecidableEq I]

/-- One step of the fold: position `n`, if it targets an element, sets it. -/
def step (tgt : N → Option I) (val : N → α) (r : I → α) (n : N) : I → α :=
  match tgt n with
  | some i => fun i' => if i' = i then val n else r i'
  | none => r

theorem step_hit (tgt : N → Option I) (val : N → α) (r : I → α) (n : N) (i : I) (h : tgt n = some i) : step tgt val r n i = val n := by
  unfold step; rw [h]; exact if_pos rfl

theorem step_miss (tgt : N → Option I) (val : N → α) (r : I → α) (n : N) (i : I) (h : tgt n ≠ some i) : step tgt val r n i = r i := by
  unfold step
  cases ht : tgt n with
  | none => rfl
  | some j => exact if_neg fun e => h (by rw [ht, e])

theorem foldl_miss (tgt : N → Option I) (val : N → α) (i : I) :
    ∀ (l : List N) (r : I → α), (∀ n ∈ l, tgt n ≠ some i) → l.foldl (step tgt val) r i = r i
  | [], _, _ => rfl
  | n :: l, r, h => by
    rw [List.foldl_cons, foldl_miss tgt val i l _ fun n' hn' => h n' (List.mem_cons_of_mem _ hn')]
    exact step_miss tgt val r n i (h n List.mem_cons_self)

theorem foldl_last (tgt : N → Option I) (val : N → α) (i : I) (l1 l2 : List N) (n : N) (r : I → α)
    (hn : tgt n = some i) (h2 : ∀ n' ∈ l2, tgt n' ≠ some i) : (l1 ++ n :: l2).foldl (step tgt val) r i = val n := by
  rw [List.foldl_append, List.foldl_cons, foldl_miss tgt val i l2 _ h2]
  exact step_hit tgt val _ n i hn

end Fold

section Scatter
variable {α : Type} {s si u : Shape} {w : Nat}

theorem scatter_eq_foldl (d : ScatterDims s si u) (x : s.Idx → α) (idx : IVec si w) (upd : u.Idx → α) :
    Host.scatter d (fun _ b => b) x idx upd
      = (List.finRange u.numel).foldl (step (fun n => d.resultIdx? (u.rowMajor.symm n) idx) (fun n => upd (u.rowMajor.symm n))) x := by
  unfold Host.scatter
  congr 1
  funext r n
  unfold step
  beta_reduce
  cases d.resultIdx? (u.rowMajor.symm n) idx <;> rfl

/-- An element no update position targets keeps the operand's value. -/
theorem scatter_set_miss (d : ScatterDims s si u) (x : s.Idx → α) (idx : IVec si w) (upd : u.Idx → α) (i : s.Idx)
    (h : ∀ j : u.Idx, d.resultIdx? j idx ≠ some i) : Host.scatter d (fun _ b => b) x idx upd i = x i := by
  rw [scatter_eq_foldl]
  exact foldl_miss _ _ i _ x fun n _ => h _

/-- An element targeted by the update position `j` and by no later one (in row-major order) gets `j`'s update. -/
theorem scatter_set_last (d : ScatterDims s si u) (x : s.Idx → α) (idx : IVec si w) (upd : u.Idx → α) (i : s.Idx) (j : u.Idx)
    (hj : d.resultIdx? j idx = some i) (hlater : ∀ j' : u.Idx, (u.rowMajor j).val < (u.rowMajor j').val → d.resultIdx? j' idx ≠ some i) :
    Host.scatter d (fun _ b => b) x idx upd i = upd j := by
  rw [scatter_eq_foldl]
  obtain ⟨l1, l2, hl⟩ := List.append_of_mem (List.mem_finRange (u.rowMajor j))
  have hsorted : (List.finRange u.numel).Pairwise (· < ·) := List.pairwise_lt_finRange _
  rw [hl] at hsorted ⊢
  have h2 : ∀ n' ∈ l2, d.resultIdx? (u.rowMajor.symm n') idx ≠ some i := by
    intro n' hn'
    have hlt : u.rowMajor j < n' := by
      have := (List.pairwise_append.mp hsorted).2.1
      exact (List.pairwise_cons.mp this).1 n' hn'
    exact hlater _ (by rw [Equiv.apply_symm_apply]; exact hlt)
  have := foldl_last (fun n => d.resultIdx? (u.rowMajor.symm n) idx) (fun n => upd (u.rowMajor.symm n)) i l1 l2 (u.rowMajor j) x
    (by rw [Equiv.symm_apply_apply]; exact hj) h2
  rw [this, Equiv.symm_apply_apply]

end Scatter

end Cert.Proof.LibScatter
-- ==== Proof.RefValScatter.lean ====
import proofs.«168457_g2000706009674355_pallasbulk_102_19_alg».proof.Proof.Gen.ReferenceIdeal
import proofs.«168457_g2000706009674355_pallasbulk_102_19_alg».proof.Proof.LibScatterSet
import Idealize.ShloMosaic.Lib.ValueIdx

set_option maxRecDepth 16384

noncomputable section

open scoped BigOperators

namespace Cert.ReferenceIdeal.Hand

open Idealize.ShloMosaic Idealize.ShloMosaic.TcCoe Idealize.ShloMosaic.ValueIdx
open Cert.ReferenceIdeal.Gen

open Cert.Proof.LibScatter

/-! # The host program's scatters, read

Every scatter of the host stretch has a zero start index and one window: three overwrite a whole matrix with the
update; one lays a vector as the one row of a one-row matrix, one as the one column of a one-column matrix. -/

theorem start_S8192x256 (j : S8192x256.Idx) (idx : IVec S0 32) (a : Fin 2) : scatter_S8192x256_S0_S8192x256_01_n_n_0.start j idx a = 0 := by
  unfold ScatterDims.start
  exact dif_neg (by simp [scatter_S8192x256_S0_S8192x256_01_n_n_0])
theorem window_S8192x256 (j : S8192x256.Idx) (a : Fin 2) : scatter_S8192x256_S0_S8192x256_01_n_n_0.window j a = (j a).val := by
  match a with
  | ⟨0, _⟩ => rfl
  | ⟨1, _⟩ => rfl
theorem resultIdx_S8192x256 (j : S8192x256.Idx) (idx : IVec S0 32) : scatter_S8192x256_S0_S8192x256_01_n_n_0.resultIdx? j idx = some j := by
  unfold ScatterDims.resultIdx?
  have h : ∀ a, 0 ≤ scatter_S8192x256_S0_S8192x256_01_n_n_0.start j idx a + scatter_S8192x256_S0_S8192x256_01_n_n_0.window j a ∧ scatter_S8192x256_S0_S8192x256_01_n_n_0.start j idx a + scatter_S8192x256_S0_S8192x256_01_n_n_0.window j a < S8192x256.size a := by
    intro a; rw [start_S8192x256, window_S8192x256]; have := (j a).isLt; omega
  rw [dif_pos h]
  congr 1; funext a; apply Fin.ext
  show (scatter_S8192x256_S0_S8192x256_01_n_n_0.start j idx a + scatter_S8192x256_S0_S8192x256_01_n_n_0.window j a).toNat = (j a).val
  rw [start_S8192x256, window_S8192x256]; omega
/-- A scatter whose one update window is the whole operand overwrites it: the result is the update. -/
theorem scatter_S8192x256 {α : Type} (x : S8192x256.Idx → α) (idx : IVec S0 32) (upd : S8192x256.Idx → α) :
    Host.scatter scatter_S8192x256_S0_S8192x256_01_n_n_0 (fun _ b => b) x idx upd = upd := by
  funext i
  refine scatter_set_last _ x idx upd i i (resultIdx_S8192x256 i idx) (fun j' hlt h => ?_)
  rw [resultIdx_S8192x256] at h
  have : j' = i := Option.some.inj h
  subst this; exact absurd hlt (lt_irrefl _)

theorem start_S8192x8192 (j : S8192x8192.Idx) (idx : IVec S0 32) (a : Fin 2) : scatter_S8192x8192_S0_S8192x8192_01_n_n_0.start j idx a = 0 := by
  unfold ScatterDims.start
  exact dif_neg (by simp [scatter_S8192x8192_S0_S8192x8192_01_n_n_0])
theorem window_S8192x8192 (j : S8192x8192.Idx) (a : Fin 2) : scatter_S8192x8192_S0_S8192x8192_01_n_n_0.window j a = (j a).val := by
  match a with
  | ⟨0, _⟩ => rfl
  | ⟨1, _⟩ => rfl
theorem resultIdx_S8192x8192 (j : S8192x8192.Idx) (idx : IVec S0 32) : scatter_S8192x8192_S0_S8192x8192_01_n_n_0.resultIdx? j idx = some j := by
  unfold ScatterDims.resultIdx?
  have h : ∀ a, 0 ≤ scatter_S8192x8192_S0_S8192x8192_01_n_n_0.start j idx a + scatter_S8192x8192_S0_S8192x8192_01_n_n_0.window j a ∧ scatter_S8192x8192_S0_S8192x8192_01_n_n_0.start j idx a + scatter_S8192x8192_S0_S8192x8192_01_n_n_0.window j a < S8192x8192.size a := by
    intro a; rw [start_S8192x8192, window_S8192x8192]; have := (j a).isLt; omega
  rw [dif_pos h]
  congr 1; funext a; apply Fin.ext
  show (scatter_S8192x8192_S0_S8192x8192_01_n_n_0.start j idx a + scatter_S8192x8192_S0_S8192x8192_01_n_n_0.window j a).toNat = (j a).val
  rw [start_S8192x8192, window_S8192x8192]; omega
/-- A scatter whose one update window is the whole operand overwrites it: the result is the update. -/
theorem scatter_S8192x8192 {α : Type} (x : S8192x8192.Idx → α) (idx : IVec S0 32) (upd : S8192x8192.Idx → α) :
    Host.scatter scatter_S8192x8192_S0_S8192x8192_01_n_n_0 (fun _ b => b) x idx upd = upd := by
  funext i
  refine scatter_set_last _ x idx upd i i (resultIdx_S8192x8192 i idx) (fun j' hlt h => ?_)
  rw [resultIdx_S8192x8192] at h
  have : j' = i := Option.some.inj h
  subst this; exact absurd hlt (lt_irrefl _)

theorem start_S256x256 (j : S256x256.Idx) (idx : IVec S0 32) (a : Fin 2) : scatter_S256x256_S0_S256x256_01_n_n_0.start j idx a = 0 := by
  unfold ScatterDims.start
  exact dif_neg (by simp [scatter_S256x256_S0_S256x256_01_n_n_0])
theorem window_S256x256 (j : S256x256.Idx) (a : Fin 2) : scatter_S256x256_S0_S256x256_01_n_n_0.window j a = (j a).val := by
  match a with
  | ⟨0, _⟩ => rfl
  | ⟨1, _⟩ => rfl
theorem resultIdx_S256x256 (j : S256x256.Idx) (idx : IVec S0 32) : scatter_S256x256_S0_S256x256_01_n_n_0.resultIdx? j idx = some j := by
  unfold ScatterDims.resultIdx?
  have h : ∀ a, 0 ≤ scatter_S256x256_S0_S256x256_01_n_n_0.start j idx a + scatter_S256x256_S0_S256x256_01_n_n_0.window j a ∧ scatter_S256x256_S0_S256x256_01_n_n_0.start j idx a + scatter_S256x256_S0_S256x256_01_n_n_0.window j a < S256x256.size a := by
    intro a; rw [start_S256x256, window_S256x256]; have := (j a).isLt; omega
  rw [dif_pos h]
  congr 1; funext a; apply Fin.ext
  show (scatter_S256x256_S0_S256x256_01_n_n_0.start j idx a + scatter_S256x256_S0_S256x256_01_n_n_0.window j a).toNat = (j a).val
  rw [start_S256x256, window_S256x256]; omega
/-- A scatter whose one update window is the whole operand overwrites it: the result is the update. -/
theorem scatter_S256x256 {α : Type} (x : S256x256.Idx → α) (idx : IVec S0 32) (upd : S256x256.Idx → α) :
    Host.scatter scatter_S256x256_S0_S256x256_01_n_n_0 (fun _ b => b) x idx upd = upd := by
  funext i
  refine scatter_set_last _ x idx upd i i (resultIdx_S256x256 i idx) (fun j' hlt h => ?_)
  rw [resultIdx_S256x256] at h
  have : j' = i := Option.some.inj h
  subst this; exact absurd hlt (lt_irrefl _)

/-! ## A vector as the row of a one-row matrix -/

theorem start_row (j : S256.Idx) (idx : IVec S1 32) (hidx : ∀ k, idx k = 0#32) (a : Fin 2) :
    scatter_S1x256_S1_S256_0_0_0_0.start j idx a = 0 := by
  match a with
  | ⟨0, _⟩ =>
    unfold ScatterDims.start
    rw [dif_pos (by simp [scatter_S1x256_S1_S256_0_0_0_0]), hidx]; rfl
  | ⟨1, _⟩ =>
    unfold ScatterDims.start
    exact dif_neg (by simp [scatter_S1x256_S1_S256_0_0_0_0])
theorem window_row (j : S256.Idx) (a : Fin 2) :
    scatter_S1x256_S1_S256_0_0_0_0.window j a = match a with | ⟨0, _⟩ => 0 | ⟨1, _⟩ => (j 0).val := by
  match a with
  | ⟨0, _⟩ => rfl
  | ⟨1, _⟩ => rfl
theorem resultIdx_row (j : S256.Idx) (idx : IVec S1 32) (hidx : ∀ k, idx k = 0#32) :
    scatter_S1x256_S1_S256_0_0_0_0.resultIdx? j idx = some (ix2 (0 : Fin 1) (j 0)) := by
  unfold ScatterDims.resultIdx?
  have h : ∀ a, 0 ≤ scatter_S1x256_S1_S256_0_0_0_0.start j idx a + scatter_S1x256_S1_S256_0_0_0_0.window j a
      ∧ scatter_S1x256_S1_S256_0_0_0_0.start j idx a + scatter_S1x256_S1_S256_0_0_0_0.window j a < S1x256.size a := by
    intro a
    match a with
    | ⟨0, _⟩ =>
      rw [start_row j idx hidx]
      show (0 : ℤ) ≤ 0 + ((0 : ℕ) : ℤ) ∧ (0 : ℤ) + ((0 : ℕ) : ℤ) < ((1 : ℕ) : ℤ)
      omega
    | ⟨1, _⟩ =>
      rw [start_row j idx hidx]
      show (0 : ℤ) ≤ 0 + (((j 0).val : ℕ) : ℤ) ∧ (0 : ℤ) + (((j 0).val : ℕ) : ℤ) < ((256 : ℕ) : ℤ)
      have : (j 0).val < 256 := (j 0).isLt; omega
  rw [dif_pos h]
  congr 1; funext a; apply Fin.ext
  show (scatter_S1x256_S1_S256_0_0_0_0.start j idx a + scatter_S1x256_S1_S256_0_0_0_0.window j a).toNat = _
  rw [start_row j idx hidx]
  match a with
  | ⟨0, _⟩ => rfl
  | ⟨1, _⟩ => show ((0 : ℤ) + (((j 0).val : ℕ) : ℤ)).toNat = (j 0).val; omega
/-- The scatter of a vector into row 0 of a one-row matrix reads, at (0, f), the vector at f. -/
theorem scatter_row {α : Type} (x : S1x256.Idx → α) (idx : IVec S1 32) (hidx : ∀ k, idx k = 0#32) (upd : S256.Idx → α) (u : Fin 1) (f : Fin 256) :
    Host.scatter scatter_S1x256_S1_S256_0_0_0_0 (fun _ b => b) x idx upd (ix2 u f) = upd (ix1 f) := by
  obtain rfl : u = 0 := Subsingleton.elim _ _
  refine scatter_set_last _ x idx upd _ (ix1 f) (resultIdx_row _ idx hidx) (fun j' hlt h => ?_)
  rw [resultIdx_row j' idx hidx] at h
  have e : j' 0 = f := by have := congrFun (Option.some.inj h) 1; exact this
  have : j' = ix1 f := (eq_ix1 j').trans (congrArg ix1 e)
  subst this; exact absurd hlt (lt_irrefl _)

/-! ## A vector as the column of a one-column matrix -/

theorem start_col (j : S8192.Idx) (idx : IVec S1 32) (hidx : ∀ k, idx k = 0#32) (a : Fin 2) :
    scatter_S8192x1_S1_S8192_0_1_1_0.start j idx a = 0 := by
  match a with
  | ⟨0, _⟩ =>
    unfold ScatterDims.start
    exact dif_neg (by simp [scatter_S8192x1_S1_S8192_0_1_1_0])
  | ⟨1, _⟩ =>
    unfold ScatterDims.start
    rw [dif_pos (by simp [scatter_S8192x1_S1_S8192_0_1_1_0]), hidx]; rfl
theorem window_col (j : S8192.Idx) (a : Fin 2) :
    scatter_S8192x1_S1_S8192_0_1_1_0.window j a = match a with | ⟨0, _⟩ => (j 0).val | ⟨1, _⟩ => 0 := by
  match a with
  | ⟨0, _⟩ => rfl
  | ⟨1, _⟩ => rfl
theorem resultIdx_col (j : S8192.Idx) (idx : IVec S1 32) (hidx : ∀ k, idx k = 0#32) :
    scatter_S8192x1_S1_S8192_0_1_1_0.resultIdx? j idx = some (ix2 (j 0) (0 : Fin 1)) := by
  unfold ScatterDims.resultIdx?
  have h : ∀ a, 0 ≤ scatter_S8192x1_S1_S8192_0_1_1_0.start j idx a + scatter_S8192x1_S1_S8192_0_1_1_0.window j a
      ∧ scatter_S8192x1_S1_S8192_0_1_1_0.start j idx a + scatter_S8192x1_S1_S8192_0_1_1_0.window j a < S8192x1.size a := by
    intro a
    match a with
    | ⟨0, _⟩ =>
      rw [start_col j idx hidx]
      show (0 : ℤ) ≤ 0 + (((j 0).val : ℕ) : ℤ) ∧ (0 : ℤ) + (((j 0).val : ℕ) : ℤ) < ((8192 : ℕ) : ℤ)
      have : (j 0).val < 8192 := (j 0).isLt; omega
    | ⟨1, _⟩ =>
      rw [start_col j idx hidx]
      show (0 : ℤ) ≤ 0 + ((0 : ℕ) : ℤ) ∧ (0 : ℤ) + ((0 : ℕ) : ℤ) < ((1 : ℕ) : ℤ)
      omega
  rw [dif_pos h]
  congr 1; funext a; apply Fin.ext
  show (scatter_S8192x1_S1_S8192_0_1_1_0.start j idx a + scatter_S8192x1_S1_S8192_0_1_1_0.window j a).toNat = _
  rw [start_col j idx hidx]
  match a with
  | ⟨0, _⟩ => show ((0 : ℤ) + (((j 0).val : ℕ) : ℤ)).toNat = (j 0).val; omega
  | ⟨1, _⟩ => rfl
/-- The scatter of a vector into column 0 of a one-column matrix reads, at (i, 0), the vector at i. -/
theorem scatter_col {α : Type} (x : S8192x1.Idx → α) (idx : IVec S1 32) (hidx : ∀ k, idx k = 0#32) (upd : S8192.Idx → α) (i : Fin 8192) (u : Fin 1) :
    Host.scatter scatter_S8192x1_S1_S8192_0_1_1_0 (fun _ b => b) x idx upd (ix2 i u) = upd (ix1 i) := by
  obtain rfl : u = 0 := Subsingleton.elim _ _
  refine scatter_set_last _ x idx upd _ (ix1 i) (resultIdx_col _ idx hidx) (fun j' hlt h => ?_)
  rw [resultIdx_col j' idx hidx] at h
  have e : j' 0 = i := by have := congrFun (Option.some.inj h) 0; exact this
  have : j' = ix1 i := (eq_ix1 j').trans (congrArg ix1 e)
  subst this; exact absurd hlt (lt_irrefl _)

end Cert.ReferenceIdeal.Hand

end
-- ==== Proof.RefValHost.lean ====
import proofs.«168457_g2000706009674355_pallasbulk_102_19_alg».proof.Proof.RefRun
import proofs.«168457_g2000706009674355_pallasbulk_102_19_alg».proof.Proof.RefValScatter
import proofs.«168457_g2000706009674355_pallasbulk_102_19_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.ReferenceIdeal.Hand

open Idealize.ShloMosaic Idealize.ShloMosaic.TcCoe Idealize.ShloMosaic.ValueIdx
open Idealize.SL.Sem
open Idealize.ShloMosaic.Pipeline (Dat)
open Cert.ReferenceIdeal.Gen

/-! # What the regions find: the host stretch's results at the windows' arrays

The features, the adjacency matrix and the weights reach the regions unchanged (each is scattered whole over a
zero matrix); the bias as the one row of a one-row matrix; the degree scaling — the guarded reciprocal square
root of the adjacency matrix's column sums — as the one column of a one-column matrix. -/

section AnyF
variable {F : FTy → Type} [FloatOps F]
variable (m : (ℓ : Loc nD τ sig) → Buf (Elt F) ℓ)

/-- The start-index vector of the row and column scatters is zero. -/
theorem idx_zero (k : S1.Idx) : broadcastInDim S1 ![] bcast_S_S1 (constantI S_ 32 0#32) k = 0#32 :=
  (broadcastInDim_apply _ bcast_S_S1 _ k ix0 (fun a => a.elim0)).trans rfl

/-- A typed reference's two transports along its buffer's type cancel. -/
theorem ofBuf_toBuf {T : BufTy} (x : StableHlo.TRef sig T) (v : T.Contents (Elt F)) : x.ofBuf (x.toBuf v) = v := by
  obtain ⟨r, rfl, _, _⟩ := x; rfl

theorem typed_main_call0_v6 (c : Dev nD) (w : Buf (Elt F) ((c : Thread nD τ).loc main_call0_v6)) : (StableHlo.TRef.of main_call0_v6 : StableHlo.TRef sig ⟨S8192x256, .f32⟩).ofBuf w = w := rfl
theorem typed_main_call0_v8 (c : Dev nD) (w : Buf (Elt F) ((c : Thread nD τ).loc main_call0_v8)) : (StableHlo.TRef.of main_call0_v8 : StableHlo.TRef sig ⟨S8192x8192, .f32⟩).ofBuf w = w := rfl
theorem typed_main_call0_v10 (c : Dev nD) (w : Buf (Elt F) ((c : Thread nD τ).loc main_call0_v10)) : (StableHlo.TRef.of main_call0_v10 : StableHlo.TRef sig ⟨S256x256, .f32⟩).ofBuf w = w := rfl
theorem typed_main_call0_v13 (c : Dev nD) (w : Buf (Elt F) ((c : Thread nD τ).loc main_call0_v13)) : (StableHlo.TRef.of main_call0_v13 : StableHlo.TRef sig ⟨S1x256, .f32⟩).ofBuf w = w := rfl
theorem typed_main_call0_v16 (c : Dev nD) (w : Buf (Elt F) ((c : Thread nD τ).loc main_call0_v16)) : (StableHlo.TRef.of main_call0_v16 : StableHlo.TRef sig ⟨S8192x1, .f32⟩).ofBuf w = w := rfl
theorem typed_main_arg0 (c : Dev nD) (w : Buf (Elt F) ((c : Thread nD τ).loc main_arg0)) : (StableHlo.TRef.of main_arg0 : StableHlo.TRef sig ⟨S8192x256, .f32⟩).ofBuf w = w := rfl
theorem typed_main_arg1 (c : Dev nD) (w : Buf (Elt F) ((c : Thread nD τ).loc main_arg1)) : (StableHlo.TRef.of main_arg1 : StableHlo.TRef sig ⟨S8192x8192, .f32⟩).ofBuf w = w := rfl
theorem typed_main_arg2 (c : Dev nD) (w : Buf (Elt F) ((c : Thread nD τ).loc main_arg2)) : (StableHlo.TRef.of main_arg2 : StableHlo.TRef sig ⟨S256x256, .f32⟩).ofBuf w = w := rfl
theorem typed_main_arg3 (c : Dev nD) (w : Buf (Elt F) ((c : Thread nD τ).loc main_arg3)) : (StableHlo.TRef.of main_arg3 : StableHlo.TRef sig ⟨S256, .f32⟩).ofBuf w = w := rfl

attribute [local irreducible] Host.scatter Host.reduceAdd in
set_option maxHeartbeats 1000000 in
theorem V1_feat_typed (c : Dev nD) : (StableHlo.TRef.of main_call0_v6 : StableHlo.TRef sig ⟨S8192x256, .f32⟩).ofBuf (W1 m c (Proc.devRef .tc main_call0_v6))
    = Host.scatter scatter_S8192x256_S0_S8192x256_01_n_n_0 (fun _ b => b)
        (broadcastInDim S8192x256 ![] bcast_S_S8192x256 (constant (F := F) S_ .f32 0x00000000#32)) (emptyVec S0 hz_S0 : IVec S0 32)
        ((StableHlo.TRef.of main_arg0 : StableHlo.TRef sig ⟨S8192x256, .f32⟩).ofBuf (m (c, Proc.devRef .tc main_arg0))) := by
  show (StableHlo.TRef.of main_call0_v6 : StableHlo.TRef sig ⟨S8192x256, .f32⟩).ofBuf (StableHlo.after hostOps0 (fun b => m (c, b)) (Proc.devRef .tc main_call0_v6)) = _
  after_results
  simp only [ofBuf_toBuf]
/-- The feature region reads the features as launched. -/
theorem V1_feat (c : Dev nD) : V1 m c main_call0_v6 = m ((c : Thread nD τ).loc main_arg0) :=
  (typed_main_call0_v6 c _).symm.trans <| (V1_feat_typed m c).trans <| (scatter_S8192x256 _ _ _).trans (typed_main_arg0 c _)

attribute [local irreducible] Host.scatter Host.reduceAdd in
set_option maxHeartbeats 1000000 in
theorem V1_adj_typed (c : Dev nD) : (StableHlo.TRef.of main_call0_v8 : StableHlo.TRef sig ⟨S8192x8192, .f32⟩).ofBuf (W1 m c (Proc.devRef .tc main_call0_v8))
    = Host.scatter scatter_S8192x8192_S0_S8192x8192_01_n_n_0 (fun _ b => b)
        (broadcastInDim S8192x8192 ![] bcast_S_S8192x8192 (constant (F := F) S_ .f32 0x00000000#32)) (emptyVec S0 hz_S0 : IVec S0 32)
        ((StableHlo.TRef.of main_arg1 : StableHlo.TRef sig ⟨S8192x8192, .f32⟩).ofBuf (m (c, Proc.devRef .tc main_arg1))) := by
  show (StableHlo.TRef.of main_call0_v8 : StableHlo.TRef sig ⟨S8192x8192, .f32⟩).ofBuf (StableHlo.after hostOps0 (fun b => m (c, b)) (Proc.devRef .tc main_call0_v8)) = _
  after_results
  simp only [ofBuf_toBuf]
/-- The aggregation region reads the adjacency matrix as launched. -/
theorem V1_adj (c : Dev nD) : V1 m c main_call0_v8 = m ((c : Thread nD τ).loc main_arg1) :=
  (typed_main_call0_v8 c _).symm.trans <| (V1_adj_typed m c).trans <| (scatter_S8192x8192 _ _ _).trans (typed_main_arg1 c _)

attribute [local irreducible] Host.scatter Host.reduceAdd in
set_option maxHeartbeats 1000000 in
theorem V1_weight_typed (c : Dev nD) : (StableHlo.TRef.of main_call0_v10 : StableHlo.TRef sig ⟨S256x256, .f32⟩).ofBuf (W1 m c (Proc.devRef .tc main_call0_v10))
    = Host.scatter scatter_S256x256_S0_S256x256_01_n_n_0 (fun _ b => b)
        (broadcastInDim S256x256 ![] bcast_S_S256x256 (constant (F := F) S_ .f32 0x00000000#32)) (emptyVec S0 hz_S0 : IVec S0 32)
        ((StableHlo.TRef.of main_arg2 : StableHlo.TRef sig ⟨S256x256, .f32⟩).ofBuf (m (c, Proc.devRef .tc main_arg2))) := by
  show (StableHlo.TRef.of main_call0_v10 : StableHlo.TRef sig ⟨S256x256, .f32⟩).ofBuf (StableHlo.after hostOps0 (fun b => m (c, b)) (Proc.devRef .tc main_call0_v10)) = _
  after_results
  simp only [ofBuf_toBuf]
/-- The feature region reads the weights as launched. -/
theorem V1_weight (c : Dev nD) : V1 m c main_call0_v10 = m ((c : Thread nD τ).loc main_arg2) :=
  (typed_main_call0_v10 c _).symm.trans <| (V1_weight_typed m c).trans <| (scatter_S256x256 _ _ _).trans (typed_main_arg2 c _)

attribute [local irreducible] Host.scatter Host.reduceAdd in
set_option maxHeartbeats 1000000 in
theorem V1_bias_typed (c : Dev nD) : (StableHlo.TRef.of main_call0_v13 : StableHlo.TRef sig ⟨S1x256, .f32⟩).ofBuf (W1 m c (Proc.devRef .tc main_call0_v13))
    = Host.scatter scatter_S1x256_S1_S256_0_0_0_0 (fun _ b => b)
        (broadcastInDim S1x256 ![] bcast_S_S1x256 (constant (F := F) S_ .f32 0x00000000#32))
        (broadcastInDim S1 ![] bcast_S_S1 (constantI S_ 32 0#32))
        ((StableHlo.TRef.of main_arg3 : StableHlo.TRef sig ⟨S256, .f32⟩).ofBuf (m (c, Proc.devRef .tc main_arg3))) := by
  show (StableHlo.TRef.of main_call0_v13 : StableHlo.TRef sig ⟨S1x256, .f32⟩).ofBuf (StableHlo.after hostOps0 (fun b => m (c, b)) (Proc.devRef .tc main_call0_v13)) = _
  after_results
  simp only [ofBuf_toBuf]
/-- The aggregation region reads the bias as the row of a one-row matrix. -/
theorem V1_bias (c : Dev nD) (u : Fin 1) (f : Fin 256) :
    (V1 m c main_call0_v13 : S1x256.Idx → Elt F .f32) (ix2 u f) = (m ((c : Thread nD τ).loc main_arg3) : S256.Idx → Elt F .f32) (ix1 f) :=
  (congrFun ((typed_main_call0_v13 c _).symm.trans (V1_bias_typed m c)) (ix2 u f)).trans <|
    (scatter_row _ _ idx_zero _ u f).trans (congrFun (typed_main_arg3 c _) (ix1 f))

end AnyF

end Cert.ReferenceIdeal.Hand

end
-- ==== Proof.RefValDinv.lean ====
import proofs.«168457_g2000706009674355_pallasbulk_102_19_alg».proof.Proof.RefValHost

set_option maxRecDepth 16384

noncomputable section

open scoped BigOperators

namespace Cert.ReferenceIdeal.Hand

open Idealize.ShloMosaic Idealize.ShloMosaic.TcCoe Idealize.ShloMosaic.ValueIdx
open Idealize.SL.Sem
open Idealize.ShloMosaic.Pipeline (Dat)
open Cert.ReferenceIdeal.Gen

section AtIdeal

/-- The transports cancel around values stated at their vector types too. -/
theorem ofBuf_toBuf_const (x : StableHlo.TRef sig ⟨S_, .f32⟩) :
    x.ofBuf (x.toBuf (Val := Elt Ideal) (constant (F := Ideal) S_ .f32 0x00000000#32)) = constant (F := Ideal) S_ .f32 0x00000000#32 :=
  ofBuf_toBuf (F := Ideal) x _
theorem ofBuf_toBuf_reduce (x : StableHlo.TRef sig ⟨S8192, .f32⟩) (A : FVec Ideal S8192x8192 .f32) (B : S_.Idx → Ideal .f32) :
    x.ofBuf (x.toBuf (Val := Elt Ideal) (Host.reduceAdd (F := Ideal) A B reducesTo_S8192x8192_S8192_d0 h_S_))
      = Host.reduceAdd (F := Ideal) A B reducesTo_S8192x8192_S8192_d0 h_S_ :=
  ofBuf_toBuf (F := Ideal) x _
theorem ofBuf_toBuf_rsqrt (x : StableHlo.TRef sig ⟨S8192, .f32⟩) (D : FVec Ideal S8192 .f32) :
    x.ofBuf (x.toBuf (Val := Elt Ideal) (Host.rsqrt (F := Ideal) D)) = Host.rsqrt (F := Ideal) D :=
  ofBuf_toBuf (F := Ideal) x _

variable (m : (ℓ : Loc nD τ sig) → Buf (Elt Ideal) ℓ)

theorem reduces_col : S8192x8192.Reduces [0] S8192 := by decide

/-- The host's column sum of the adjacency matrix from zero is the degree. -/
theorem deg_read (g : FVec Ideal S8192x8192 .f32) (i : Fin 8192) :
    Host.reduceAdd (F := Ideal) g (constant (F := Ideal) S_ .f32 0x00000000#32) reducesTo_S8192x8192_S8192_d0 h_S_ (ix1 i)
      = Cert.GcnSpec.deg g i := by
  show Ideal.hostReduceAdd reducesTo_S8192x8192_S8192_d0 g (Ideal.ofBits .f32 0x00000000#32) (ix1 i) = _
  rw [Ideal.hostReduceAdd_single reducesTo_S8192x8192_S8192_d0 reduces_col, Ideal.ofBits_zero_f32, zero_add]
  unfold Cert.GcnSpec.deg
  refine Finset.sum_congr rfl fun k _ => congrArg g ?_
  funext a; apply Fin.ext
  rw [Shape.Reduces.lift_val]
  match a with
  | ⟨0, _⟩ => rfl
  | ⟨1, _⟩ => rfl

/-- The guarded reciprocal square root, read at an index. -/
theorem dinv_read (D Z Z' : FVec Ideal S8192 .f32) (i : Fin 8192) (hZ : Z (ix1 i) = 0) (hZ' : Z' (ix1 i) = 0) :
    select (cmpf .ogt D Z) (Host.rsqrt D) Z' (ix1 i) = Cert.GcnSpec.dinvOf (D (ix1 i)) := by
  show Scalar.select (Ideal.cmp .ogt (D (ix1 i)) (Z (ix1 i))) (Ideal.rsqrt (D (ix1 i))) (Z' (ix1 i)) = _
  rw [hZ, hZ']; rfl

/-- A broadcast zero constant reads zero. -/
theorem bcast_zero (j : S8192.Idx) :
    broadcastInDim S8192 ![] bcast_S_S8192 (constant (F := Ideal) S_ .f32 0x00000000#32) j = 0 :=
  (broadcastInDim_apply _ bcast_S_S8192 _ j ix0 (fun a => a.elim0)).trans Ideal.ofBits_zero_f32

/-- The adjacency matrix's column sums, as the host computes them. -/
abbrev hostDeg (g : FVec Ideal S8192x8192 .f32) : FVec Ideal S8192 .f32 :=
  Host.reduceAdd (F := Ideal) g (constant (F := Ideal) S_ .f32 0x00000000#32) reducesTo_S8192x8192_S8192_d0 h_S_
/-- A vector of zeros, as the host makes it. -/
abbrev hostZeros : FVec Ideal S8192 .f32 := broadcastInDim S8192 ![] bcast_S_S8192 (constant (F := Ideal) S_ .f32 0x00000000#32)

attribute [local irreducible] Host.scatter Host.reduceAdd Host.rsqrt in
set_option maxHeartbeats 2000000 in
/-- The degree scaling's buffer after the host stretch, as the operations' term. -/
theorem V1_dinv_typed (c : Dev nD) : (StableHlo.TRef.of main_call0_v16 : StableHlo.TRef sig ⟨S8192x1, .f32⟩).ofBuf (W1 m c (Proc.devRef .tc main_call0_v16))
    = Host.scatter scatter_S8192x1_S1_S8192_0_1_1_0 (fun _ b => b)
        (broadcastInDim S8192x1 ![] bcast_S_S8192x1 (constant (F := Ideal) S_ .f32 0x00000000#32))
        (broadcastInDim S1 ![] bcast_S_S1 (constantI S_ 32 0#32))
        (select (cmpf .ogt (hostDeg ((StableHlo.TRef.of main_arg1 : StableHlo.TRef sig ⟨S8192x8192, .f32⟩).ofBuf (m (c, Proc.devRef .tc main_arg1)))) hostZeros)
          (Host.rsqrt (hostDeg ((StableHlo.TRef.of main_arg1 : StableHlo.TRef sig ⟨S8192x8192, .f32⟩).ofBuf (m (c, Proc.devRef .tc main_arg1))))) hostZeros) := by
  show (StableHlo.TRef.of main_call0_v16 : StableHlo.TRef sig ⟨S8192x1, .f32⟩).ofBuf (StableHlo.after hostOps0 (fun b => m (c, b)) (Proc.devRef .tc main_call0_v16)) = _
  after_results
  simp only [ofBuf_toBuf, ofBuf_toBuf_const, ofBuf_toBuf_reduce, ofBuf_toBuf_rsqrt, id]

/-- The regions read the degree scaling as the column of a one-column matrix. -/
theorem V1_dinv (c : Dev nD) (i : Fin 8192) (u : Fin 1) :
    (V1 m c main_call0_v16 : S8192x1.Idx → EReal) (ix2 i u)
      = Cert.GcnSpec.dinvOf (Cert.GcnSpec.deg (m ((c : Thread nD τ).loc main_arg1)) i) :=
  (congrFun ((typed_main_call0_v16 c _).symm.trans (V1_dinv_typed m c)) (ix2 i u)).trans <|
    (scatter_col _ _ idx_zero _ i u).trans <|
      (dinv_read _ _ _ i (bcast_zero _) (bcast_zero _)).trans <|
        (congrArg Cert.GcnSpec.dinvOf (deg_read _ i)).trans
          (congrArg (fun g => Cert.GcnSpec.dinvOf (Cert.GcnSpec.deg g i)) (typed_main_arg1 c _))

end AtIdeal

end Cert.ReferenceIdeal.Hand

end
-- ==== Proof.RefValPay.lean ====
import proofs.«168457_g2000706009674355_pallasbulk_102_19_alg».proof.Proof.Gen.ReferenceIdeal.Skeleton
import proofs.«168457_g2000706009674355_pallasbulk_102_19_alg».proof.Proof.LibLayoutReads
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Hand

open Idealize.ShloMosaic Idealize.ShloMosaic.TcCoe Idealize.ShloMosaic.ValueIdx
open Cert.ReferenceIdeal.Gen

open Idealize.ShloMosaic.LayoutReads

/-! # The kernels' arithmetic at an index, over the extended reals

A matrix product into a zero accumulator is the sum over the contracted coordinate; the feature kernel scales the
rows of `x · w`; the aggregation kernel adds `aᵀ · h` (the adjacency block contracted along its ROWS) to its
accumulator, and at the last step scales the rows and adds the bias row. -/

/-- A plain product `[n, kk] x [kk, p]` on the matrix unit into zero, at `(i, j)`. -/
theorem matmul_plain_apply {n kk p : ℕ} {φ₁ φ₂ : FTy} (d : DotDims ⟨2, ![n, kk]⟩ ⟨2, ![kk, p]⟩ ⟨2, ![n, p]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![n, kk]⟩ φ₁) (rhs : FVec Ideal ⟨2, ![kk, p]⟩ φ₂)
    (i : Fin n) (j : Fin p) :
    FloatOps.matmul d prec lhs rhs (constant (F := Ideal) ⟨2, ![n, p]⟩ .f32 0x00000000#32) (ix2 i j)
      = ∑ k : Fin kk, lhs (ix2 i k) * rhs (ix2 k j) := by
  have hr : d.contr.rank = 1 := by rw [d.rank_contr, hlc]; rfl
  have hs : d.contr.size ⟨0, by omega⟩ = kk := by
    have h1 : (0 : Nat) < d.lhsContracting.length := by rw [hlc]; exact Nat.one_pos
    refine (d.size_contr 0 h1).trans ?_
    have h2 : d.lhsContracting[0] = (1 : Fin 2) := by simp [hlc]
    rw [h2]; rfl
  rw [Ideal.matmul_constant_zero_apply]
  refine Fintype.sum_equiv (contrEquiv1 d kk hr hs) _ _ (fun k => ?_)
  have hL : d.lhsIdx (ix2 i j) k = ix2 i (contrEquiv1 d kk hr hs k) := by
    funext c; refine Fin.ext ?_
    match c with
    | ⟨0, _⟩ => exact lhsIdx_val_of_single_non d hlb hln (ix2 i j) k (show 0 < 2 by omega)
    | ⟨1, _⟩ => exact d.lhsIdx_val_of_single hlc (ix2 i j) k
  have hR : d.rhsIdx (ix2 i j) k = ix2 (contrEquiv1 d kk hr hs k) j := by
    funext c; refine Fin.ext ?_
    match c with
    | ⟨0, _⟩ => exact d.rhsIdx_val_of_single hrc (ix2 i j) k
    | ⟨1, _⟩ => exact rhsIdx_val_of_single_non d hlb hrb hln hrn (ix2 i j) k (show 1 < 2 by omega)
  rw [hL, hR]

/-- A product contracted along the ROWS of both operands, `[kk, n]ᵀ x [kk, p]`, into zero, at `(i, j)`. -/
theorem matmul_tn_apply {n kk p : ℕ} {φ₁ φ₂ : FTy} (d : DotDims ⟨2, ![kk, n]⟩ ⟨2, ![kk, p]⟩ ⟨2, ![n, p]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![kk, n]⟩ φ₁) (rhs : FVec Ideal ⟨2, ![kk, p]⟩ φ₂)
    (i : Fin n) (j : Fin p) :
    FloatOps.matmul d prec lhs rhs (constant (F := Ideal) ⟨2, ![n, p]⟩ .f32 0x00000000#32) (ix2 i j)
      = ∑ k : Fin kk, lhs (ix2 k i) * rhs (ix2 k j) := by
  have hr : d.contr.rank = 1 := by rw [d.rank_contr, hlc]; rfl
  have hs : d.contr.size ⟨0, by omega⟩ = kk := by
    have h1 : (0 : Nat) < d.lhsContracting.length := by rw [hlc]; exact Nat.one_pos
    refine (d.size_contr 0 h1).trans ?_
    have h2 : d.lhsContracting[0] = (0 : Fin 2) := by simp [hlc]
    rw [h2]; rfl
  rw [Ideal.matmul_constant_zero_apply]
  refine Fintype.sum_equiv (contrEquiv1 d kk hr hs) _ _ (fun k => ?_)
  have hL : d.lhsIdx (ix2 i j) k = ix2 (contrEquiv1 d kk hr hs k) i := by
    funext c; refine Fin.ext ?_
    match c with
    | ⟨0, _⟩ => exact d.lhsIdx_val_of_single hlc (ix2 i j) k
    | ⟨1, _⟩ => exact lhsIdx_val_of_single_non d hlb hln (ix2 i j) k (show 0 < 2 by omega)
  have hR : d.rhsIdx (ix2 i j) k = ix2 (contrEquiv1 d kk hr hs k) j := by
    funext c; refine Fin.ext ?_
    match c with
    | ⟨0, _⟩ => exact d.rhsIdx_val_of_single hrc (ix2 i j) k
    | ⟨1, _⟩ => exact rhsIdx_val_of_single_non d hlb hrb hln hrn (ix2 i j) k (show 1 < 2 by omega)
  rw [hL, hR]

/-- A column `[a, 1]` broadcast over the columns of `[a, b]` reads, at `(i, j)`, the column at `(i, 0)`. -/
theorem broadcastTo_col_apply {α : Type} {a b : ℕ} (h : (⟨2, ![a, 1]⟩ : Shape).Broadcasts ⟨2, ![a, b]⟩)
    (x : (⟨2, ![a, 1]⟩ : Shape).Idx → α) (i : Fin a) (j : Fin b) :
    broadcastTo ⟨2, ![a, b]⟩ x h (ix2 i j) = x (ix2 i (0 : Fin 1)) :=
  broadcastTo_apply x h _ (ix2 i (0 : Fin 1)) (fun c => by
    have hi := i.isLt
    match c with
    | ⟨0, _⟩ =>
      show i.val = if a = 1 then 0 else i.val
      split <;> omega
    | ⟨1, _⟩ =>
      show 0 = if 1 = 1 then 0 else j.val
      rfl)

/-- A row `[1, b]` broadcast over the rows of `[a, b]` reads, at `(i, j)`, the row at `(0, j)`. -/
theorem broadcastTo_row_apply {α : Type} {a b : ℕ} (h : (⟨2, ![1, b]⟩ : Shape).Broadcasts ⟨2, ![a, b]⟩)
    (x : (⟨2, ![1, b]⟩ : Shape).Idx → α) (i : Fin a) (j : Fin b) :
    broadcastTo ⟨2, ![a, b]⟩ x h (ix2 i j) = x (ix2 (0 : Fin 1) j) :=
  broadcastTo_apply x h _ (ix2 (0 : Fin 1) j) (fun c => by
    have hj := j.isLt
    match c with
    | ⟨0, _⟩ =>
      show 0 = if 1 = 1 then 0 else i.val
      rfl
    | ⟨1, _⟩ =>
      show j.val = if b = 1 then 0 else j.val
      split <;> omega)

/-- The feature kernel's stored value at row `p`, column `q` of its block. -/
theorem k0_pay1_apply (x0 : FVec Ideal S512x256 .f32) (x1 : FVec Ideal S256x256 .f32) (x2 : FVec Ideal S512x1 .f32)
    (p : Fin 512) (q : Fin 256) :
    k0_pay1 (F := Ideal) x0 x1 x2 (ix2 p q) = x2 (ix2 p (0 : Fin 1)) * ∑ k : Fin 256, x0 (ix2 p k) * x1 (ix2 k q) := by
  unfold k0_pay1
  refine (mulf_apply _ _ (ix2 p q)).trans ?_
  refine congrArg₂ (· * ·) ?_ ?_
  · refine (broadcastTo_col_apply broadcasts_S512x1_S512x256 _ p q).trans ?_
    exact congrFun (shapeCast_self x2 shapeCasts_S512x1_S512x1) _
  · refine (matmul_plain_apply dot_S512x256_S256x256_S512x256_1_0_0_1_n_n rfl rfl rfl rfl rfl rfl none _ _ p q).trans ?_
    refine Finset.sum_congr rfl fun k _ => ?_
    exact congrArg₂ (· * ·) (congrFun (shapeCast_self x0 shapeCasts_S512x256_S512x256) _) (congrFun (shapeCast_self x1 shapeCasts_S256x256_S256x256) _)

/-- The aggregation kernel's zero fill. -/
theorem k1_pay1_apply (j : S256x256.Idx) : k1_pay1 (F := Ideal) j = 0 := by
  unfold k1_pay1
  refine (congrFun (shapeCast_self _ shapeCasts_S256x256_S256x256) j).trans ?_
  exact Ideal.ofBits_zero_f32

/-- The aggregation kernel's accumulation at row `p`, column `q`: the accumulator plus the adjacency block,
    contracted along its rows, against the feature block. -/
theorem k1_pay2_apply (acc : FVec Ideal S256x256 .f32) (a : FVec Ideal S512x256 .f32) (h : FVec Ideal S512x256 .f32)
    (p : Fin 256) (q : Fin 256) :
    k1_pay2 (F := Ideal) acc a h (ix2 p q) = acc (ix2 p q) + ∑ k : Fin 512, a (ix2 k p) * h (ix2 k q) := by
  unfold k1_pay2
  refine (congrFun (shapeCast_self _ shapeCasts_S256x256_S256x256) _).trans ?_
  refine (addf_apply _ _ (ix2 p q)).trans ?_
  refine congrArg (acc (ix2 p q) + ·) ?_
  refine (matmul_tn_apply dot_S512x256_S512x256_S256x256_0_0_1_1_n_n rfl rfl rfl rfl rfl rfl none _ _ p q).trans ?_
  refine Finset.sum_congr rfl fun k _ => ?_
  exact congrArg₂ (· * ·) (congrFun (shapeCast_self a shapeCasts_S512x256_S512x256) _) (congrFun (shapeCast_self h shapeCasts_S512x256_S512x256) _)

/-- The aggregation kernel's result at row `p`, column `q`: the scaled accumulator plus the bias row. -/
theorem k1_pay3_apply (dv : FVec Ideal S256x1 .f32) (acc : FVec Ideal S256x256 .f32) (b : FVec Ideal S1x256 .f32)
    (p : Fin 256) (q : Fin 256) :
    k1_pay3 (F := Ideal) dv acc b (ix2 p q) = dv (ix2 p (0 : Fin 1)) * acc (ix2 p q) + b (ix2 (0 : Fin 1) q) := by
  unfold k1_pay3
  refine (addf_apply _ _ (ix2 p q)).trans ?_
  refine congrArg₂ (· + ·) ?_ ?_
  · refine (mulf_apply _ _ (ix2 p q)).trans ?_
    refine congrArg (· * acc (ix2 p q)) ?_
    refine (broadcastTo_col_apply broadcasts_S256x1_S256x256 _ p q).trans ?_
    exact congrFun (shapeCast_self dv shapeCasts_S256x1_S256x1) _
  · refine (broadcastTo_row_apply broadcasts_S1x256_S256x256 _ p q).trans ?_
    exact congrFun (shapeCast_self b shapeCasts_S1x256_S1x256) _

end Cert.ReferenceIdeal.Hand

end
-- ==== Proof.RefValFeat.lean ====
import proofs.«168457_g2000706009674355_pallasbulk_102_19_alg».proof.Proof.RefFeat
import proofs.«168457_g2000706009674355_pallasbulk_102_19_alg».proof.Proof.RefValPay
import Idealize.ShloMosaic.Lib.Pipeline.Value
import Idealize.ShloMosaic.Lib.ValueIdx

set_option maxRecDepth 16384

noncomputable section

open scoped BigOperators

namespace Cert.ReferenceIdeal.Hand

open Idealize.ShloMosaic Idealize.ShloMosaic.TcCoe Idealize.ShloMosaic.ValueIdx
open Idealize.SL.Sem
open Idealize.ShloMosaic.Pipeline (Dat)
open Cert.ReferenceIdeal.Gen

/-! # The feature region's result array as one function of the arrays it reads

Point `t` of the grid writes rows `512 t … 512 t + 511` of the result: row `r`, column `f` is the degree
scaling of row `r` times the product of row `r` of the features with column `f` of the weights. The sixteen
row blocks tile the array. -/

section FeatValue

variable (V : (c : Dev nD) → (b : Ref sig .tc) → Buf (Elt Ideal) ((c : Thread nD τ).loc b))

theorem hz2 : (![0, 0] : Fin 2 → Nat) = fun _ => 0 := funext fun a => by fin_cases a <;> rfl

/-- Row `r`, column `f` of the feature region's result, from the scaling column, the features and the weights. -/
def g0 (dv : S8192x1.Idx → EReal) (x : S8192x256.Idx → EReal) (w : S256x256.Idx → EReal) (r : Fin 8192) (f : Fin 256) : EReal :=
  dv (ix2 r (0 : Fin 1)) * ∑ k : Fin 256, x (ix2 r k) * w (ix2 k f)

/-- The feature region's result array. -/
def G0 (c : Dev nD) : S8192x256.Idx → EReal :=
  fun i => g0 (V c main_call0_v16) (V c main_call0_v6) (V c main_call0_v10) (i 0) (i 1)

/-- The printed index maps, decided over the grid: the row-blocked windows move with the point, the weights stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `G0`. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz2]
  simp only [View.ld_unit_zero (S := S512x256) hz2, View.ld_unit_zero (S := S256x256) hz2, View.ld_unit_zero (S := S512x1) hz2]
  obtain ⟨e00, e01, e10, e11, e20, e21, e30, e31⟩ := idx_facts0 t
  have hN : t.val < 16 := lt_of_lt_of_eq t.isLt (show cfg0.N = 16 from N_0)
  funext j
  obtain ⟨p, q, rfl⟩ : ∃ (p : Fin 512) (q : Fin 256), j = ix2 p q := ⟨j 0, j 1, eq_ix2 j⟩
  have hp : p.val < 512 := p.isLt
  have hq : q.val < 256 := q.isLt
  show k0_pay1 (F := Ideal) (iblk0 V c 0 t) (iblk0 V c 1 t) (iblk0 V c 2 t) (ix2 p q)
    = G0 V c (((cfg0.win 3).blk t).view.emb (ix2 p q))
  refine (k0_pay1_apply (iblk0 V c 0 t) (iblk0 V c 1 t) (iblk0 V c 2 t) p q).trans ?_
  unfold G0 g0
  refine congrArg₂ (· * ·) ?_ (Finset.sum_congr rfl fun k _ => congrArg₂ (· * ·) ?_ ?_)
  · show V c main_call0_v16 (((cfg0.win 2).blk t).view.emb (ix2 p (0 : Fin 1))) = V c main_call0_v16 _
    refine congrArg (V c main_call0_v16) (funext fun a => Fin.ext ?_)
    match a with
    | ⟨0, _⟩ =>
      show win0_2.index t (0 : Fin 2) * 512 + 1 * p.val = win0_3.index t (0 : Fin 2) * 512 + 1 * p.val
      omega
    | ⟨1, _⟩ =>
      show win0_2.index t (1 : Fin 2) * 1 + 1 * 0 = 0
      omega
  · have hk : k.val < 256 := k.isLt
    show V c main_call0_v6 (((cfg0.win 0).blk t).view.emb (ix2 p k)) = V c main_call0_v6 _
    refine congrArg (V c main_call0_v6) (funext fun a => Fin.ext ?_)
    match a with
    | ⟨0, _⟩ =>
      show win0_0.index t (0 : Fin 2) * 512 + 1 * p.val = win0_3.index t (0 : Fin 2) * 512 + 1 * p.val
      omega
    | ⟨1, _⟩ =>
      show win0_0.index t (1 : Fin 2) * 256 + 1 * k.val = k.val
      omega
  · have hk : k.val < 256 := k.isLt
    show V c main_call0_v10 (((cfg0.win 1).blk t).view.emb (ix2 k q)) = V c main_call0_v10 _
    refine congrArg (V c main_call0_v10) (funext fun a => Fin.ext ?_)
    match a with
    | ⟨0, _⟩ =>
      show win0_1.index t (0 : Fin 2) * 256 + 1 * k.val = k.val
      omega
    | ⟨1, _⟩ =>
      show win0_1.index t (1 : Fin 2) * 256 + 1 * q.val = win0_3.index t (1 : Fin 2) * 256 + 1 * q.val
      omega

/-- An index of the array is in point `t`'s block iff each coordinate is in the block's range on its axis. -/
theorem mem_blk0 (t : Fin cfg0.N) (i : S8192x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_call0_v17).slice (win0_3.rect t)).set ↔ _
  rw [View.set_slice_whole, Rect.mem_set_unit]
  exact Iff.rfl

/-- Every row block is some point's. -/
theorem idx_onto0 : ∀ q0 : Fin 16, ∃ t : Fin cfg0.N, win0_3.index t = ![q0.val, 0] :=
  (by decide +kernel : ∀ q0 : Fin 16, ∃ t : Fin grid0.N, win0_3.index t = ![q0.val, 0])

/-- The row blocks tile the array: row `r` is in the block of point `r / 512`. -/
theorem cover0 (i : S8192x256.Idx) : ∃ t : Fin cfg0.N, (cfg0.win 3).flush t = true ∧ i ∈ ((cfg0.win 3).blk t).view.set := by
  have hi0 : (i 0).val < 8192 := (i 0).isLt
  have hi1 : (i 1).val < 256 := (i 1).isLt
  obtain ⟨t, ht⟩ := idx_onto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

/-- THE ARRAY after the feature region: `G0` of the arrays the region read. -/
theorem final0 (c : Dev nD) : (dat0 V c).arrAt 3 cfg0.N = G0 V c :=
  (dat0 V c).arrAt_eq_of_cover 3 (G0 V c) (fun t _ => flushed0_eq V c t) cover0

end FeatValue

end Cert.ReferenceIdeal.Hand

end
-- ==== Proof.RefValEntry.lean ====
import proofs.«168457_g2000706009674355_pallasbulk_102_19_alg».proof.Proof.RefRun
import proofs.«168457_g2000706009674355_pallasbulk_102_19_alg».proof.Proof.RefValHost
import proofs.«168457_g2000706009674355_pallasbulk_102_19_alg».proof.Proof.RefValDinv
import proofs.«168457_g2000706009674355_pallasbulk_102_19_alg».proof.Proof.RefValFeat
import proofs.«168457_g2000706009674355_pallasbulk_102_19_alg».proof.Proof.Spec

set_option maxRecDepth 16384

noncomputable section

open scoped BigOperators

namespace Cert.ReferenceIdeal.Hand

open Idealize.ShloMosaic Idealize.ShloMosaic.TcCoe Idealize.ShloMosaic.ValueIdx
open Idealize.SL.Sem
open Idealize.ShloMosaic.Pipeline (Dat)
open Cert.ReferenceIdeal.Gen

/-! # What the aggregation region finds in its arrays

The feature region changes only its result array, which it leaves holding the scaled features; every other array of
the aggregation region is as the host stretch left it. -/

variable (m : (ℓ : Loc nD τ sig) → Buf (Elt Ideal) ℓ)

/-- The scaled features: what the feature region leaves in its result array. -/
theorem V2_hs (c : Dev nD) :
    (V2 m c main_call0_v17 : S8192x256.Idx → EReal)
      = fun i => Cert.GcnSpec.hs (m ((c : Thread nD τ).loc main_arg1)) (m ((c : Thread nD τ).loc main_arg0)) (m ((c : Thread nD τ).loc main_arg2)) (i 0) (i 1) := by
  refine ((W2_arr m c 3).trans (final0 (V1 m) c)).trans ?_
  funext i
  unfold G0 g0 Cert.GcnSpec.hs
  refine congrArg₂ (· * ·) (V1_dinv m c (i 0) 0) (Finset.sum_congr rfl fun k _ => congrArg₂ (· * ·) ?_ ?_)
  · exact congrFun (V1_feat m c) _
  · exact congrFun (V1_weight m c) _

/-- The adjacency matrix reaches the aggregation region as launched. -/
theorem V2_adj (c : Dev nD) : V2 m c main_call0_v8 = m ((c : Thread nD τ).loc main_arg1) :=
  (W2_of_ne m c main_call0_v8 (by decide)).trans (V1_adj m c)

/-- The degree scaling reaches the aggregation region as the host stretch left it. -/
theorem V2_dinv (c : Dev nD) (i : Fin 8192) (u : Fin 1) :
    (V2 m c main_call0_v16 : S8192x1.Idx → EReal) (ix2 i u)
      = Cert.GcnSpec.dinvOf (Cert.GcnSpec.deg (m ((c : Thread nD τ).loc main_arg1)) i) :=
  (congrFun ((W2_arr m c 2).trans (((dat0 (V1 m) c).arrAt_in 2 rfl _).trans (A_eq0 (V1 m) c 2))) (ix2 i u)).trans (V1_dinv m c i u)

/-- The bias row reaches the aggregation region as the host stretch left it. -/
theorem V2_bias (c : Dev nD) (u : Fin 1) (f : Fin 256) :
    (V2 m c main_call0_v13 : S1x256.Idx → EReal) (ix2 u f) = (m ((c : Thread nD τ).loc main_arg3) : S256.Idx → EReal) (ix1 f) :=
  (congrFun (W2_of_ne m c main_call0_v13 (by decide)) (ix2 u f)).trans (V1_bias m c u f)

end Cert.ReferenceIdeal.Hand

end
-- ==== Proof.RAggVal.lean ====
/-
  The reference's second region, read: the result array it leaves. The grid is 32 row blocks i of 256 output rows
  by 16 contraction blocks k of 512 rows. A 256 x 256 accumulator is carried along k: zeroed at k = 0, increased at
  every k by the product of the transpose of the graph's block (rows 512 k .., columns 256 i ..) with hs's block
  (rows 512 k ..), and at k = 15 the output block is dinv * accumulator + bias. So after k the accumulator holds,
  at (p, q), the sum over contraction blocks 0 .. k of the blocks' sums, added in that order starting from zero.
-/
import proofs.«168457_g2000706009674355_pallasbulk_102_19_alg».proof.Proof.RefAgg
import proofs.«168457_g2000706009674355_pallasbulk_102_19_alg».proof.Proof.RefValPay
import proofs.«168457_g2000706009674355_pallasbulk_102_19_alg».proof.Proof.SpecSums
import Idealize.ShloMosaic.Lib.Pipeline.Value

set_option maxRecDepth 16384

noncomputable section

namespace Cert.ReferenceIdeal.Hand

open Cert.ReferenceIdeal Cert.ReferenceIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

theorem hzR : (![0, 0] : Fin 2 → Nat) = fun _ => 0 := funext fun a => by fin_cases a <;> rfl

/-! ## The three cases, read -/

section Pieces

variable (V : (c : Dev nD) → (b : Ref sig .tc) → Buf (Elt Ideal) ((c : Thread nD τ).loc b))

/-- A middle step leaves (accumulator found) + (this block's product). -/
theorem sout1_B_eq (c : Dev nD) (t : Fin cfg1.N) (hc0 : ¬cond1_0 (grid1.coords t)) (hc1 : ¬cond1_1 (grid1.coords t)) (xs : Vec Ideal S256x256 .f32) :
    sout1_B V c t hc0 hc1 xs = k1_pay2 xs (iblk1 V c 0 t) (iblk1 V c 1 t) := by
  unfold sout1_B
  rw [View.read_writes_eq_canon _ _ _ (scover1_B V c t hc0 hc1 xs)]
  unfold runB_at kernelRun1_B
  dsimp only
  sl_unfold_run_names
  rw [View.canon_unit_zero hzR]
  simp only [View.readAt_eq_ld, Memref.IsWhole.read_unread, View.ld_unit_zero (S := S256x256) hzR, View.ld_unit_zero (S := S512x256) hzR]
  exact congrArg (fun a => k1_pay2 a (iblk1 V c 0 t) (iblk1 V c 1 t)) ((show (scM1 : Memref sig .tc .vmem S256x256 .f32).IsWhole from Memref.isWhole_whole _).read_unread xs)

/-- The first step leaves (zero) + (this block's product). -/
theorem sout1_A_eq (c : Dev nD) (t : Fin cfg1.N) (hc0 : cond1_0 (grid1.coords t)) (hc1 : ¬cond1_1 (grid1.coords t)) :
    sout1_A V c t hc0 hc1 = k1_pay2 (k1_pay1 (F := Ideal)) (iblk1 V c 0 t) (iblk1 V c 1 t) := by
  unfold sout1_A
  rw [View.read_writes_eq_canon _ _ _ (scover1_A V c t hc0 hc1)]
  unfold runA_at kernelRun1_A
  dsimp only
  sl_unfold_run_names
  rw [View.canon_cons_unit_zero hzR, View.readCov_unit_zero _ hzR]
  simp only [View.readAt_eq_ld, Memref.IsWhole.read_unread, View.ld_unit_zero (S := S256x256) hzR, View.ld_unit_zero (S := S512x256) hzR]

/-- The last step leaves the same in the accumulator, -/
theorem sout1_C_eq (c : Dev nD) (t : Fin cfg1.N) (hc0 : ¬cond1_0 (grid1.coords t)) (hc1 : cond1_1 (grid1.coords t)) (xs : Vec Ideal S256x256 .f32) :
    sout1_C V c t hc0 hc1 xs = k1_pay2 xs (iblk1 V c 0 t) (iblk1 V c 1 t) := by
  unfold sout1_C
  rw [View.read_writes_eq_canon _ _ _ (scover1_C V c t hc0 hc1 xs)]
  unfold runC_at kernelRun1_C
  dsimp only
  sl_unfold_run_names
  rw [View.canon_unit_zero hzR]
  simp only [View.readAt_eq_ld, Memref.IsWhole.read_unread, View.ld_unit_zero (S := S256x256) hzR, View.ld_unit_zero (S := S512x256) hzR]
  exact congrArg (fun a => k1_pay2 a (iblk1 V c 0 t) (iblk1 V c 1 t)) ((show (scM1 : Memref sig .tc .vmem S256x256 .f32).IsWhole from Memref.isWhole_whole _).read_unread xs)

/-- and stores the output block from it. -/
theorem out1_C_4_eq (c : Dev nD) (t : Fin cfg1.N) (hc0 : ¬cond1_0 (grid1.coords t)) (hc1 : cond1_1 (grid1.coords t)) (xs : Vec Ideal S256x256 .f32) :
    out1_C_4 V c t hc0 hc1 xs = k1_pay3 (iblk1 V c 2 t) (k1_pay2 xs (iblk1 V c 0 t) (iblk1 V c 1 t)) (iblk1 V c 3 t) := by
  unfold out1_C_4
  rw [View.read_writes_eq_canon _ _ _ (cover1_C_4 V c t hc0 hc1 xs)]
  unfold runC_at kernelRun1_C
  dsimp only
  sl_unfold_run_names
  rw [View.canon_unit_zero hzR, View.readCov_unit_zero _ hzR]
  simp only [View.readAt_eq_ld, Memref.IsWhole.read_unread, View.ld_unit_zero (S := S256x256) hzR, View.ld_unit_zero (S := S512x256) hzR,
    View.ld_unit_zero (S := S256x1) hzR, View.ld_unit_zero (S := S1x256) hzR]
  exact congrArg (fun a => k1_pay3 (iblk1 V c 2 t) (k1_pay2 a (iblk1 V c 0 t) (iblk1 V c 1 t)) (iblk1 V c 3 t)) ((show (scM1 : Memref sig .tc .vmem S256x256 .f32).IsWhole from Memref.isWhole_whole _).read_unread xs)

end Pieces

/-! ## The partial sums -/

/-- A 512-row block's product at (p, q). -/
def blkDot (a h : FVec Ideal S512x256 .f32) (p q : Fin 256) : EReal := ∑ k : Fin 512, a (ix2 k p) * h (ix2 k q)

/-- Contraction block k's sum for output row 256 i + p, column q. -/
def kSum (G : S8192x8192.Idx → EReal) (H : S8192x256.Idx → EReal) (i : ℕ) (p q : Fin 256) (k : ℕ) : EReal :=
  ∑ j : Fin 512, G (ix2 (⟨(512 * k + j.val) % 8192, Nat.mod_lt _ (by decide)⟩ : Fin 8192) (⟨(256 * i + p.val) % 8192, Nat.mod_lt _ (by decide)⟩ : Fin 8192))
    * H (ix2 (⟨(512 * k + j.val) % 8192, Nat.mod_lt _ (by decide)⟩ : Fin 8192) q)

/-- The accumulator's entry after contraction blocks 0 .. n, as the body adds them. -/
def accN (G : S8192x8192.Idx → EReal) (H : S8192x256.Idx → EReal) (i : ℕ) (p q : Fin 256) : ℕ → EReal
  | 0 => 0 + kSum G H i p q 0
  | n + 1 => accN G H i p q n + kSum G H i p q (n + 1)

theorem acc_step (acc : FVec Ideal S256x256 .f32) (a h : FVec Ideal S512x256 .f32) (p q : Fin 256) :
    k1_pay2 (F := Ideal) acc a h (ix2 p q) = acc (ix2 p q) + blkDot a h p q := k1_pay2_apply acc a h p q

variable (V : (c : Dev nD) → (b : Ref sig .tc) → Buf (Elt Ideal) ((c : Thread nD τ).loc b))

/-- The printed index maps over the 512 points. -/
theorem idx_facts1 : ∀ t : Fin cfg1.N, win1_0.index t (0 : Fin 2) = t.val % 16 ∧ win1_0.index t (1 : Fin 2) = t.val / 16
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = 0 ∧ win1_3.index t (1 : Fin 2) = 0
    ∧ win1_4.index t (0 : Fin 2) = t.val / 16 ∧ win1_4.index t (1 : Fin 2) = 0 :=
  (by decide +kernel : ∀ t : Fin grid1.N, _)

theorem N_1' : cfg1.N = 512 := by decide
theorem t_lt1 (t : Fin cfg1.N) : t.val < 512 := lt_of_lt_of_eq t.isLt N_1'

theorem blk1_0 (c : Dev nD) (t : Fin cfg1.N) (j : Fin 512) (p : Fin 256) :
    iblk1 V c 0 t (ix2 j p) = (V c main_call0_v8 : S8192x8192.Idx → EReal)
      (ix2 (⟨(512 * (t.val % 16) + j.val) % 8192, Nat.mod_lt _ (by decide)⟩ : Fin 8192) (⟨(256 * (t.val / 16) + p.val) % 8192, Nat.mod_lt _ (by decide)⟩ : Fin 8192)) := by
  obtain ⟨e0, e1, -⟩ := idx_facts1 t
  have ht := t_lt1 t
  show (V c main_call0_v8 : S8192x8192.Idx → EReal) (((cfg1.win 0).blk t).view.emb (ix2 j p)) = _
  refine congrArg _ (funext fun a => Fin.ext ?_)
  match a with
  | ⟨0, _⟩ => show win1_0.index t (0 : Fin 2) * 512 + 1 * j.val = (512 * (t.val % 16) + j.val) % 8192; omega
  | ⟨1, _⟩ => show win1_0.index t (1 : Fin 2) * 256 + 1 * p.val = (256 * (t.val / 16) + p.val) % 8192; omega

theorem blk1_1 (c : Dev nD) (t : Fin cfg1.N) (j : Fin 512) (q : Fin 256) :
    iblk1 V c 1 t (ix2 j q) = (V c main_call0_v17 : S8192x256.Idx → EReal)
      (ix2 (⟨(512 * (t.val % 16) + j.val) % 8192, Nat.mod_lt _ (by decide)⟩ : Fin 8192) q) := by
  obtain ⟨-, -, e2, e3, -⟩ := idx_facts1 t
  have ht := t_lt1 t
  show (V c main_call0_v17 : S8192x256.Idx → EReal) (((cfg1.win 1).blk t).view.emb (ix2 j q)) = _
  refine congrArg _ (funext fun a => Fin.ext ?_)
  match a with
  | ⟨0, _⟩ => show win1_1.index t (0 : Fin 2) * 512 + 1 * j.val = (512 * (t.val % 16) + j.val) % 8192; omega
  | ⟨1, _⟩ => show win1_1.index t (1 : Fin 2) * 256 + 1 * q.val = q.val; omega

theorem blk1_2 (c : Dev nD) (t : Fin cfg1.N) (p : Fin 256) :
    iblk1 V c 2 t (ix2 p (0 : Fin 1)) = (V c main_call0_v16 : S8192x1.Idx → EReal)
      (ix2 (⟨(256 * (t.val / 16) + p.val) % 8192, Nat.mod_lt _ (by decide)⟩ : Fin 8192) (0 : Fin 1)) := by
  obtain ⟨-, -, -, -, e4, e5, -⟩ := idx_facts1 t
  have ht := t_lt1 t
  show (V c main_call0_v16 : S8192x1.Idx → EReal) (((cfg1.win 2).blk t).view.emb (ix2 p (0 : Fin 1))) = _
  refine congrArg _ (funext fun a => Fin.ext ?_)
  match a with
  | ⟨0, _⟩ => show win1_2.index t (0 : Fin 2) * 256 + 1 * p.val = (256 * (t.val / 16) + p.val) % 8192; omega
  | ⟨1, _⟩ => show win1_2.index t (1 : Fin 2) * 1 + 1 * 0 = 0; omega

theorem blk1_3 (c : Dev nD) (t : Fin cfg1.N) (q : Fin 256) :
    iblk1 V c 3 t (ix2 (0 : Fin 1) q) = (V c main_call0_v13 : S1x256.Idx → EReal) (ix2 (0 : Fin 1) q) := by
  obtain ⟨-, -, -, -, -, -, e6, e7, -⟩ := idx_facts1 t
  show (V c main_call0_v13 : S1x256.Idx → EReal) (((cfg1.win 3).blk t).view.emb (ix2 (0 : Fin 1) q)) = _
  refine congrArg _ (funext fun a => Fin.ext ?_)
  match a with
  | ⟨0, _⟩ => show win1_3.index t (0 : Fin 2) * 1 + 1 * 0 = 0; omega
  | ⟨1, _⟩ => show win1_3.index t (1 : Fin 2) * 256 + 1 * q.val = q.val; omega

/-- This point's blocks' product is the contraction block's sum. -/
theorem blockDot (c : Dev nD) (t : Fin cfg1.N) (p q : Fin 256) :
    blkDot (iblk1 V c 0 t) (iblk1 V c 1 t) p q = kSum (V c main_call0_v8) (V c main_call0_v17) (t.val / 16) p q (t.val % 16) := by
  unfold blkDot kSum
  exact Finset.sum_congr rfl fun j _ => by rw [blk1_0 V c t, blk1_1 V c t]

/-- THE ACCUMULATOR after the body at position n. -/
theorem acc_eq (c : Dev nD) : ∀ (n : ℕ) (hn : n < cfg1.N) (p q : Fin 256),
    (outsAt1 V c n hn).2 (ix2 p q) = accN (V c main_call0_v8) (V c main_call0_v17) (n / 16) p q (n % 16) := by
  intro n
  induction n with
  | zero =>
    intro hn p q
    rw [outsAt1_A V c ⟨0, hn⟩ (Nat.zero_mod _) (by decide : ¬ (0 : ℕ) % 16 = 15)]
    dsimp only
    rw [sout1_A_eq, acc_step, k1_pay1_apply, blockDot]
    rfl
  | succ n ih =>
    intro hn p q
    have hN : n + 1 < 512 := lt_of_lt_of_eq hn N_1'
    by_cases h0 : (n + 1) % 16 = 0
    · have h1 : ¬(n + 1) % 16 = 15 := by omega
      rw [outsAt1_A V c ⟨n + 1, hn⟩ h0 h1]
      dsimp only
      rw [sout1_A_eq, acc_step, k1_pay1_apply, blockDot]
      show 0 + kSum _ _ ((n + 1) / 16) p q ((n + 1) % 16) = accN _ _ ((n + 1) / 16) p q ((n + 1) % 16)
      rw [h0]; rfl
    · obtain ⟨r, hr⟩ : ∃ r, (n + 1) % 16 = r + 1 := ⟨(n + 1) % 16 - 1, by omega⟩
      have hq : n / 16 = (n + 1) / 16 := by omega
      have hr' : n % 16 = r := by omega
      have step : (outsAt1 V c (n + 1) hn).2 (ix2 p q)
          = (outsAt1 V c n (Nat.lt_of_succ_lt hn)).2 (ix2 p q) + kSum (V c main_call0_v8) (V c main_call0_v17) ((n + 1) / 16) p q ((n + 1) % 16) := by
        by_cases h1 : (n + 1) % 16 = 15
        · rw [outsAt1_C V c ⟨n + 1, hn⟩ h0 h1]
          dsimp only
          rw [sout1_C_eq, acc_step, blockDot]; rfl
        · rw [outsAt1_B V c ⟨n + 1, hn⟩ h0 h1]
          dsimp only
          rw [sout1_B_eq, acc_step, blockDot]; rfl
      rw [step, ih (Nat.lt_of_succ_lt hn) p q, hq, hr', hr]
      rfl

/-- The output block's entry at row 256 i + p, column q. -/
def outEntry (D : S8192x1.Idx → EReal) (B : S1x256.Idx → EReal) (G : S8192x8192.Idx → EReal) (H : S8192x256.Idx → EReal)
    (i : ℕ) (p q : Fin 256) : EReal :=
  D (ix2 (⟨(256 * i + p.val) % 8192, Nat.mod_lt _ (by decide)⟩ : Fin 8192) (0 : Fin 1)) * accN G H i p q 15 + B (ix2 (0 : Fin 1) q)

/-- THE STORED BLOCK at a last contraction block. -/
theorem out_eq (c : Dev nD) (t : Fin cfg1.N) (h1 : t.val % 16 = 15) (p q : Fin 256) :
    (outsAt1 V c t.val t.isLt).1 (ix2 p q)
      = outEntry (V c main_call0_v16) (V c main_call0_v13) (V c main_call0_v8) (V c main_call0_v17) (t.val / 16) p q := by
  have h0 : ¬t.val % 16 = 0 := by omega
  have ht := t_lt1 t
  rw [outsAt1_C V c t h0 h1]
  dsimp only
  rw [out1_C_4_eq, k1_pay3_apply, acc_step, blockDot, blk1_2 V c t, blk1_3 V c t,
    acc_eq V c (t.val - 1) (Nat.lt_of_le_of_lt (Nat.sub_le _ _) t.isLt) p q]
  have hq : (t.val - 1) / 16 = t.val / 16 := by omega
  have hr : (t.val - 1) % 16 = 14 := by omega
  unfold outEntry
  rw [hq, hr, h1]
  rfl

/-- The result array, as the body groups its sums. -/
def yRefOf (G : S8192x8192.Idx → EReal) (H : S8192x256.Idx → EReal) (D : S8192x1.Idx → EReal) (B : S1x256.Idx → EReal) :
    S8192x256.Idx → EReal := fun i =>
  D (ix2 (i 0) (0 : Fin 1)) * accN G H ((i 0).val / 256) (⟨(i 0).val % 256, Nat.mod_lt _ (by decide)⟩ : Fin 256) (i 1) 15 + B (ix2 (0 : Fin 1) (i 1))

def yRefArr (c : Dev nD) : S8192x256.Idx → EReal := yRefOf (V c main_call0_v8) (V c main_call0_v17) (V c main_call0_v16) (V c main_call0_v13)

omit V in
/-- The result function at row 256 i + p is the block's entry. -/
theorem yRefOf_at (G : S8192x8192.Idx → EReal) (H : S8192x256.Idx → EReal) (D : S8192x1.Idx → EReal) (B : S1x256.Idx → EReal)
    (i : ℕ) (hi : i < 32) (p q : Fin 256) :
    yRefOf G H D B (ix2 (⟨256 * i + p.val, by omega⟩ : Fin 8192) q) = outEntry D B G H i p q := by
  unfold yRefOf outEntry
  have h1 : (256 * i + p.val) / 256 = i := by omega
  have h2 : (⟨(256 * i + p.val) % 256, Nat.mod_lt _ (by decide)⟩ : Fin 256) = p := Fin.ext (by show (256 * i + p.val) % 256 = p.val; omega)
  have h3 : (⟨(256 * i + p.val) % 8192, Nat.mod_lt _ (by decide)⟩ : Fin 8192) = (⟨256 * i + p.val, by omega⟩ : Fin 8192) := Fin.ext (by show (256 * i + p.val) % 8192 = 256 * i + p.val; omega)
  show D (ix2 (⟨256 * i + p.val, by omega⟩ : Fin 8192) (0 : Fin 1)) * accN G H ((256 * i + p.val) / 256) (⟨(256 * i + p.val) % 256, Nat.mod_lt _ (by decide)⟩ : Fin 256) q 15 + B (ix2 (0 : Fin 1) q)
      = D (ix2 (⟨(256 * i + p.val) % 8192, Nat.mod_lt _ (by decide)⟩ : Fin 8192) (0 : Fin 1)) * accN G H i p q 15 + B (ix2 (0 : Fin 1) q)
  rw [h1, h2, h3]

/-- WHAT A LAST CONTRACTION BLOCK WRITES BACK is its block of `yRefArr`. -/
theorem flushed1_eq (c : Dev nD) (t : Fin cfg1.N) (hf : (cfg1.win 4).flush t = true) :
    (dat1 V c).flushed 4 t = ((cfg1.win 4).blk t).view.read (Elt Ideal) (yRefArr V c) := by
  have h1 : t.val % 16 = 15 := by
    by_contra h
    have := noFlush1_4 t (fun hc => h ((hcond1_1 t).mp hc))
    rw [this] at hf; exact Bool.false_ne_true hf
  have ht := t_lt1 t
  obtain ⟨-, -, -, -, -, -, -, -, e8, e9⟩ := idx_facts1 t
  show (cfg1.win 4).cut (grid1.coords t) ((dat1 V c).after 4 t) = _
  rw [after1_4]
  funext j
  obtain ⟨p, q, rfl⟩ : ∃ (p q : Fin 256), j = ix2 p q := ⟨j 0, j 1, eq_ix2 j⟩
  refine (out_eq V c t h1 p q).trans ?_
  show _ = yRefArr V c (((cfg1.win 4).blk t).view.emb (ix2 p q))
  have hemb : ((cfg1.win 4).blk t).view.emb (ix2 p q) = (ix2 (⟨256 * (t.val / 16) + p.val, by omega⟩ : Fin 8192) q : S8192x256.Idx) := by
    funext a; apply Fin.ext
    match a with
    | ⟨0, _⟩ => show win1_4.index t (0 : Fin 2) * 256 + 1 * p.val = 256 * (t.val / 16) + p.val; omega
    | ⟨1, _⟩ => show win1_4.index t (1 : Fin 2) * 256 + 1 * q.val = q.val; omega
  rw [hemb]
  unfold yRefArr
  exact (yRefOf_at _ _ _ _ (t.val / 16) (by omega) p q).symm

theorem mem_blk1 (t : Fin cfg1.N) (i : S8192x256.Idx) :
    i ∈ ((cfg1.win 4).blk t).view.set ↔ ∀ a : Fin 2, win1_4.index t a * S256x256.size a ≤ (i a).val ∧ (i a).val < win1_4.index t a * S256x256.size a + S256x256.size a := by
  show i ∈ ((View.whole main_v0).slice (win1_4.rect t)).set ↔ _
  rw [View.set_slice_whole, Rect.mem_set_unit]
  exact Iff.rfl

theorem flush1_4_last : ∀ t : Fin cfg1.N, t.val % 16 = 15 → (cfg1.win 4).flush t = true :=
  (by decide +kernel : ∀ t : Fin grid1.N, t.val % 16 = 15 → win1_4.flush t = true)

/-- Every row of the result is in the block of its row block's last point. -/
theorem cover1 (i : S8192x256.Idx) : ∃ t : Fin cfg1.N, (cfg1.win 4).flush t = true ∧ i ∈ ((cfg1.win 4).blk t).view.set := by
  have hi0 : (i 0).val < 8192 := (i 0).isLt
  have hi1 : (i 1).val < 256 := (i 1).isLt
  let t : Fin cfg1.N := ⟨16 * ((i 0).val / 256) + 15, by rw [N_1']; omega⟩
  have ht : t.val = 16 * ((i 0).val / 256) + 15 := rfl
  obtain ⟨-, -, -, -, -, -, -, -, e8, e9⟩ := idx_facts1 t
  refine ⟨t, flush1_4_last t (by omega), ?_⟩
  rw [mem_blk1]
  intro a
  match a with
  | ⟨0, _⟩ => show win1_4.index t (0 : Fin 2) * 256 ≤ (i 0).val ∧ (i 0).val < win1_4.index t (0 : Fin 2) * 256 + 256; omega
  | ⟨1, _⟩ => show win1_4.index t (1 : Fin 2) * 256 ≤ (i 1).val ∧ (i 1).val < win1_4.index t (1 : Fin 2) * 256 + 256; omega

/-- THE ARRAY after the region. -/
theorem final1 (c : Dev nD) : (dat1 V c).arrAt 4 cfg1.N = yRefArr V c :=
  (dat1 V c).arrAt_eq_of_cover 4 (yRefArr V c) (fun t hf => flushed1_eq V c t hf) cover1

/-! ## Regrouped -/

open Cert.GcnSpec in
theorem accN_eq_sum (G : S8192x8192.Idx → EReal) (H : S8192x256.Idx → EReal) (i : ℕ) (p q : Fin 256) :
    ∀ n, accN G H i p q n = ∑ k ∈ Finset.range (n + 1), kSum G H i p q k
  | 0 => by
    show 0 + kSum G H i p q 0 = _
    rw [zero_add, Finset.sum_range_one]
  | n + 1 => by
    show accN G H i p q n + kSum G H i p q (n + 1) = _
    rw [accN_eq_sum G H i p q n, Finset.sum_range_succ (fun k => kSum G H i p q k) (n + 1)]

/-- The sixteen contraction blocks' sums, added in the body's order, are the sum over all rows. -/
theorem accN_total (G : S8192x8192.Idx → EReal) (H : S8192x256.Idx → EReal) (i0 : Fin 8192) (q : Fin 256) :
    accN G H (i0.val / 256) (⟨i0.val % 256, Nat.mod_lt _ (by decide)⟩ : Fin 256) q 15 = ∑ j : Fin 8192, G (ix2 j i0) * H (ix2 j q) := by
  rw [accN_eq_sum, Finset.sum_range, Cert.GcnSpec.sum_16x512 (fun j => G (ix2 j i0) * H (ix2 j q))]
  unfold kSum
  have hi := i0.isLt
  have e : (⟨(256 * (i0.val / 256) + i0.val % 256) % 8192, Nat.mod_lt _ (by decide)⟩ : Fin 8192) = i0 := Fin.ext (by show (256 * (i0.val / 256) + i0.val % 256) % 8192 = i0.val; omega)
  refine Finset.sum_congr rfl fun k _ => Finset.sum_congr rfl fun j _ => ?_
  show G (ix2 _ (⟨(256 * (i0.val / 256) + i0.val % 256) % 8192, Nat.mod_lt _ (by decide)⟩ : Fin 8192)) * _ = _
  rw [e]

end Cert.ReferenceIdeal.Hand

end
-- ==== Proof.RefValue.lean ====
import proofs.«168457_g2000706009674355_pallasbulk_102_19_alg».proof.Proof.RefRun
import proofs.«168457_g2000706009674355_pallasbulk_102_19_alg».proof.Proof.RefValEntry
import proofs.«168457_g2000706009674355_pallasbulk_102_19_alg».proof.Proof.RAggVal
import proofs.«168457_g2000706009674355_pallasbulk_102_19_alg».proof.Proof.Spec

set_option maxRecDepth 16384

noncomputable section

open scoped BigOperators

namespace Cert.ReferenceIdeal.Hand

open Idealize.ShloMosaic Idealize.ShloMosaic.TcCoe Idealize.ShloMosaic.ValueIdx
open Idealize.SL.Sem
open Idealize.ShloMosaic.Pipeline (Dat)
open Cert.ReferenceIdeal.Gen

/-! # The reference's result: the graph-convolution layer of its arguments

The aggregation region's result array, read through what the region finds in its arrays: the degree scaling times
the sum over all rows of the adjacency column against the scaled features, plus the bias. -/

/-- The aggregation region's result function at row `i0`, column `f`, its sixteen partial sums regrouped. -/
theorem yRefOf_apply (G : S8192x8192.Idx → EReal) (H : S8192x256.Idx → EReal) (D : S8192x1.Idx → EReal) (B : S1x256.Idx → EReal)
    (i0 : Fin 8192) (f : Fin 256) :
    yRefOf G H D B (ix2 i0 f) = D (ix2 i0 (0 : Fin 1)) * (∑ j : Fin 8192, G (ix2 j i0) * H (ix2 j f)) + B (ix2 (0 : Fin 1) f) := by
  rw [← accN_total G H i0 f]
  rfl

variable (m : (ℓ : Loc nD τ sig) → Buf (Elt Ideal) ℓ) (ρ : Dev nD → PrngReg)

/-- THE VALUE. After the run the result array holds the layer's output of the launch contents of the four arguments. -/
theorem ref_value (c : Dev nD) :
    Wend (F := Ideal) m ρ c (Proc.devRef .tc main_v0)
      = Cert.GcnSpec.y (m ((c : Thread nD τ).loc main_arg1)) (m ((c : Thread nD τ).loc main_arg0))
          (m ((c : Thread nD τ).loc main_arg2)) (m ((c : Thread nD τ).loc main_arg3)) := by
  refine ((Wend_result m ρ c).trans (final1 (V2 m) c)).trans ?_
  funext i
  obtain ⟨i0, f, rfl⟩ : ∃ (i0 : Fin 8192) (f : Fin 256), i = ix2 i0 f := ⟨i 0, i 1, eq_ix2 i⟩
  unfold yRefArr
  refine (yRefOf_apply (V2 m c main_call0_v8) (V2 m c main_call0_v17) (V2 m c main_call0_v16) (V2 m c main_call0_v13) i0 f).trans ?_
  unfold Cert.GcnSpec.y
  refine congrArg₂ (· + ·) (congrArg₂ (· * ·) (V2_dinv m c i0 0) (Finset.sum_congr rfl fun j _ => congrArg₂ (· * ·) ?_ ?_)) (V2_bias m c 0 f)
  · exact congrFun (V2_adj m c) (ix2 j i0)
  · exact congrFun (V2_hs m c) (ix2 j f)

end Cert.ReferenceIdeal.Hand

end
-- ==== Proof.lean ====
/-
  The claim: a graph-convolution layer written as three kernel regions (the inverse square roots of the graph's
  column sums; the features times the weights, scaled by them; the transposed graph times that, scaled again,
  plus the bias) computes, over the extended reals, what the reference computes with the column sums taken on the
  host and the aggregation accumulated over sixteen contraction blocks:
      y[i, f] = dinv i * (sum over j of g[j, i] * (dinv j * sum over k of x[j, k] * w[k, f])) + b[f],
      dinv i = 1 / sqrt (sum over j of g[j, i]) where that sum is positive, 0 otherwise.
  The two programs add the same terms in different groupings (32 row slabs of 256 and 4 chunks of 2048 on one
  side; one host reduction and 16 blocks of 512 on the other); addition of extended reals is commutative and
  associative, so both results are the one function above of the four arguments, and the precondition (finite
  inputs) is never opened. Each program runs to the end, faults nowhere and leaves its arguments as launched:
  every region reads its inputs through windows whose arrays are never written back, and the host operations
  write only their own results. The word-level program and its idealization have the same text (no operation
  was rewritten), so their frames are one proof read at two instances.
-/
import proofs.«168457_g2000706009674355_pallasbulk_102_19_alg».proof.Defs
import proofs.«168457_g2000706009674355_pallasbulk_102_19_alg».proof.Proof.Gen.Kernel
import proofs.«168457_g2000706009674355_pallasbulk_102_19_alg».proof.Proof.Gen.KernelIdeal
import proofs.«168457_g2000706009674355_pallasbulk_102_19_alg».proof.Proof.Gen.ReferenceIdeal
import proofs.«168457_g2000706009674355_pallasbulk_102_19_alg».proof.Proof.Gen.Pre_finite_inputs
import proofs.«168457_g2000706009674355_pallasbulk_102_19_alg».proof.Proof.KerBEnds
import proofs.«168457_g2000706009674355_pallasbulk_102_19_alg».proof.Proof.KerValue
import proofs.«168457_g2000706009674355_pallasbulk_102_19_alg».proof.Proof.RefValue

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- And the reference: its run ends with every unscoped buffer at the last valuation, which at each argument is the
    launch memory. -/
theorem frame_ri : Cert.frame_ReferenceIdeal := fun m ρ _ =>
  (θ_run Cert.ReferenceIdeal.defs _ _).mono (fun r h c =>
    ⟨(h c _ (Cert.ReferenceIdeal.Hand.mem_uc Cert.ReferenceIdeal.main_arg0 (by decide))).trans (Cert.ReferenceIdeal.Hand.Wend_main_arg0 m ρ c),
     (h c _ (Cert.ReferenceIdeal.Hand.mem_uc Cert.ReferenceIdeal.main_arg1 (by decide))).trans (Cert.ReferenceIdeal.Hand.Wend_main_arg1 m ρ c),
     (h c _ (Cert.ReferenceIdeal.Hand.mem_uc Cert.ReferenceIdeal.main_arg2 (by decide))).trans (Cert.ReferenceIdeal.Hand.Wend_main_arg2 m ρ c),
     (h c _ (Cert.ReferenceIdeal.Hand.mem_uc Cert.ReferenceIdeal.main_arg3 (by decide))).trans (Cert.ReferenceIdeal.Hand.Wend_main_arg3 m ρ c)⟩)
    (Cert.ReferenceIdeal.Hand.run_all (F := Ideal) m ρ)

/-- No operation of the kernel was rewritten when it was idealized: nothing to preserve. -/
theorem preserves : Cert.preserves_Kernel_KernelIdeal := trivial

/-- From memories agreeing on the arguments both idealized programs end with the result at the one function y of
    the arguments, and the arguments unchanged. -/
theorem algebraic : Cert.algebraic_KernelIdeal_ReferenceIdeal := by
  intro m ρ m' ρ' _ hagree
  refine ⟨fun c => Cert.GcnSpec.y (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (Cert.KernelIdeal.Hand.ker_value m c), (h c).2⟩)
      (Cert.KernelIdeal.Hand.run_read (F := Ideal) m ρ)
  · refine (θ_run Cert.ReferenceIdeal.defs _ _).mono (fun r h c => ⟨?_,
      (h c _ (Cert.ReferenceIdeal.Hand.mem_uc Cert.ReferenceIdeal.main_arg0 (by decide))).trans (Cert.ReferenceIdeal.Hand.Wend_main_arg0 m' ρ' c),
      (h c _ (Cert.ReferenceIdeal.Hand.mem_uc Cert.ReferenceIdeal.main_arg1 (by decide))).trans (Cert.ReferenceIdeal.Hand.Wend_main_arg1 m' ρ' c),
      (h c _ (Cert.ReferenceIdeal.Hand.mem_uc Cert.ReferenceIdeal.main_arg2 (by decide))).trans (Cert.ReferenceIdeal.Hand.Wend_main_arg2 m' ρ' c),
      (h c _ (Cert.ReferenceIdeal.Hand.mem_uc Cert.ReferenceIdeal.main_arg3 (by decide))).trans (Cert.ReferenceIdeal.Hand.Wend_main_arg3 m' ρ' c)⟩)
      (Cert.ReferenceIdeal.Hand.run_all (F := Ideal) m' ρ')
    refine ((h c _ (Cert.ReferenceIdeal.Hand.mem_uc Cert.ReferenceIdeal.main_v0 (by decide))).trans (Cert.ReferenceIdeal.Hand.ref_value m' ρ' c)).trans ?_
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
